-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256x8x8 : Shape := ⟨4, ![1024, 256, 8, 8]⟩
abbrev S512x256 : Shape := ⟨2, ![512, 256]⟩
abbrev S512 : Shape := ⟨1, ![512]⟩
abbrev S256x512 : Shape := ⟨2, ![256, 512]⟩
abbrev S256 : Shape := ⟨1, ![256]⟩
abbrev S256x256 : Shape := ⟨2, ![256, 256]⟩
abbrev S_ : Shape := ⟨0, ![]⟩

class Facts : Prop where
  bcast_S_S1024x256x8x8 : S_.BroadcastsInDim S1024x256x8x8 (![] : Fin 0 → Fin S1024x256x8x8.rank)
  reducesTo_S1024x256x8x8_S_d0_1_2_3 : S1024x256x8x8.ReducesTo [0, 1, 2, 3] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x512 .f32) (main_arg5 : FVec F S256 .f32) (main_arg6 : FVec F S256x256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  main_v33

def fn {F : FTy → Type} [FloatOps F] (main_arg0 : FVec F S1024x256x8x8 .f32) (main_arg1 : FVec F S1024x256x8x8 .f32) (main_arg2 : FVec F S512x256 .f32) (main_arg3 : FVec F S512 .f32) (main_arg4 : FVec F S256x512 .f32) (main_arg5 : FVec F S256 .f32) (main_arg6 : FVec F S256x256 .f32) : IVec S_ 1 :=
  let main_v0 : FVec F S1024x256x8x8 .f32 := Host.absf main_arg0
  let main_cst : FVec F S_ .f32 := constant S_ .f32 0x7F800000#32
  let main_v1 : FVec F S1024x256x8x8 .f32 := broadcastInDim S1024x256x8x8 ![] bcast_S_S1024x256x8x8 main_cst
  let main_v2 : IVec S1024x256x8x8 1 := cmpf .olt main_v0 main_v1
  let main_c : IVec S_ 1 := constantI S_ 1 1#1
  let main_v3 : IVec S_ 1 := (fun x v => Host.reduce IntOp.andi x v reducesTo_S1024x256x8x8_S_d0_1_2_3 h_S_) main_v2 main_c
  let main_v4 : FVec F S1024x256x8x8 .f32 := Host.absf main_arg1
  let main_cst_0 : FVec F S_ .f32 := constant S_ .f32 0x7F800000#32
  let main_v5 : FVec F S1024x256x8x8 .f32 := broadcastInDim S1024x256x8x8 ![] bcast_S_S1024x256x8x8 main_cst_0
  let main_v6 : IVec S1024x256x8x8 1 := cmpf .olt main_v4 main_v5
  let main_c_1 : IVec S_ 1 := constantI S_ 1 1#1
  let main_v7 : IVec S_ 1 := (fun x v => Host.reduce IntOp.andi x v reducesTo_S1024x256x8x8_S_d0_1_2_3 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_v13 main_v16
-- ==== Kernel.lean ====
abbrev S1024x256x8x8 : Shape := ⟨4, ![1024, 256, 8, 8]⟩
abbrev S512x256 : Shape := ⟨2, ![512, 256]⟩
abbrev S512 : Shape := ⟨1, ![512]⟩
abbrev S256x512 : Shape := ⟨2, ![256, 512]⟩
abbrev S256 : Shape := ⟨1, ![256]⟩
abbrev S256x256 : Shape := ⟨2, ![256, 256]⟩
abbrev S1x512 : Shape := ⟨2, ![1, 512]⟩
abbrev S1x256 : Shape := ⟨2, ![1, 256]⟩
abbrev S64x1024x256 : Shape := ⟨3, ![64, 1024, 256]⟩
abbrev S64x256x8x8 : Shape := ⟨4, ![64, 256, 8, 8]⟩
abbrev S64x64x256 : Shape := ⟨3, ![64, 64, 256]⟩
abbrev S64x256x1x1 : Shape := ⟨4, ![64, 256, 1, 1]⟩
abbrev S64x256 : Shape := ⟨2, ![64, 256]⟩
abbrev S64x512 : Shape := ⟨2, ![64, 512]⟩
abbrev S1x64x256 : Shape := ⟨3, ![1, 64, 256]⟩
abbrev S64x1024x1024 : Shape := ⟨3, ![64, 1024, 1024]⟩
abbrev S1x1024x256 : Shape := ⟨3, ![1, 1024, 256]⟩
abbrev S1x1024x1024 : Shape := ⟨3, ![1, 1024, 1024]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 18
  | .vmem => 19
  | .smem => 0
  | _ => 0

abbrev bufTy : (tb : Table) → Fin (tcTables nBuf tb) → BufTy
  | .hbm, ⟨0, _⟩ => ⟨S1024x256x8x8, .f32⟩
  | .hbm, ⟨1, _⟩ => ⟨S1024x256x8x8, .f32⟩
  | .hbm, ⟨2, _⟩ => ⟨S512x256, .f32⟩
  | .hbm, ⟨3, _⟩ => ⟨S512, .f32⟩
  | .hbm, ⟨4, _⟩ => ⟨S256x512, .f32⟩
  | .hbm, ⟨5, _⟩ => ⟨S256, .f32⟩
  | .hbm, ⟨6, _⟩ => ⟨S256x256, .f32⟩
  | .hbm, ⟨7, _⟩ => ⟨S256x512, .f32⟩
  | .hbm, ⟨8, _⟩ => ⟨S256x512, .bf16⟩
  | .hbm, ⟨9, _⟩ => ⟨S512x256, .f32⟩
  | .hbm, ⟨10, _⟩ => ⟨S512x256, .bf16⟩
  | .hbm, ⟨11, _⟩ => ⟨S256x256, .f32⟩
  | .hbm, ⟨12, _⟩ => ⟨S256x256, .bf16⟩
  | .hbm, ⟨13, _⟩ => ⟨S1x512, .f32⟩
  | .hbm, ⟨14, _⟩ => ⟨S1x256, .f32⟩
  | .hbm, ⟨15, _⟩ => ⟨S64x1024x256, .bf16⟩
  | .hbm, ⟨16, _⟩ => ⟨S64x1024x256, .bf16⟩
  | .hbm, ⟨17, _⟩ => ⟨S64x1024x1024, .f32⟩
  | .local _ .vmem, ⟨0, _⟩ => ⟨S64x256x8x8, .f32⟩
  | .local _ .vmem, ⟨1, _⟩ => ⟨S64x256x8x8, .f32⟩
  | .local _ .vmem, ⟨2, _⟩ => ⟨S64x256x8x8, .f32⟩
  | .local _ .vmem, ⟨3, _⟩ => ⟨S64x256x8x8, .f32⟩
  | .local _ .vmem, ⟨4, _⟩ => ⟨S256x512, .bf16⟩
  | .local _ .vmem, ⟨5, _⟩ => ⟨S1x512, .f32⟩
  | .local _ .vmem, ⟨6, _⟩ => ⟨S512x256, .bf16⟩
  | .local _ .vmem, ⟨7, _⟩ => ⟨S1x256, .f32⟩
  | .local _ .vmem, ⟨8, _⟩ => ⟨S256x256, .bf16⟩
  | .local _ .vmem, ⟨9, _⟩ => ⟨S64x64x256, .bf16⟩
  | .local _ .vmem, ⟨10, _⟩ => ⟨S64x64x256, .bf16⟩
  | .local _ .vmem, ⟨11, _⟩ => ⟨S64x64x256, .bf16⟩
  | .local _ .vmem, ⟨12, _⟩ => ⟨S64x64x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .bf16⟩
  | .local _ .vmem, ⟨17, _⟩ => ⟨S1x1024x1024, .f32⟩
  | .local _ .vmem, ⟨18, _⟩ => ⟨S1x1024x1024, .f32⟩
  | _, _ => ⟨S1024x256x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x256x8x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256x8x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x64x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x64x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S512x256_S256x512_1_0 : S512x256.Transposes [1, 0] S256x512
  bitsLt_bf16_f32 : FTy.bits .bf16 < FTy.bits .f32
  transposes_S256x512_S512x256_1_0 : S256x512.Transposes [1, 0] S512x256
  transposes_S256x256_S256x256_1_0 : S256x256.Transposes [1, 0] S256x256
  shapeCasts_S512_S1x512 : S512.ShapeCasts S1x512
  shapeCasts_S256_S1x256 : S256.ShapeCasts S1x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S64x256x8x8_S64x256x1x1_0_0_0_0 : ∀ a, (![0, 0, 0, 0] : Fin 4 → Nat) a + S64x256x1x1.size a ≤ S64x256x8x8.size a
  h_S64x256x1x1 : 0 < S64x256x1x1.numel
  shapeCasts_S64x256x1x1_S64x256 : S64x256x1x1.ShapeCasts S64x256
  broadcasts_S1x512_S64x512 : S1x512.Broadcasts S64x512
  broadcasts_S1x256_S64x256 : S1x256.Broadcasts S64x256
  inb_S64x64x256_S1x64x256_0_0_0 : ∀ a, (![0, 0, 0] : Fin 3 → Nat) a + S1x64x256.size a ≤ S64x64x256.size a
  h_S1x64x256 : 0 < S1x64x256.numel
  shapeCasts_S1x64x256_S64x256 : S1x64x256.ShapeCasts S64x256
  shapeCasts_S64x256_S1x64x256 : S64x256.ShapeCasts S1x64x256
  packedbf16_S64x64x256_S1x64x256_0_0_0 : (Rect.unit (s := S64x64x256) ![0, 0, 0] S1x64x256.size inb_S64x64x256_S1x64x256_0_0_0).PackedRows (EltTy.packing .bf16)
  inb_S64x256x8x8_S64x256x1x1_0_0_0_1 : ∀ a, (![0, 0, 0, 1] : Fin 4 → Nat) a + S64x256x1x1.size a ≤ S64x256x8x8.size a
  inb_S64x64x256_S1x64x256_1_0_0 : ∀ a, (![1, 0, 0] : Fin 3 → Nat) a + S1x64x256.size a ≤ S64x64x256.size a
  packedbf16_S64x64x256_S1x64x256_1_0_0 : (Rect.unit (s := S64x64x256) ![1, 0, 0] S1x64x256.size inb_S64x64x256_S1x64x256_1_0_0).PackedRows (EltTy.packing .bf16)
  inb_S64x256x8x8_S64x256x1x1_0_0_0_2 : ∀ a, (![0, 0, 0, 2] : Fin 4 → Nat) a + S64x256x1x1.size a ≤ S64x256x8x8.size a
  inb_S64x64x256_S1x64x256_2_0_0 : ∀ a, (![2, 0, 0] : Fin 3 → Nat) a + S1x64x256.size a ≤ S64x64x256.size a
  packedbf16_S64x64x256_S1x64x256_2_0_0 : (Rect.unit (s := S64x64x256) ![2, 0, 0] S1x64x256.size inb_S64x64x256_S1x64x256_2_0_0).PackedRows (EltTy.packing .bf16)
  inb_S64x256x8x8_S64x256x1x1_0_0_0_3 : ∀ a, (![0, 0, 0, 3] : Fin 4 → Nat) a + S64x256x1x1.size a ≤ S64x256x8x8.size a
  inb_S64x64x256_S1x64x256_3_0_0 : ∀ a, (![3, 0, 0] : Fin 3 → Nat) a + S1x64x256.size a ≤ S64x64x256.size a
  packedbf16_S64x64x256_S1x64x256_3_0_0 : (Rect.unit (s := S64x64x256) ![3, 0, 0] S1x64x256.size inb_S64x64x256_S1x64x256_3_0_0).PackedRows (EltTy.packing .bf16)
  inb_S64x256x8x8_S64x256x1x1_0_0_0_4 : ∀ a, (![0, 0, 0, 4] : Fin 4 → Nat) a + S64x256x1x1.size a ≤ S64x256x8x8.size a
  inb_S64x64x256_S1x64x256_4_0_0 : ∀ a, (![4, 0, 0] : Fin 3 → Nat) a + S1x64x256.size a ≤ S64x64x256.size a
  packedbf16_S64x64x256_S1x64x256_4_0_0 : (Rect.unit (s := S64x64x256) ![4, 0, 0] S1x64x256.size inb_S64x64x256_S1x64x256_4_0_0).PackedRows (EltTy.packing .bf16)
  inb_S64x256x8x8_S64x256x1x1_0_0_0_5 : ∀ a, (![0, 0, 0, 5] : Fin 4 → Nat) a + S64x256x1x1.size a ≤ S64x256x8x8.size a
  inb_S64x64x256_S1x64x256_5_0_0 : ∀ a, (![5, 0, 0] : Fin 3 → Nat) a + S1x64x256.size a ≤ S64x64x256.size a
  packedbf16_S64x64x256_S1x64x256_5_0_0 : (Rect.unit (s := S64x64x256) ![5, 0, 0] S1x64x256.size inb_S64x64x256_S1x64x256_5_0_0).PackedRows (EltTy.packing .bf16)
  inb_S64x256x8x8_S64x256x1x1_0_0_0_6 : ∀ a, (![0, 0, 0, 6] : Fin 4 → Nat) a + S64x256x1x1.size a ≤ S64x256x8x8.size a
  inb_S64x64x256_S1x64x256_6_0_0 : ∀ a, (![6, 0, 0] : Fin 3 → Nat) a + S1x64x256.size a ≤ S64x64x256.size a
  packedbf16_S64x64x256_S1x64x256_6_0_0 : (Rect.unit (s := S64x64x256) ![6, 0, 0] S1x64x256.size inb_S64x64x256_S1x64x256_6_0_0).PackedRows (EltTy.packing .bf16)
  inb_S64x256x8x8_S64x256x1x1_0_0_0_7 : ∀ a, (![0, 0, 0, 7] : Fin 4 → Nat) a + S64x256x1x1.size a ≤ S64x256x8x8.size a
  inb_S64x64x256_S1x64x256_7_0_0 : ∀ a, (![7, 0, 0] : Fin 3 → Nat) a + S1x64x256.size a ≤ S64x64x256.size a
  packedbf16_S64x64x256_S1x64x256_7_0_0 : (Rect.unit (s := S64x64x256) ![7, 0, 0] S1x64x256.size inb_S64x64x256_S1x64x256_7_0_0).PackedRows (EltTy.packing .bf16)
  inb_S64x256x8x8_S64x256x1x1_0_0_1_0 : ∀ a, (![0, 0, 1, 0] : Fin 4 → Nat) a + S64x256x1x1.size a ≤ S64x256x8x8.size a
  inb_S64x64x256_S1x64x256_8_0_0 : ∀ a, (![8, 0, 0] : Fin 3 → Nat) a + S1x64x256.size a ≤ S64x64x256.size a
  packedbf16_S64x64x256_S1x64x256_8_0_0 : (Rect.unit (s := S64x64x256) ![8, 0, 0] S1x64x256.size inb_S64x64x256_S1x64x256_8_0_0).PackedRows (EltTy.packing .bf16)
  inb_S64x256x8x8_S64x256x1x1_0_0_1_1 : ∀ a, (![0, 0, 1, 1] : Fin 4 → Nat) a + S64x256x1x1.size a ≤ S64x256x8x8.size a
  inb_S64x64x256_S1x64x256_9_0_0 : ∀ a, (![9, 0, 0] : Fin 3 → Nat) a + S1x64x256.size a ≤ S64x64x256.size a
  packedbf16_S64x64x256_S1x64x256_9_0_0 : (Rect.unit (s := S64x64x256) ![9, 0, 0] S1x64x256.size inb_S64x64x256_S1x64x256_9_0_0).PackedRows (EltTy.packing .bf16)
  inb_S64x256x8x8_S64x256x1x1_0_0_1_2 : ∀ a, (![0, 0, 1, 2] : Fin 4 → Nat) a + S64x256x1x1.size a ≤ S64x256x8x8.size a
  inb_S64x64x256_S1x64x256_10_0_0 : ∀ a, (![10, 0, 0] : Fin 3 → Nat) a + S1x64x256.size a ≤ S64x64x256.size a
  packedbf16_S64x64x256_S1x64x256_10_0_0 : (Rect.unit (s := S64x64x256) ![10, 0, 0] S1x64x256.size inb_S64x64x256_S1x64x256_10_0_0).PackedRows (EltTy.packing .bf16)
  inb_S64x256x8x8_S64x256x1x1_0_0_1_3 : ∀ a, (![0, 0, 1, 3] : Fin 4 → Nat) a + S64x256x1x1.size a ≤ S64x256x8x8.size a
  inb_S64x64x256_S1x64x256_11_0_0 : ∀ a, (![11, 0, 0] : Fin 3 → Nat) a + S1x64x256.size a ≤ S64x64x256.size a
  packedbf16_S64x64x256_S1x64x256_11_0_0 : (Rect.unit (s := S64x64x256) ![11, 0, 0] S1x64x256.size inb_S64x64x256_S1x64x256_11_0_0).PackedRows (EltTy.packing .bf16)
  inb_S64x256x8x8_S64x256x1x1_0_0_1_4 : ∀ a, (![0, 0, 1, 4] : Fin 4 → Nat) a + S64x256x1x1.size a ≤ S64x256x8x8.size a
  inb_S64x64x256_S1x64x256_12_0_0 : ∀ a, (![12, 0, 0] : Fin 3 → Nat) a + S1x64x256.size a ≤ S64x64x256.size a
  packedbf16_S64x64x256_S1x64x256_12_0_0 : (Rect.unit (s := S64x64x256) ![12, 0, 0] S1x64x256.size inb_S64x64x256_S1x64x256_12_0_0).PackedRows (EltTy.packing .bf16)
  inb_S64x256x8x8_S64x256x1x1_0_0_1_5 : ∀ a, (![0, 0, 1, 5] : Fin 4 → Nat) a + S64x256x1x1.size a ≤ S64x256x8x8.size a
  inb_S64x64x256_S1x64x256_13_0_0 : ∀ a, (![13, 0, 0] : Fin 3 → Nat) a + S1x64x256.size a ≤ S64x64x256.size a
  packedbf16_S64x64x256_S1x64x256_13_0_0 : (Rect.unit (s := S64x64x256) ![13, 0, 0] S1x64x256.size inb_S64x64x256_S1x64x256_13_0_0).PackedRows (EltTy.packing .bf16)
  inb_S64x256x8x8_S64x256x1x1_0_0_1_6 : ∀ a, (![0, 0, 1, 6] : Fin 4 → Nat) a + S64x256x1x1.size a ≤ S64x256x8x8.size a
  inb_S64x64x256_S1x64x256_14_0_0 : ∀ a, (![14, 0, 0] : Fin 3 → Nat) a + S1x64x256.size a ≤ S64x64x256.size a
  packedbf16_S64x64x256_S1x64x256_14_0_0 : (Rect.unit (s := S64x64x256) ![14, 0, 0] S1x64x256.size inb_S64x64x256_S1x64x256_14_0_0).PackedRows (EltTy.packing .bf16)
  inb_S64x256x8x8_S64x256x1x1_0_0_1_7 : ∀ a, (![0, 0, 1, 7] : Fin 4 → Nat) a + S64x256x1x1.size a ≤ S64x256x8x8.size a
  inb_S64x64x256_S1x64x256_15_0_0 : ∀ a, (![15, 0, 0] : Fin 3 → Nat) a + S1x64x256.size a ≤ S64x64x256.size a
  packedbf16_S64x64x256_S1x64x256_15_0_0 : (Rect.unit (s := S64x64x256) ![15, 0, 0] S1x64x256.size inb_S64x64x256_S1x64x256_15_0_0).PackedRows (EltTy.packing .bf16)
  inb_S64x256x8x8_S64x256x1x1_0_0_2_0 : ∀ a, (![0, 0, 2, 0] : Fin 4 → Nat) a + S64x256x1x1.size a ≤ S64x256x8x8.size a
  inb_S64x64x256_S1x64x256_16_0_0 : ∀ a, (![16, 0, 0] : Fin 3 → Nat) a + S1x64x256.size a ≤ S64x64x256.size a
  packedbf16_S64x64x256_S1x64x256_16_0_0 : (Rect.unit (s := S64x64x256) ![16, 0, 0] S1x64x256.size inb_S64x64x256_S1x64x256_16_0_0).PackedRows (EltTy.packing .bf16)
  inb_S64x256x8x8_S64x256x1x1_0_0_2_1 : ∀ a, (![0, 0, 2, 1] : Fin 4 → Nat) a + S64x256x1x1.size a ≤ S64x256x8x8.size a
  inb_S64x64x256_S1x64x256_17_0_0 : ∀ a, (![17, 0, 0] : Fin 3 → Nat) a + S1x64x256.size a ≤ S64x64x256.size a
  packedbf16_S64x64x256_S1x64x256_17_0_0 : (Rect.unit (s := S64x64x256) ![17, 0, 0] S1x64x256.size inb_S64x64x256_S1x64x256_17_0_0).PackedRows (EltTy.packing .bf16)
  inb_S64x256x8x8_S64x256x1x1_0_0_2_2 : ∀ a, (![0, 0, 2, 2] : Fin 4 → Nat) a + S64x256x1x1.size a ≤ S64x256x8x8.size a
  inb_S64x64x256_S1x64x256_18_0_0 : ∀ a, (![18, 0, 0] : Fin 3 → Nat) a + S1x64x256.size a ≤ S64x64x256.size a
  packedbf16_S64x64x256_S1x64x256_18_0_0 : (Rect.unit (s := S64x64x256) ![18, 0, 0] S1x64x256.size inb_S64x64x256_S1x64x256_18_0_0).PackedRows (EltTy.packing .bf16)
  inb_S64x256x8x8_S64x256x1x1_0_0_2_3 : ∀ a, (![0, 0, 2, 3] : Fin 4 → Nat) a + S64x256x1x1.size a ≤ S64x256x8x8.size a
  inb_S64x64x256_S1x64x256_19_0_0 : ∀ a, (![19, 0, 0] : Fin 3 → Nat) a + S1x64x256.size a ≤ S64x64x256.size a
  packedbf16_S64x64x256_S1x64x256_19_0_0 : (Rect.unit (s := S64x64x256) ![19, 0, 0] S1x64x256.size inb_S64x64x256_S1x64x256_19_0_0).PackedRows (EltTy.packing .bf16)
  inb_S64x256x8x8_S64x256x1x1_0_0_2_4 : ∀ a, (![0, 0, 2, 4] : Fin 4 → Nat) a + S64x256x1x1.size a ≤ S64x256x8x8.size a
  inb_S64x64x256_S1x64x256_20_0_0 : ∀ a, (![20, 0, 0] : Fin 3 → Nat) a + S1x64x256.size a ≤ S64x64x256.size a
  packedbf16_S64x64x256_S1x64x256_20_0_0 : (Rect.unit (s := S64x64x256) ![20, 0, 0] S1x64x256.size inb_S64x64x256_S1x64x256_20_0_0).PackedRows (EltTy.packing .bf16)
  inb_S64x256x8x8_S64x256x1x1_0_0_2_5 : ∀ a, (![0, 0, 2, 5] : Fin 4 → Nat) a + S64x256x1x1.size a ≤ S64x256x8x8.size a
  inb_S64x64x256_S1x64x256_21_0_0 : ∀ a, (![21, 0, 0] : Fin 3 → Nat) a + S1x64x256.size a ≤ S64x64x256.size a
  packedbf16_S64x64x256_S1x64x256_21_0_0 : (Rect.unit (s := S64x64x256) ![21, 0, 0] S1x64x256.size inb_S64x64x256_S1x64x256_21_0_0).PackedRows (EltTy.packing .bf16)
  inb_S64x256x8x8_S64x256x1x1_0_0_2_6 : ∀ a, (![0, 0, 2, 6] : Fin 4 → Nat) a + S64x256x1x1.size a ≤ S64x256x8x8.size a
  inb_S64x64x256_S1x64x256_22_0_0 : ∀ a, (![22, 0, 0] : Fin 3 → Nat) a + S1x64x256.size a ≤ S64x64x256.size a
  packedbf16_S64x64x256_S1x64x256_22_0_0 : (Rect.unit (s := S64x64x256) ![22, 0, 0] S1x64x256.size inb_S64x64x256_S1x64x256_22_0_0).PackedRows (EltTy.packing .bf16)
  inb_S64x256x8x8_S64x256x1x1_0_0_2_7 : ∀ a, (![0, 0, 2, 7] : Fin 4 → Nat) a + S64x256x1x1.size a ≤ S64x256x8x8.size a
  inb_S64x64x256_S1x64x256_23_0_0 : ∀ a, (![23, 0, 0] : Fin 3 → Nat) a + S1x64x256.size a ≤ S64x64x256.size a
  packedbf16_S64x64x256_S1x64x256_23_0_0 : (Rect.unit (s := S64x64x256) ![23, 0, 0] S1x64x256.size inb_S64x64x256_S1x64x256_23_0_0).PackedRows (EltTy.packing .bf16)
  inb_S64x256x8x8_S64x256x1x1_0_0_3_0 : ∀ a, (![0, 0, 3, 0] : Fin 4 → Nat) a + S64x256x1x1.size a ≤ S64x256x8x8.size a
  inb_S64x64x256_S1x64x256_24_0_0 : ∀ a, (![24, 0, 0] : Fin 3 → Nat) a + S1x64x256.size a ≤ S64x64x256.size a
  packedbf16_S64x64x256_S1x64x256_24_0_0 : (Rect.unit (s := S64x64x256) ![24, 0, 0] S1x64x256.size inb_S64x64x256_S1x64x256_24_0_0).PackedRows (EltTy.packing .bf16)
  inb_S64x256x8x8_S64x256x1x1_0_0_3_1 : ∀ a, (![0, 0, 3, 1] : Fin 4 → Nat) a + S64x256x1x1.size a ≤ S64x256x8x8.size a
  inb_S64x64x256_S1x64x256_25_0_0 : ∀ a, (![25, 0, 0] : Fin 3 → Nat) a + S1x64x256.size a ≤ S64x64x256.size a
  packedbf16_S64x64x256_S1x64x256_25_0_0 : (Rect.unit (s := S64x64x256) ![25, 0, 0] S1x64x256.size inb_S64x64x256_S1x64x256_25_0_0).PackedRows (EltTy.packing .bf16)
  inb_S64x256x8x8_S64x256x1x1_0_0_3_2 : ∀ a, (![0, 0, 3, 2] : Fin 4 → Nat) a + S64x256x1x1.size a ≤ S64x256x8x8.size a
  inb_S64x64x256_S1x64x256_26_0_0 : ∀ a, (![26, 0, 0] : Fin 3 → Nat) a + S1x64x256.size a ≤ S64x64x256.size a
  packedbf16_S64x64x256_S1x64x256_26_0_0 : (Rect.unit (s := S64x64x256) ![26, 0, 0] S1x64x256.size inb_S64x64x256_S1x64x256_26_0_0).PackedRows (EltTy.packing .bf16)
  inb_S64x256x8x8_S64x256x1x1_0_0_3_3 : ∀ a, (![0, 0, 3, 3] : Fin 4 → Nat) a + S64x256x1x1.size a ≤ S64x256x8x8.size a
  inb_S64x64x256_S1x64x256_27_0_0 : ∀ a, (![27, 0, 0] : Fin 3 → Nat) a + S1x64x256.size a ≤ S64x64x256.size a
  packedbf16_S64x64x256_S1x64x256_27_0_0 : (Rect.unit (s := S64x64x256) ![27, 0, 0] S1x64x256.size inb_S64x64x256_S1x64x256_27_0_0).PackedRows (EltTy.packing .bf16)
  inb_S64x256x8x8_S64x256x1x1_0_0_3_4 : ∀ a, (![0, 0, 3, 4] : Fin 4 → Nat) a + S64x256x1x1.size a ≤ S64x256x8x8.size a
  inb_S64x64x256_S1x64x256_28_0_0 : ∀ a, (![28, 0, 0] : Fin 3 → Nat) a + S1x64x256.size a ≤ S64x64x256.size a
  packedbf16_S64x64x256_S1x64x256_28_0_0 : (Rect.unit (s := S64x64x256) ![28, 0, 0] S1x64x256.size inb_S64x64x256_S1x64x256_28_0_0).PackedRows (EltTy.packing .bf16)
  inb_S64x256x8x8_S64x256x1x1_0_0_3_5 : ∀ a, (![0, 0, 3, 5] : Fin 4 → Nat) a + S64x256x1x1.size a ≤ S64x256x8x8.size a
  inb_S64x64x256_S1x64x256_29_0_0 : ∀ a, (![29, 0, 0] : Fin 3 → Nat) a + S1x64x256.size a ≤ S64x64x256.size a
  packedbf16_S64x64x256_S1x64x256_29_0_0 : (Rect.unit (s := S64x64x256) ![29, 0, 0] S1x64x256.size inb_S64x64x256_S1x64x256_29_0_0).PackedRows (EltTy.packing .bf16)
  inb_S64x256x8x8_S64x256x1x1_0_0_3_6 : ∀ a, (![0, 0, 3, 6] : Fin 4 → Nat) a + S64x256x1x1.size a ≤ S64x256x8x8.size a
  inb_S64x64x256_S1x64x256_30_0_0 : ∀ a, (![30, 0, 0] : Fin 3 → Nat) a + S1x64x256.size a ≤ S64x64x256.size a
  packedbf16_S64x64x256_S1x64x256_30_0_0 : (Rect.unit (s := S64x64x256) ![30, 0, 0] S1x64x256.size inb_S64x64x256_S1x64x256_30_0_0).PackedRows (EltTy.packing .bf16)
  inb_S64x256x8x8_S64x256x1x1_0_0_3_7 : ∀ a, (![0, 0, 3, 7] : Fin 4 → Nat) a + S64x256x1x1.size a ≤ S64x256x8x8.size a
  inb_S64x64x256_S1x64x256_31_0_0 : ∀ a, (![31, 0, 0] : Fin 3 → Nat) a + S1x64x256.size a ≤ S64x64x256.size a
  packedbf16_S64x64x256_S1x64x256_31_0_0 : (Rect.unit (s := S64x64x256) ![31, 0, 0] S1x64x256.size inb_S64x64x256_S1x64x256_31_0_0).PackedRows (EltTy.packing .bf16)
  inb_S64x256x8x8_S64x256x1x1_0_0_4_0 : ∀ a, (![0, 0, 4, 0] : Fin 4 → Nat) a + S64x256x1x1.size a ≤ S64x256x8x8.size a
  inb_S64x64x256_S1x64x256_32_0_0 : ∀ a, (![32, 0, 0] : Fin 3 → Nat) a + S1x64x256.size a ≤ S64x64x256.size a
  packedbf16_S64x64x256_S1x64x256_32_0_0 : (Rect.unit (s := S64x64x256) ![32, 0, 0] S1x64x256.size inb_S64x64x256_S1x64x256_32_0_0).PackedRows (EltTy.packing .bf16)
  inb_S64x256x8x8_S64x256x1x1_0_0_4_1 : ∀ a, (![0, 0, 4, 1] : Fin 4 → Nat) a + S64x256x1x1.size a ≤ S64x256x8x8.size a
  inb_S64x64x256_S1x64x256_33_0_0 : ∀ a, (![33, 0, 0] : Fin 3 → Nat) a + S1x64x256.size a ≤ S64x64x256.size a
  packedbf16_S64x64x256_S1x64x256_33_0_0 : (Rect.unit (s := S64x64x256) ![33, 0, 0] S1x64x256.size inb_S64x64x256_S1x64x256_33_0_0).PackedRows (EltTy.packing .bf16)
  inb_S64x256x8x8_S64x256x1x1_0_0_4_2 : ∀ a, (![0, 0, 4, 2] : Fin 4 → Nat) a + S64x256x1x1.size a ≤ S64x256x8x8.size a
  inb_S64x64x256_S1x64x256_34_0_0 : ∀ a, (![34, 0, 0] : Fin 3 → Nat) a + S1x64x256.size a ≤ S64x64x256.size a
  packedbf16_S64x64x256_S1x64x256_34_0_0 : (Rect.unit (s := S64x64x256) ![34, 0, 0] S1x64x256.size inb_S64x64x256_S1x64x256_34_0_0).PackedRows (EltTy.packing .bf16)
  inb_S64x256x8x8_S64x256x1x1_0_0_4_3 : ∀ a, (![0, 0, 4, 3] : Fin 4 → Nat) a + S64x256x1x1.size a ≤ S64x256x8x8.size a
  inb_S64x64x256_S1x64x256_35_0_0 : ∀ a, (![35, 0, 0] : Fin 3 → Nat) a + S1x64x256.size a ≤ S64x64x256.size a
  packedbf16_S64x64x256_S1x64x256_35_0_0 : (Rect.unit (s := S64x64x256) ![35, 0, 0] S1x64x256.size inb_S64x64x256_S1x64x256_35_0_0).PackedRows (EltTy.packing .bf16)
  inb_S64x256x8x8_S64x256x1x1_0_0_4_4 : ∀ a, (![0, 0, 4, 4] : Fin 4 → Nat) a + S64x256x1x1.size a ≤ S64x256x8x8.size a
  inb_S64x64x256_S1x64x256_36_0_0 : ∀ a, (![36, 0, 0] : Fin 3 → Nat) a + S1x64x256.size a ≤ S64x64x256.size a
  packedbf16_S64x64x256_S1x64x256_36_0_0 : (Rect.unit (s := S64x64x256) ![36, 0, 0] S1x64x256.size inb_S64x64x256_S1x64x256_36_0_0).PackedRows (EltTy.packing .bf16)
  inb_S64x256x8x8_S64x256x1x1_0_0_4_5 : ∀ a, (![0, 0, 4, 5] : Fin 4 → Nat) a + S64x256x1x1.size a ≤ S64x256x8x8.size a
  inb_S64x64x256_S1x64x256_37_0_0 : ∀ a, (![37, 0, 0] : Fin 3 → Nat) a + S1x64x256.size a ≤ S64x64x256.size a
  packedbf16_S64x64x256_S1x64x256_37_0_0 : (Rect.unit (s := S64x64x256) ![37, 0, 0] S1x64x256.size inb_S64x64x256_S1x64x256_37_0_0).PackedRows (EltTy.packing .bf16)
  inb_S64x256x8x8_S64x256x1x1_0_0_4_6 : ∀ a, (![0, 0, 4, 6] : Fin 4 → Nat) a + S64x256x1x1.size a ≤ S64x256x8x8.size a
  inb_S64x64x256_S1x64x256_38_0_0 : ∀ a, (![38, 0, 0] : Fin 3 → Nat) a + S1x64x256.size a ≤ S64x64x256.size a
  packedbf16_S64x64x256_S1x64x256_38_0_0 : (Rect.unit (s := S64x64x256) ![38, 0, 0] S1x64x256.size inb_S64x64x256_S1x64x256_38_0_0).PackedRows (EltTy.packing .bf16)
  inb_S64x256x8x8_S64x256x1x1_0_0_4_7 : ∀ a, (![0, 0, 4, 7] : Fin 4 → Nat) a + S64x256x1x1.size a ≤ S64x256x8x8.size a
  inb_S64x64x256_S1x64x256_39_0_0 : ∀ a, (![39, 0, 0] : Fin 3 → Nat) a + S1x64x256.size a ≤ S64x64x256.size a
  packedbf16_S64x64x256_S1x64x256_39_0_0 : (Rect.unit (s := S64x64x256) ![39, 0, 0] S1x64x256.size inb_S64x64x256_S1x64x256_39_0_0).PackedRows (EltTy.packing .bf16)
  inb_S64x256x8x8_S64x256x1x1_0_0_5_0 : ∀ a, (![0, 0, 5, 0] : Fin 4 → Nat) a + S64x256x1x1.size a ≤ S64x256x8x8.size a
  inb_S64x64x256_S1x64x256_40_0_0 : ∀ a, (![40, 0, 0] : Fin 3 → Nat) a + S1x64x256.size a ≤ S64x64x256.size a
  packedbf16_S64x64x256_S1x64x256_40_0_0 : (Rect.unit (s := S64x64x256) ![40, 0, 0] S1x64x256.size inb_S64x64x256_S1x64x256_40_0_0).PackedRows (EltTy.packing .bf16)
  inb_S64x256x8x8_S64x256x1x1_0_0_5_1 : ∀ a, (![0, 0, 5, 1] : Fin 4 → Nat) a + S64x256x1x1.size a ≤ S64x256x8x8.size a
  inb_S64x64x256_S1x64x256_41_0_0 : ∀ a, (![41, 0, 0] : Fin 3 → Nat) a + S1x64x256.size a ≤ S64x64x256.size a
  packedbf16_S64x64x256_S1x64x256_41_0_0 : (Rect.unit (s := S64x64x256) ![41, 0, 0] S1x64x256.size inb_S64x64x256_S1x64x256_41_0_0).PackedRows (EltTy.packing .bf16)
  inb_S64x256x8x8_S64x256x1x1_0_0_5_2 : ∀ a, (![0, 0, 5, 2] : Fin 4 → Nat) a + S64x256x1x1.size a ≤ S64x256x8x8.size a
  inb_S64x64x256_S1x64x256_42_0_0 : ∀ a, (![42, 0, 0] : Fin 3 → Nat) a + S1x64x256.size a ≤ S64x64x256.size a
  packedbf16_S64x64x256_S1x64x256_42_0_0 : (Rect.unit (s := S64x64x256) ![42, 0, 0] S1x64x256.size inb_S64x64x256_S1x64x256_42_0_0).PackedRows (EltTy.packing .bf16)
  inb_S64x256x8x8_S64x256x1x1_0_0_5_3 : ∀ a, (![0, 0, 5, 3] : Fin 4 → Nat) a + S64x256x1x1.size a ≤ S64x256x8x8.size a
  inb_S64x64x256_S1x64x256_43_0_0 : ∀ a, (![43, 0, 0] : Fin 3 → Nat) a + S1x64x256.size a ≤ S64x64x256.size a
  packedbf16_S64x64x256_S1x64x256_43_0_0 : (Rect.unit (s := S64x64x256) ![43, 0, 0] S1x64x256.size inb_S64x64x256_S1x64x256_43_0_0).PackedRows (EltTy.packing .bf16)
  inb_S64x256x8x8_S64x256x1x1_0_0_5_4 : ∀ a, (![0, 0, 5, 4] : Fin 4 → Nat) a + S64x256x1x1.size a ≤ S64x256x8x8.size a
  inb_S64x64x256_S1x64x256_44_0_0 : ∀ a, (![44, 0, 0] : Fin 3 → Nat) a + S1x64x256.size a ≤ S64x64x256.size a
  packedbf16_S64x64x256_S1x64x256_44_0_0 : (Rect.unit (s := S64x64x256) ![44, 0, 0] S1x64x256.size inb_S64x64x256_S1x64x256_44_0_0).PackedRows (EltTy.packing .bf16)
  inb_S64x256x8x8_S64x256x1x1_0_0_5_5 : ∀ a, (![0, 0, 5, 5] : Fin 4 → Nat) a + S64x256x1x1.size a ≤ S64x256x8x8.size a
  inb_S64x64x256_S1x64x256_45_0_0 : ∀ a, (![45, 0, 0] : Fin 3 → Nat) a + S1x64x256.size a ≤ S64x64x256.size a
  packedbf16_S64x64x256_S1x64x256_45_0_0 : (Rect.unit (s := S64x64x256) ![45, 0, 0] S1x64x256.size inb_S64x64x256_S1x64x256_45_0_0).PackedRows (EltTy.packing .bf16)
  inb_S64x256x8x8_S64x256x1x1_0_0_5_6 : ∀ a, (![0, 0, 5, 6] : Fin 4 → Nat) a + S64x256x1x1.size a ≤ S64x256x8x8.size a
  inb_S64x64x256_S1x64x256_46_0_0 : ∀ a, (![46, 0, 0] : Fin 3 → Nat) a + S1x64x256.size a ≤ S64x64x256.size a
  packedbf16_S64x64x256_S1x64x256_46_0_0 : (Rect.unit (s := S64x64x256) ![46, 0, 0] S1x64x256.size inb_S64x64x256_S1x64x256_46_0_0).PackedRows (EltTy.packing .bf16)
  inb_S64x256x8x8_S64x256x1x1_0_0_5_7 : ∀ a, (![0, 0, 5, 7] : Fin 4 → Nat) a + S64x256x1x1.size a ≤ S64x256x8x8.size a
  inb_S64x64x256_S1x64x256_47_0_0 : ∀ a, (![47, 0, 0] : Fin 3 → Nat) a + S1x64x256.size a ≤ S64x64x256.size a
  packedbf16_S64x64x256_S1x64x256_47_0_0 : (Rect.unit (s := S64x64x256) ![47, 0, 0] S1x64x256.size inb_S64x64x256_S1x64x256_47_0_0).PackedRows (EltTy.packing .bf16)
  inb_S64x256x8x8_S64x256x1x1_0_0_6_0 : ∀ a, (![0, 0, 6, 0] : Fin 4 → Nat) a + S64x256x1x1.size a ≤ S64x256x8x8.size a
  inb_S64x64x256_S1x64x256_48_0_0 : ∀ a, (![48, 0, 0] : Fin 3 → Nat) a + S1x64x256.size a ≤ S64x64x256.size a
  packedbf16_S64x64x256_S1x64x256_48_0_0 : (Rect.unit (s := S64x64x256) ![48, 0, 0] S1x64x256.size inb_S64x64x256_S1x64x256_48_0_0).PackedRows (EltTy.packing .bf16)
  inb_S64x256x8x8_S64x256x1x1_0_0_6_1 : ∀ a, (![0, 0, 6, 1] : Fin 4 → Nat) a + S64x256x1x1.size a ≤ S64x256x8x8.size a
  inb_S64x64x256_S1x64x256_49_0_0 : ∀ a, (![49, 0, 0] : Fin 3 → Nat) a + S1x64x256.size a ≤ S64x64x256.size a
  packedbf16_S64x64x256_S1x64x256_49_0_0 : (Rect.unit (s := S64x64x256) ![49, 0, 0] S1x64x256.size inb_S64x64x256_S1x64x256_49_0_0).PackedRows (EltTy.packing .bf16)
  inb_S64x256x8x8_S64x256x1x1_0_0_6_2 : ∀ a, (![0, 0, 6, 2] : Fin 4 → Nat) a + S64x256x1x1.size a ≤ S64x256x8x8.size a
  inb_S64x64x256_S1x64x256_50_0_0 : ∀ a, (![50, 0, 0] : Fin 3 → Nat) a + S1x64x256.size a ≤ S64x64x256.size a
  packedbf16_S64x64x256_S1x64x256_50_0_0 : (Rect.unit (s := S64x64x256) ![50, 0, 0] S1x64x256.size inb_S64x64x256_S1x64x256_50_0_0).PackedRows (EltTy.packing .bf16)
  inb_S64x256x8x8_S64x256x1x1_0_0_6_3 : ∀ a, (![0, 0, 6, 3] : Fin 4 → Nat) a + S64x256x1x1.size a ≤ S64x256x8x8.size a
  inb_S64x64x256_S1x64x256_51_0_0 : ∀ a, (![51, 0, 0] : Fin 3 → Nat) a + S1x64x256.size a ≤ S64x64x256.size a
  packedbf16_S64x64x256_S1x64x256_51_0_0 : (Rect.unit (s := S64x64x256) ![51, 0, 0] S1x64x256.size inb_S64x64x256_S1x64x256_51_0_0).PackedRows (EltTy.packing .bf16)
  inb_S64x256x8x8_S64x256x1x1_0_0_6_4 : ∀ a, (![0, 0, 6, 4] : Fin 4 → Nat) a + S64x256x1x1.size a ≤ S64x256x8x8.size a
  inb_S64x64x256_S1x64x256_52_0_0 : ∀ a, (![52, 0, 0] : Fin 3 → Nat) a + S1x64x256.size a ≤ S64x64x256.size a
  packedbf16_S64x64x256_S1x64x256_52_0_0 : (Rect.unit (s := S64x64x256) ![52, 0, 0] S1x64x256.size inb_S64x64x256_S1x64x256_52_0_0).PackedRows (EltTy.packing .bf16)
  inb_S64x256x8x8_S64x256x1x1_0_0_6_5 : ∀ a, (![0, 0, 6, 5] : Fin 4 → Nat) a + S64x256x1x1.size a ≤ S64x256x8x8.size a
  inb_S64x64x256_S1x64x256_53_0_0 : ∀ a, (![53, 0, 0] : Fin 3 → Nat) a + S1x64x256.size a ≤ S64x64x256.size a
  packedbf16_S64x64x256_S1x64x256_53_0_0 : (Rect.unit (s := S64x64x256) ![53, 0, 0] S1x64x256.size inb_S64x64x256_S1x64x256_53_0_0).PackedRows (EltTy.packing .bf16)
  inb_S64x256x8x8_S64x256x1x1_0_0_6_6 : ∀ a, (![0, 0, 6, 6] : Fin 4 → Nat) a + S64x256x1x1.size a ≤ S64x256x8x8.size a
  inb_S64x64x256_S1x64x256_54_0_0 : ∀ a, (![54, 0, 0] : Fin 3 → Nat) a + S1x64x256.size a ≤ S64x64x256.size a
  packedbf16_S64x64x256_S1x64x256_54_0_0 : (Rect.unit (s := S64x64x256) ![54, 0, 0] S1x64x256.size inb_S64x64x256_S1x64x256_54_0_0).PackedRows (EltTy.packing .bf16)
  inb_S64x256x8x8_S64x256x1x1_0_0_6_7 : ∀ a, (![0, 0, 6, 7] : Fin 4 → Nat) a + S64x256x1x1.size a ≤ S64x256x8x8.size a
  inb_S64x64x256_S1x64x256_55_0_0 : ∀ a, (![55, 0, 0] : Fin 3 → Nat) a + S1x64x256.size a ≤ S64x64x256.size a
  packedbf16_S64x64x256_S1x64x256_55_0_0 : (Rect.unit (s := S64x64x256) ![55, 0, 0] S1x64x256.size inb_S64x64x256_S1x64x256_55_0_0).PackedRows (EltTy.packing .bf16)
  inb_S64x256x8x8_S64x256x1x1_0_0_7_0 : ∀ a, (![0, 0, 7, 0] : Fin 4 → Nat) a + S64x256x1x1.size a ≤ S64x256x8x8.size a
  inb_S64x64x256_S1x64x256_56_0_0 : ∀ a, (![56, 0, 0] : Fin 3 → Nat) a + S1x64x256.size a ≤ S64x64x256.size a
  packedbf16_S64x64x256_S1x64x256_56_0_0 : (Rect.unit (s := S64x64x256) ![56, 0, 0] S1x64x256.size inb_S64x64x256_S1x64x256_56_0_0).PackedRows (EltTy.packing .bf16)
  inb_S64x256x8x8_S64x256x1x1_0_0_7_1 : ∀ a, (![0, 0, 7, 1] : Fin 4 → Nat) a + S64x256x1x1.size a ≤ S64x256x8x8.size a
  inb_S64x64x256_S1x64x256_57_0_0 : ∀ a, (![57, 0, 0] : Fin 3 → Nat) a + S1x64x256.size a ≤ S64x64x256.size a
  packedbf16_S64x64x256_S1x64x256_57_0_0 : (Rect.unit (s := S64x64x256) ![57, 0, 0] S1x64x256.size inb_S64x64x256_S1x64x256_57_0_0).PackedRows (EltTy.packing .bf16)
  inb_S64x256x8x8_S64x256x1x1_0_0_7_2 : ∀ a, (![0, 0, 7, 2] : Fin 4 → Nat) a + S64x256x1x1.size a ≤ S64x256x8x8.size a
  inb_S64x64x256_S1x64x256_58_0_0 : ∀ a, (![58, 0, 0] : Fin 3 → Nat) a + S1x64x256.size a ≤ S64x64x256.size a
  packedbf16_S64x64x256_S1x64x256_58_0_0 : (Rect.unit (s := S64x64x256) ![58, 0, 0] S1x64x256.size inb_S64x64x256_S1x64x256_58_0_0).PackedRows (EltTy.packing .bf16)
  inb_S64x256x8x8_S64x256x1x1_0_0_7_3 : ∀ a, (![0, 0, 7, 3] : Fin 4 → Nat) a + S64x256x1x1.size a ≤ S64x256x8x8.size a
  inb_S64x64x256_S1x64x256_59_0_0 : ∀ a, (![59, 0, 0] : Fin 3 → Nat) a + S1x64x256.size a ≤ S64x64x256.size a
  packedbf16_S64x64x256_S1x64x256_59_0_0 : (Rect.unit (s := S64x64x256) ![59, 0, 0] S1x64x256.size inb_S64x64x256_S1x64x256_59_0_0).PackedRows (EltTy.packing .bf16)
  inb_S64x256x8x8_S64x256x1x1_0_0_7_4 : ∀ a, (![0, 0, 7, 4] : Fin 4 → Nat) a + S64x256x1x1.size a ≤ S64x256x8x8.size a
  inb_S64x64x256_S1x64x256_60_0_0 : ∀ a, (![60, 0, 0] : Fin 3 → Nat) a + S1x64x256.size a ≤ S64x64x256.size a
  packedbf16_S64x64x256_S1x64x256_60_0_0 : (Rect.unit (s := S64x64x256) ![60, 0, 0] S1x64x256.size inb_S64x64x256_S1x64x256_60_0_0).PackedRows (EltTy.packing .bf16)
  inb_S64x256x8x8_S64x256x1x1_0_0_7_5 : ∀ a, (![0, 0, 7, 5] : Fin 4 → Nat) a + S64x256x1x1.size a ≤ S64x256x8x8.size a
  inb_S64x64x256_S1x64x256_61_0_0 : ∀ a, (![61, 0, 0] : Fin 3 → Nat) a + S1x64x256.size a ≤ S64x64x256.size a
  packedbf16_S64x64x256_S1x64x256_61_0_0 : (Rect.unit (s := S64x64x256) ![61, 0, 0] S1x64x256.size inb_S64x64x256_S1x64x256_61_0_0).PackedRows (EltTy.packing .bf16)
  inb_S64x256x8x8_S64x256x1x1_0_0_7_6 : ∀ a, (![0, 0, 7, 6] : Fin 4 → Nat) a + S64x256x1x1.size a ≤ S64x256x8x8.size a
  inb_S64x64x256_S1x64x256_62_0_0 : ∀ a, (![62, 0, 0] : Fin 3 → Nat) a + S1x64x256.size a ≤ S64x64x256.size a
  packedbf16_S64x64x256_S1x64x256_62_0_0 : (Rect.unit (s := S64x64x256) ![62, 0, 0] S1x64x256.size inb_S64x64x256_S1x64x256_62_0_0).PackedRows (EltTy.packing .bf16)
  inb_S64x256x8x8_S64x256x1x1_0_0_7_7 : ∀ a, (![0, 0, 7, 7] : Fin 4 → Nat) a + S64x256x1x1.size a ≤ S64x256x8x8.size a
  inb_S64x64x256_S1x64x256_63_0_0 : ∀ a, (![63, 0, 0] : Fin 3 → Nat) a + S1x64x256.size a ≤ S64x64x256.size a
  packedbf16_S64x64x256_S1x64x256_63_0_0 : (Rect.unit (s := S64x64x256) ![63, 0, 0] S1x64x256.size inb_S64x64x256_S1x64x256_63_0_0).PackedRows (EltTy.packing .bf16)
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  reduces_S1024x1024_S1024 : S1024x1024.Reduces [1] S1024
  shapeCasts_S1024_S1024x1 : S1024.ShapeCasts S1024x1
  broadcasts_S1024x1_S1024x1024 : S1024x1.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S64x256_S256x512_S64x512_1_0_0_1_n_n_wf : DotDims.WF S64x256 S256x512 S64x512 [1] [0] [0] [1] [] []
  dot_S64x512_S512x256_S64x256_1_0_0_1_n_n_wf : DotDims.WF S64x512 S512x256 S64x256 [1] [0] [0] [1] [] []
  dot_S64x256_S256x256_S64x256_1_0_0_1_n_n_wf : DotDims.WF S64x256 S256x256 S64x256 [1] [0] [0] [1] [] []
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256x8x8.size a ≤ S1024x256x8x8.size a
  hwx0_0 : ∀ i : grid0.Coords, EltTy.bits .f32 = 32 ∨ (Rect.block (s := S1024x256x8x8) S64x256x8x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256x8x8.size a ≤ S1024x256x8x8.size a
  hwx0_1 : ∀ i : grid0.Coords, EltTy.bits .f32 = 32 ∨ (Rect.block (s := S1024x256x8x8) S64x256x8x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .bf16 = 32 ∨ (Rect.block (s := S512x256) S512x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x64x256.size a ≤ S64x1024x256.size a
  hwx0_7 : ∀ i : grid0.Coords, EltTy.bits .bf16 = 32 ∨ (Rect.block (s := S64x1024x256) S64x64x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x64x256.size a ≤ S64x1024x256.size a
  hwx0_8 : ∀ i : grid0.Coords, EltTy.bits .bf16 = 32 ∨ (Rect.block (s := S64x1024x256) S64x64x256.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S64x1024x256.size a
  hwx1_0 : ∀ i : grid1.Coords, EltTy.bits .bf16 = 32 ∨ (Rect.block (s := S64x1024x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x256.size a ≤ S64x1024x256.size a
  hwx1_1 : ∀ i : grid1.Coords, EltTy.bits .bf16 = 32 ∨ (Rect.block (s := S64x1024x256) S1x1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S64x1024x1024.size a
  hwx1_2 : ∀ i : grid1.Coords, EltTy.bits .f32 = 32 ∨ (Rect.block (s := S64x1024x1024) S1x1024x1024.size (cc1_transform_2 i) (hinb1_2 i)).WholeWords (EltTy.packing .f32)

variable [Facts₀]

def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S64x256x8x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x256x8x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S64x64x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S64x64x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v8_0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S1x1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1024x256x8x8 : Shape := ⟨4, ![1024, 256, 8, 8]⟩
abbrev S512x256 : Shape := ⟨2, ![512, 256]⟩
abbrev S512 : Shape := ⟨1, ![512]⟩
abbrev S256x512 : Shape := ⟨2, ![256, 512]⟩
abbrev S256 : Shape := ⟨1, ![256]⟩
abbrev S256x256 : Shape := ⟨2, ![256, 256]⟩
abbrev S8x8x1024x256 : Shape := ⟨4, ![8, 8, 1024, 256]⟩
abbrev S64x1024x256 : Shape := ⟨3, ![64, 1024, 256]⟩
abbrev S64x1024x512 : Shape := ⟨3, ![64, 1024, 512]⟩
abbrev S1x1x512 : Shape := ⟨3, ![1, 1, 512]⟩
abbrev S_ : Shape := ⟨0, ![]⟩
abbrev S1x1x256 : Shape := ⟨3, ![1, 1, 256]⟩
abbrev S64x1024x1024 : Shape := ⟨3, ![64, 1024, 1024]⟩
abbrev S64x1024 : Shape := ⟨2, ![64, 1024]⟩
abbrev S64x1024x1 : Shape := ⟨3, ![64, 1024, 1]⟩

abbrev nBuf : Space → Nat
  | .hbm => 30
  | .vmem => 0
  | .smem => 0
  | _ => 0

abbrev bufTy : (tb : Table) → Fin (tcTables nBuf tb) → BufTy
  | .hbm, ⟨0, _⟩ => ⟨S1024x256x8x8, .f32⟩
  | .hbm, ⟨1, _⟩ => ⟨S1024x256x8x8, .f32⟩
  | .hbm, ⟨2, _⟩ => ⟨S512x256, .f32⟩
  | .hbm, ⟨3, _⟩ => ⟨S512, .f32⟩
  | .hbm, ⟨4, _⟩ => ⟨S256x512, .f32⟩
  | .hbm, ⟨5, _⟩ => ⟨S256, .f32⟩
  | .hbm, ⟨6, _⟩ => ⟨S256x256, .f32⟩
  | .hbm, ⟨7, _⟩ => ⟨S8x8x1024x256, .f32⟩
  | .hbm, ⟨8, _⟩ => ⟨S64x1024x256, .f32⟩
  | .hbm, ⟨9, _⟩ => ⟨S8x8x1024x256, .f32⟩
  | .hbm, ⟨10, _⟩ => ⟨S64x1024x256, .f32⟩
  | .hbm, ⟨11, _⟩ => ⟨S64x1024x512, .f32⟩
  | .hbm, ⟨12, _⟩ => ⟨S1x1x512, .f32⟩
  | .hbm, ⟨13, _⟩ => ⟨S64x1024x512, .f32⟩
  | .hbm, ⟨14, _⟩ => ⟨S64x1024x512, .f32⟩
  | .hbm, ⟨15, _⟩ => ⟨S_, .f32⟩
  | .hbm, ⟨16, _⟩ => ⟨S64x1024x512, .f32⟩
  | .hbm, ⟨17, _⟩ => ⟨S64x1024x512, .f32⟩
  | .hbm, ⟨18, _⟩ => ⟨S64x1024x256, .f32⟩
  | .hbm, ⟨19, _⟩ => ⟨S64x1024x256, .f32⟩
  | .hbm, ⟨20, _⟩ => ⟨S1x1x256, .f32⟩
  | .hbm, ⟨21, _⟩ => ⟨S64x1024x256, .f32⟩
  | .hbm, ⟨22, _⟩ => ⟨S64x1024x256, .f32⟩
  | .hbm, ⟨23, _⟩ => ⟨S64x1024x256, .f32⟩
  | .hbm, ⟨24, _⟩ => ⟨S64x1024x1024, .f32⟩
  | .hbm, ⟨25, _⟩ => ⟨S_, .f32⟩
  | .hbm, ⟨26, _⟩ => ⟨S64x1024, .f32⟩
  | .hbm, ⟨27, _⟩ => ⟨S64x1024x1, .f32⟩
  | .hbm, ⟨28, _⟩ => ⟨S64x1024x1024, .f32⟩
  | .hbm, ⟨29, _⟩ => ⟨S64x1024x1024, .f32⟩
  | _, _ => ⟨S1024x256x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  transposes_S1024x256x8x8_S8x8x1024x256_2_3_0_1 : S1024x256x8x8.Transposes [2, 3, 0, 1] S8x8x1024x256
  shapeCasts_S8x8x1024x256_S64x1024x256 : S8x8x1024x256.ShapeCasts S64x1024x256
  bcast_S512_S1x1x512_2 : S512.BroadcastsInDim S1x1x512 (![2] : Fin 1 → Fin S1x1x512.rank)
  bcast_S1x1x512_S64x1024x512_0_1_2 : S1x1x512.BroadcastsInDim S64x1024x512 (![0, 1, 2] : Fin 3 → Fin S64x1024x512.rank)
  bcast_S_S64x1024x512 : S_.BroadcastsInDim S64x1024x512 (![] : Fin 0 → Fin S64x1024x512.rank)
  bcast_S256_S1x1x256_2 : S256.BroadcastsInDim S1x1x256 (![2] : Fin 1 → Fin S1x1x256.rank)
  bcast_S1x1x256_S64x1024x256_0_1_2 : S1x1x256.BroadcastsInDim S64x1024x256 (![0, 1, 2] : Fin 3 → Fin S64x1024x256.rank)
  reducesTo_S64x1024x1024_S64x1024_d2 : S64x1024x1024.ReducesTo [2] S64x1024
  h_S_ : 0 < S_.numel
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  dot_S64x1024x256_S512x256_S64x1024x512_2_1_01_0_n_n_wf : DotDims.WF S64x1024x256 S512x256 S64x1024x512 [2] [1] [0, 1] [0] [] []
  dot_S64x1024x512_S256x512_S64x1024x256_2_1_01_0_n_n_wf : DotDims.WF S64x1024x512 S256x512 S64x1024x256 [2] [1] [0, 1] [0] [] []
  dot_S64x1024x256_S256x256_S64x1024x256_2_1_01_0_n_n_wf : DotDims.WF S64x1024x256 S256x256 S64x1024x256 [2] [1] [0, 1] [0] [] []
  dot_S64x1024x256_S64x1024x256_S64x1024x1024_2_2_1_1_0_0_wf : DotDims.WF S64x1024x256 S64x1024x256 S64x1024x1024 [2] [2] [1] [1] [0] [0]

variable [Facts₀]

def dot_S64x1024x256_S512x256_S64x1024x512_2_1_01_0_n_n : DotDims S64x1024x256 S512x256 S64x1024x512 where
  lhsContracting := [2]
  rhsContracting := [1]
  lhsNonContracting := [0, 1]
  rhsNonContracting := [0]
  lhsBatch := []
  rhsBatch := []
  wf := dot_S64x1024x256_S512x256_S64x1024x512_2_1_01_0_n_n_wf
def dot_S64x1024x512_S256x512_S64x1024x256_2_1_01_0_n_n : DotDims S64x1024x512 S256x512 S64x1024x256 where
  lhsContracting := [2]
  rhsContracting := [1]
  lhsNonContracting := [0, 1]
  rhsNonContracting := [0]
  lhsBatch := []
  rhsBatch := []
  wf := dot_S64x1024x512_S256x512_S64x1024x256_2_1_01_0_n_n_wf
def dot_S64x1024x256_S256x256_S64x1024x256_2_1_01_0_n_n : DotDims S64x1024x256 S256x256 S64x1024x256 where
  lhsContracting := [2]
  rhsContracting := [1]
  lhsNonContracting := [0, 1]
  rhsNonContracting := [0]
  lhsBatch := []
  rhsBatch := []
  wf := dot_S64x1024x256_S256x256_S64x1024x256_2_1_01_0_n_n_wf
def dot_S64x1024x256_S64x1024x256_S64x1024x1024_2_2_1_1_0_0 : DotDims S64x1024x256 S64x1024x256 S64x1024x1024 where
  lhsContracting := [2]
  rhsContracting := [2]
  lhsNonContracting := [1]
  rhsNonContracting := [1]
  lhsBatch := [0]
  rhsBatch := [0]
  wf := dot_S64x1024x256_S64x1024x256_S64x1024x1024_2_2_1_1_0_0_wf

class Facts : Prop extends Facts₀ where

variable [Facts]
-- ==== Proof.Spec.lean ====
/-
  The mathematics both programs compute, stated once over the extended reals, index by index.

  An input pixel p = 8·y + x of batch row b is the length-256 channel row  r c = X[b, c, y, x].
  On such a row the network is
      hidden h = max (Σ_c r c · W1[h, c] + b1[h]) 0                (512 hidden units, ReLU)
      anew   c = r c + Σ_h hidden h · W2[c, h] + b2[c]             (residual update)
      pred   d = Σ_c anew c · Ww[d, c]                            (projection, no bias)
  and the result at (p, b, k) is the logit  Σ_d pred(p, b) d · q(p, k) d  of the anchor row (p, b) against the
  positive row (p, k), minus the maximum of that logit over k.  Every sum is a finite sum over `Fin n`, the maximum
  a fold of `max` from −∞ (the literal both programs start their reduction from); nothing here needs an input to be
  finite.  The weights enter as curried functions so that the same definitions serve a program that holds W and one
  that holds its transpose.
-/
import Idealize.ShloMosaic.PureOps.Ideal
import Idealize.ShloMosaic.Lib.ValueIdx

noncomputable section

namespace Cert.Spec

open Idealize.ShloMosaic Idealize.ShloMosaic.ValueIdx

/-- The hidden layer on one channel row: ReLU of the affine map. The zero is the f32 zero word both programs print. -/
def hidden (w1 : Fin 512 → Fin 256 → EReal) (b1 : Fin 512 → EReal) (r : Fin 256 → EReal) (h : Fin 512) : EReal :=
  max (∑ c : Fin 256, r c * w1 h c + b1 h) (Ideal.ofBits .f32 0x00000000#32)

/-- The residual update of the row: row + hidden · W2ᵀ + b2, summed in that order. -/
def anew (w1 : Fin 512 → Fin 256 → EReal) (b1 : Fin 512 → EReal) (w2 : Fin 256 → Fin 512 → EReal) (b2 : Fin 256 → EReal)
    (r : Fin 256 → EReal) (c : Fin 256) : EReal :=
  r c + ∑ h : Fin 512, hidden w1 b1 r h * w2 c h + b2 c

/-- The prediction row: the updated row through Ww, no bias. -/
def pred (w1 : Fin 512 → Fin 256 → EReal) (b1 : Fin 512 → EReal) (w2 : Fin 256 → Fin 512 → EReal) (b2 : Fin 256 → EReal)
    (ww : Fin 256 → Fin 256 → EReal) (r : Fin 256 → EReal) (d : Fin 256) : EReal :=
  ∑ c : Fin 256, anew w1 b1 w2 b2 r c * ww d c

/-- The logit of a prediction row against a positive row. -/
def logit (u v : Fin 256 → EReal) : EReal := ∑ d : Fin 256, u d * v d

/-- The maximum of a row of 1024 logits, folded from −∞. -/
def rowmax (f : Fin 1024 → EReal) : EReal :=
  (Finset.univ : Finset (Fin 1024)).fold max (Ideal.ofBits .f32 0xFF800000#32) f

/-- The result from the prediction rows and the positive rows: logit minus its row maximum. -/
def out (pr po : Fin 64 → Fin 1024 → Fin 256 → EReal) (p : Fin 64) (b k : Fin 1024) : EReal :=
  logit (pr p b) (po p k) - rowmax fun k' => logit (pr p b) (po p k')

/-- Pixel p = 8·y + x of batch row b of a [1024, 256, 8, 8] array, as a channel row. -/
def pixRow (X : (⟨4, ![1024, 256, 8, 8]⟩ : Shape).Idx → EReal) (p : Fin 64) (b : Fin 1024) (c : Fin 256) : EReal :=
  X (ix4 b c (⟨p.val / 8, by omega⟩ : Fin 8) (⟨p.val % 8, by omega⟩ : Fin 8))

/-- A [64, 1024, 256] array as rows. -/
def rows (Y : (⟨3, ![64, 1024, 256]⟩ : Shape).Idx → EReal) (p : Fin 64) (b : Fin 1024) (d : Fin 256) : EReal :=
  Y (ix3 p b d)

/-- The whole result array as a function of the seven argument arrays (anchor, positive, W1, b1, W2, b2, Ww). -/
def result (x0 x1 : (⟨4, ![1024, 256, 8, 8]⟩ : Shape).Idx → EReal) (x2 : (⟨2, ![512, 256]⟩ : Shape).Idx → EReal)
    (x3 : (⟨1, ![512]⟩ : Shape).Idx → EReal) (x4 : (⟨2, ![256, 512]⟩ : Shape).Idx → EReal)
    (x5 : (⟨1, ![256]⟩ : Shape).Idx → EReal) (x6 : (⟨2, ![256, 256]⟩ : Shape).Idx → EReal) :
    (⟨3, ![64, 1024, 1024]⟩ : Shape).Idx → EReal := fun i =>
  out (fun p b => pred (fun h c => x2 (ix2 h c)) (fun h => x3 (ix1 h)) (fun c h => x4 (ix2 c h)) (fun c => x5 (ix1 c))
        (fun d c => x6 (ix2 d c)) (pixRow x0 p b))
    (pixRow x1) (⟨(i 0).val, (i 0).isLt⟩ : Fin 64) (⟨(i 1).val, (i 1).isLt⟩ : Fin 1024) (⟨(i 2).val, (i 2).isLt⟩ : Fin 1024)

/-- The second kernel's part: the result from the two [64, 1024, 256] arrays the first kernel leaves. -/
def fromRows (PR PO : (⟨3, ![64, 1024, 256]⟩ : Shape).Idx → EReal) : (⟨3, ![64, 1024, 1024]⟩ : Shape).Idx → EReal := fun i =>
  out (rows PR) (rows PO) (⟨(i 0).val, (i 0).isLt⟩ : Fin 64) (⟨(i 1).val, (i 1).isLt⟩ : Fin 1024) (⟨(i 2).val, (i 2).isLt⟩ : Fin 1024)

/-- The first kernel's prediction array, from the anchor and the TRANSPOSED weights and bias ROWS it is launched on:
    W1ᵀ [256, 512], b1 as [1, 512], W2ᵀ [512, 256], b2 as [1, 256], Wwᵀ [256, 256]. -/
def predArr (X : (⟨4, ![1024, 256, 8, 8]⟩ : Shape).Idx → EReal) (W1t : (⟨2, ![256, 512]⟩ : Shape).Idx → EReal)
    (b1r : (⟨2, ![1, 512]⟩ : Shape).Idx → EReal) (W2t : (⟨2, ![512, 256]⟩ : Shape).Idx → EReal)
    (b2r : (⟨2, ![1, 256]⟩ : Shape).Idx → EReal) (Wwt : (⟨2, ![256, 256]⟩ : Shape).Idx → EReal) :
    (⟨3, ![64, 1024, 256]⟩ : Shape).Idx → EReal := fun i =>
  pred (fun h c => W1t (ix2 c h)) (fun h => b1r (ix2 (0 : Fin 1) h)) (fun c h => W2t (ix2 h c)) (fun c => b2r (ix2 (0 : Fin 1) c))
    (fun d c => Wwt (ix2 c d))
    (pixRow X (⟨(i 0).val, (i 0).isLt⟩ : Fin 64) (⟨(i 1).val, (i 1).isLt⟩ : Fin 1024)) (⟨(i 2).val, (i 2).isLt⟩ : Fin 256)

/-- The first kernel's second output: the positive array re-laid pixel-major. -/
def posArr (X : (⟨4, ![1024, 256, 8, 8]⟩ : Shape).Idx → EReal) : (⟨3, ![64, 1024, 256]⟩ : Shape).Idx → EReal := fun i =>
  pixRow X (⟨(i 0).val, (i 0).isLt⟩ : Fin 64) (⟨(i 1).val, (i 1).isLt⟩ : Fin 1024) (⟨(i 2).val, (i 2).isLt⟩ : Fin 256)

/-- The two kernels composed: `fromRows` of `predArr` and `posArr`, with the transposed weights and the bias rows read
    back through their transposes, is `result`. -/
theorem fromRows_predArr_posArr
    (X0 X1 x0 x1 : (⟨4, ![1024, 256, 8, 8]⟩ : Shape).Idx → EReal) (W1t : (⟨2, ![256, 512]⟩ : Shape).Idx → EReal)
    (b1r : (⟨2, ![1, 512]⟩ : Shape).Idx → EReal) (W2t : (⟨2, ![512, 256]⟩ : Shape).Idx → EReal)
    (b2r : (⟨2, ![1, 256]⟩ : Shape).Idx → EReal) (Wwt : (⟨2, ![256, 256]⟩ : Shape).Idx → EReal)
    (x2 : (⟨2, ![512, 256]⟩ : Shape).Idx → EReal) (x3 : (⟨1, ![512]⟩ : Shape).Idx → EReal)
    (x4 : (⟨2, ![256, 512]⟩ : Shape).Idx → EReal) (x5 : (⟨1, ![256]⟩ : Shape).Idx → EReal)
    (x6 : (⟨2, ![256, 256]⟩ : Shape).Idx → EReal)
    (hX0 : X0 = x0) (hX1 : X1 = x1)
    (h1 : ∀ (i : Fin 256) (h : Fin 512), W1t (ix2 i h) = x2 (ix2 h i)) (hb1 : ∀ h : Fin 512, b1r (ix2 (0 : Fin 1) h) = x3 (ix1 h))
    (h2 : ∀ (h : Fin 512) (i : Fin 256), W2t (ix2 h i) = x4 (ix2 i h)) (hb2 : ∀ i : Fin 256, b2r (ix2 (0 : Fin 1) i) = x5 (ix1 i))
    (hw : ∀ i d : Fin 256, Wwt (ix2 i d) = x6 (ix2 d i)) :
    fromRows (predArr X0 W1t b1r W2t b2r Wwt) (posArr X1) = result x0 x1 x2 x3 x4 x5 x6 := by
  subst hX0 hX1
  funext i
  unfold fromRows result predArr posArr rows
  simp only [h1, hb1, h2, hb2, hw]

end Cert.Spec

end
-- ==== Proof.RefSpec.lean ====
/-
  The reference program's value is the specification.

  The reference lays each [1024, 256, 8, 8] input out pixel-major: a transpose to [8, 8, 1024, 256] followed by a reshape to
  [64, 1024, 256], so that entry (p, b, c) is X[b, c, p / 8, p % 8] — the channel row of pixel p of batch row b.  On those rows it
  applies, stage by stage, the affine map with ReLU, the residual update and the projection, each contraction a finite sum over
  the contracted coordinate; the logits are the contraction of a prediction row with a positive row, and the last stages subtract
  from each logit the maximum of its row, a fold of max from −∞ over the 1024 positives.  Each stage below is read at literal
  coordinates and identified with the corresponding definition of the specification; the sums and the fold are the same on both
  sides, term for term, so nothing needs an input to be finite.
-/
import proofs.«104337_j62981400428716_2_alg».proof.Proof.Spec
import proofs.«104337_j62981400428716_2_alg».proof.Proof.Gen.ReferenceIdeal.Read
import Idealize.ShloMosaic.PureOps.Ideal.Laws
import Idealize.ShloMosaic.PureOps.Reduce

noncomputable section

namespace Cert.RefSpec

open Cert.ReferenceIdeal Cert.ReferenceIdeal.Gen Cert.ReferenceIdeal.Read Idealize.ShloMosaic Idealize.ShloMosaic.ValueIdx

/-! ## The layout: transpose and reshape read at (p, b, c) -/

/-- The transposed-and-reshaped array at (p, b, c) reads the input at (b, c, p / 8, p % 8): the flattened position
    ((p·1024 + b)·256 + c) splits, over the extents 8, 8, 1024, 256, into (p / 8, p % 8, b, c). -/
theorem layout_idx (p : Fin 64) (b : Fin 1024) (c : Fin 256) :
    idx_main_v0 (idx_main_v1 (ix3 p b c))
      = ix4 b c (⟨p.val / 8, by omega⟩ : Fin 8) (⟨p.val % 8, by omega⟩ : Fin 8) := by
  have hp := p.isLt; have hb := b.isLt; have hc := c.isLt
  funext a
  apply Fin.ext
  match a with
  | ⟨0, _⟩ => show ((p.val * 1024 + b.val) * 256 + c.val) / 256 % 1024 = b.val; omega
  | ⟨1, _⟩ => show ((p.val * 1024 + b.val) * 256 + c.val) % 256 = c.val; omega
  | ⟨2, _⟩ => show ((p.val * 1024 + b.val) * 256 + c.val) / 2097152 = p.val / 8; omega
  | ⟨3, _⟩ => show ((p.val * 1024 + b.val) * 256 + c.val) / 262144 % 8 = p.val % 8; omega

/-- The anchor laid out pixel-major is the specification's channel row. -/
theorem v1_at (x0 : (⟨S1024x256x8x8, .f32⟩ : BufTy).Contents (Elt Ideal)) (p : Fin 64) (b : Fin 1024) (c : Fin 256) :
    val_main_v1 (F := Ideal) x0 (ix3 p b c) = Cert.Spec.pixRow x0 p b c := by
  rw [val_main_v1_apply, val_main_v0_apply, layout_idx]
  rfl

/-- The positive array likewise (the second transpose and reshape are the same layout). -/
theorem v3_at (x1 : (⟨S1024x256x8x8, .f32⟩ : BufTy).Contents (Elt Ideal)) (p : Fin 64) (b : Fin 1024) (c : Fin 256) :
    val_main_v3 (F := Ideal) x1 (ix3 p b c) = Cert.Spec.pixRow x1 p b c := by
  rw [val_main_v3_apply, val_main_v2_apply]
  show x1 (idx_main_v0 (idx_main_v1 (ix3 p b c))) = _
  rw [layout_idx]
  rfl

/-! ## The contractions' operand indices at literal coordinates -/

theorem lidx4_eq (p : Fin 64) (b : Fin 1024) (h : Fin 512) (k : Fin 256) : lidx_main_v4 (ix3 p b h) k = ix3 p b k :=
  funext fun a => by match a with | ⟨0, _⟩ => rfl | ⟨1, _⟩ => rfl | ⟨2, _⟩ => rfl
theorem ridx4_eq (p : Fin 64) (b : Fin 1024) (h : Fin 512) (k : Fin 256) : ridx_main_v4 (ix3 p b h) k = ix2 h k :=
  funext fun a => by match a with | ⟨0, _⟩ => rfl | ⟨1, _⟩ => rfl
theorem lidx9_eq (p : Fin 64) (b : Fin 1024) (c : Fin 256) (k : Fin 512) : lidx_main_v9 (ix3 p b c) k = ix3 p b k :=
  funext fun a => by match a with | ⟨0, _⟩ => rfl | ⟨1, _⟩ => rfl | ⟨2, _⟩ => rfl
theorem ridx9_eq (p : Fin 64) (b : Fin 1024) (c : Fin 256) (k : Fin 512) : ridx_main_v9 (ix3 p b c) k = ix2 c k :=
  funext fun a => by match a with | ⟨0, _⟩ => rfl | ⟨1, _⟩ => rfl
theorem lidx14_eq (p : Fin 64) (b : Fin 1024) (d : Fin 256) (k : Fin 256) : lidx_main_v14 (ix3 p b d) k = ix3 p b k :=
  funext fun a => by match a with | ⟨0, _⟩ => rfl | ⟨1, _⟩ => rfl | ⟨2, _⟩ => rfl
theorem ridx14_eq (p : Fin 64) (b : Fin 1024) (d : Fin 256) (k : Fin 256) : ridx_main_v14 (ix3 p b d) k = ix2 d k :=
  funext fun a => by match a with | ⟨0, _⟩ => rfl | ⟨1, _⟩ => rfl
theorem lidx15_eq (p : Fin 64) (b k : Fin 1024) (d : Fin 256) : lidx_main_v15 (ix3 p b k) d = ix3 p b d :=
  funext fun a => by match a with | ⟨0, _⟩ => rfl | ⟨1, _⟩ => rfl | ⟨2, _⟩ => rfl
theorem ridx15_eq (p : Fin 64) (b k : Fin 1024) (d : Fin 256) : ridx_main_v15 (ix3 p b k) d = ix3 p k d :=
  funext fun a => by match a with | ⟨0, _⟩ => rfl | ⟨1, _⟩ => rfl | ⟨2, _⟩ => rfl

/-- The first bias, broadcast over pixels and batch rows, at (p, b, h) is b1[h]. -/
theorem v6_at (x3 : (⟨S512, .f32⟩ : BufTy).Contents (Elt Ideal)) (p : Fin 64) (b : Fin 1024) (h : Fin 512) :
    val_main_v6 (F := Ideal) x3 (ix3 p b h) = x3 (ix1 h) := by
  rw [val_main_v6_apply, val_main_v5_apply]
  exact congrArg x3 (funext fun a => by match a with | ⟨0, _⟩ => rfl)

/-- The second bias at (p, b, c) is b2[c]. -/
theorem v12_at (x5 : (⟨S256, .f32⟩ : BufTy).Contents (Elt Ideal)) (p : Fin 64) (b : Fin 1024) (c : Fin 256) :
    val_main_v12 (F := Ideal) x5 (ix3 p b c) = x5 (ix1 c) := by
  rw [val_main_v12_apply, val_main_v11_apply]
  exact congrArg x5 (funext fun a => by match a with | ⟨0, _⟩ => rfl)

/-! ## The network, stage by stage -/

/-- The hidden layer at (p, b, h): ReLU of the row's affine image. -/
theorem v8_at (x0 : (⟨S1024x256x8x8, .f32⟩ : BufTy).Contents (Elt Ideal)) (x2 : (⟨S512x256, .f32⟩ : BufTy).Contents (Elt Ideal))
    (x3 : (⟨S512, .f32⟩ : BufTy).Contents (Elt Ideal)) (p : Fin 64) (b : Fin 1024) (h : Fin 512) :
    val_main_v8 (F := Ideal) x0 x2 x3 (ix3 p b h)
      = Cert.Spec.hidden (fun h c => x2 (ix2 h c)) (fun h => x3 (ix1 h)) (Cert.Spec.pixRow x0 p b) h := by
  rw [val_main_v8_apply, val_main_v7_apply, val_main_v4_apply, v6_at, val_main_call0_v0_apply, val_main_call0_cst_apply]
  simp only [lidx4_eq, ridx4_eq, v1_at, Ideal.maximumf_def, Ideal.addf_def, Ideal.ofBits_def]
  rfl

/-- The residual update at (p, b, c). -/
theorem v13_at (x0 : (⟨S1024x256x8x8, .f32⟩ : BufTy).Contents (Elt Ideal)) (x2 : (⟨S512x256, .f32⟩ : BufTy).Contents (Elt Ideal))
    (x3 : (⟨S512, .f32⟩ : BufTy).Contents (Elt Ideal)) (x4 : (⟨S256x512, .f32⟩ : BufTy).Contents (Elt Ideal))
    (x5 : (⟨S256, .f32⟩ : BufTy).Contents (Elt Ideal)) (p : Fin 64) (b : Fin 1024) (c : Fin 256) :
    val_main_v13 (F := Ideal) x0 x2 x3 x4 x5 (ix3 p b c)
      = Cert.Spec.anew (fun h c => x2 (ix2 h c)) (fun h => x3 (ix1 h)) (fun c h => x4 (ix2 c h)) (fun c => x5 (ix1 c))
          (Cert.Spec.pixRow x0 p b) c := by
  rw [val_main_v13_apply, val_main_v10_apply, val_main_v9_apply, v12_at, v1_at]
  simp only [lidx9_eq, ridx9_eq, v8_at, Ideal.addf_def]
  rfl

/-- The prediction at (p, b, d). -/
theorem v14_at (x0 : (⟨S1024x256x8x8, .f32⟩ : BufTy).Contents (Elt Ideal)) (x2 : (⟨S512x256, .f32⟩ : BufTy).Contents (Elt Ideal))
    (x3 : (⟨S512, .f32⟩ : BufTy).Contents (Elt Ideal)) (x4 : (⟨S256x512, .f32⟩ : BufTy).Contents (Elt Ideal))
    (x5 : (⟨S256, .f32⟩ : BufTy).Contents (Elt Ideal)) (x6 : (⟨S256x256, .f32⟩ : BufTy).Contents (Elt Ideal))
    (p : Fin 64) (b : Fin 1024) (d : Fin 256) :
    val_main_v14 (F := Ideal) x0 x2 x3 x4 x5 x6 (ix3 p b d)
      = Cert.Spec.pred (fun h c => x2 (ix2 h c)) (fun h => x3 (ix1 h)) (fun c h => x4 (ix2 c h)) (fun c => x5 (ix1 c))
          (fun d c => x6 (ix2 d c)) (Cert.Spec.pixRow x0 p b) d := by
  rw [val_main_v14_apply]
  simp only [lidx14_eq, ridx14_eq, v13_at]
  rfl

/-- The logit of anchor row (p, b) against positive row (p, k). -/
theorem v15_at (x0 x1 : (⟨S1024x256x8x8, .f32⟩ : BufTy).Contents (Elt Ideal)) (x2 : (⟨S512x256, .f32⟩ : BufTy).Contents (Elt Ideal))
    (x3 : (⟨S512, .f32⟩ : BufTy).Contents (Elt Ideal)) (x4 : (⟨S256x512, .f32⟩ : BufTy).Contents (Elt Ideal))
    (x5 : (⟨S256, .f32⟩ : BufTy).Contents (Elt Ideal)) (x6 : (⟨S256x256, .f32⟩ : BufTy).Contents (Elt Ideal))
    (p : Fin 64) (b k : Fin 1024) :
    val_main_v15 (F := Ideal) x0 x1 x2 x3 x4 x5 x6 (ix3 p b k)
      = Cert.Spec.logit
          (Cert.Spec.pred (fun h c => x2 (ix2 h c)) (fun h => x3 (ix1 h)) (fun c h => x4 (ix2 c h)) (fun c => x5 (ix1 c))
            (fun d c => x6 (ix2 d c)) (Cert.Spec.pixRow x0 p b))
          (Cert.Spec.pixRow x1 p k) := by
  rw [val_main_v15_apply]
  simp only [lidx15_eq, ridx15_eq, v14_at, v3_at]
  rfl

/-! ## The row maximum and the result -/

/-- The reduction over the last axis at (p, b): the fold of max, from the −∞ literal, over the 1024 logits of the row.
    The index over (p, b) with k inserted on the reduced axis is (p, b, k). -/
theorem v16_at (x0 x1 : (⟨S1024x256x8x8, .f32⟩ : BufTy).Contents (Elt Ideal)) (x2 : (⟨S512x256, .f32⟩ : BufTy).Contents (Elt Ideal))
    (x3 : (⟨S512, .f32⟩ : BufTy).Contents (Elt Ideal)) (x4 : (⟨S256x512, .f32⟩ : BufTy).Contents (Elt Ideal))
    (x5 : (⟨S256, .f32⟩ : BufTy).Contents (Elt Ideal)) (x6 : (⟨S256x256, .f32⟩ : BufTy).Contents (Elt Ideal))
    (p : Fin 64) (b : Fin 1024) :
    val_main_v16 (F := Ideal) x0 x1 x2 x3 x4 x5 x6 (ix2 p b)
      = Cert.Spec.rowmax fun k => val_main_v15 (F := Ideal) x0 x1 x2 x3 x4 x5 x6 (ix3 p b k) := by
  unfold val_main_v16
  generalize val_main_v15 (F := Ideal) x0 x1 x2 x3 x4 x5 x6 = y
  have hr : S64x1024x1024.Reduces [2] S64x1024 := by decide
  have hl : ∀ k : Fin 1024, hr.lift (ix2 p b) k = ix3 p b k := fun k => funext fun a => Fin.ext (by
    match a with | ⟨0, _⟩ => rfl | ⟨1, _⟩ => rfl | ⟨2, _⟩ => rfl)
  refine (Host.reduce_eq_fold_single (FloatOps.maximumf (F := Ideal) (φ := .f32)) y (val_main_cst (F := Ideal))
    reducesTo_S64x1024x1024_S64x1024_d2 hr h_S_ (ix2 p b)).trans ?_
  have hf : (fun k : Fin 1024 => y (hr.lift (ix2 p b) k)) = fun k => y (ix3 p b k) := funext fun k => congrArg y (hl k)
  exact congrArg (fun f => (Finset.univ : Finset (Fin 1024)).fold max (Ideal.ofBits .f32 0xFF800000#32) f) hf

/-- The reference's result is the specification: at (p, b, k), the logit minus its row's maximum. -/
theorem ref_is_spec
    (x0 x1 : (⟨S1024x256x8x8, .f32⟩ : BufTy).Contents (Elt Ideal)) (x2 : (⟨S512x256, .f32⟩ : BufTy).Contents (Elt Ideal))
    (x3 : (⟨S512, .f32⟩ : BufTy).Contents (Elt Ideal)) (x4 : (⟨S256x512, .f32⟩ : BufTy).Contents (Elt Ideal))
    (x5 : (⟨S256, .f32⟩ : BufTy).Contents (Elt Ideal)) (x6 : (⟨S256x256, .f32⟩ : BufTy).Contents (Elt Ideal)) :
    val_main_v19 (F := Ideal) x0 x1 x2 x3 x4 x5 x6 = Cert.Spec.result x0 x1 x2 x3 x4 x5 x6 := by
  funext i
  obtain ⟨p, b, k, rfl⟩ : ∃ (p : Fin 64) (b k : Fin 1024), i = ix3 p b k := ⟨i 0, i 1, i 2, eq_ix3 i⟩
  have e : idx_main_v17 (idx_main_v18 (ix3 p b k)) = ix2 p b :=
    funext fun a => by match a with | ⟨0, _⟩ => rfl | ⟨1, _⟩ => rfl
  rw [val_main_v19_apply, val_main_v18_apply, val_main_v17_apply, e, v16_at]
  simp only [v15_at, Ideal.subf_def]
  rfl

end Cert.RefSpec

end
-- ==== Proof.KernelRun.lean ====
/-
  The kernel program's run, with its result named.

  The program is a stretch of host operations followed by two pipelined regions. Its run is the chain of these
  three segments over the thread state "every unscoped buffer at the contents of the current boundary": the
  launch memory, then what the host operations leave, then what the first pipeline's write-backs leave, then what
  the second pipeline's write-backs leave. At the end every unscoped buffer is read against the final state, so
  the result buffer holds the last boundary's contents at that buffer — the array the second pipeline's
  write-backs fold to — and each argument buffer, which nothing writes, holds what it held at launch.

  The three equations after the run name the boundary contents at the buffers the two pipelines write: the result
  buffer is the second pipeline's output window folded over all its grid points, and the two arrays between the
  pipelines are the first pipeline's two output windows folded over all its grid points.
-/
import proofs.«104337_j62981400428716_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- At the compiled mesh, from any memory with zero counters, every weakly fair execution of the program on the
    TensorCores terminates, nothing faulting; in every final state the result buffer holds what the second
    pipeline's write-backs leave there (the last boundary's contents at that buffer), and the seven argument
    arrays are as launched. -/
theorem run_value : θ_run defs (onTc (τ := τ) (main (F := F))) ⟨m, fun _ => 0, ρ⟩ (fun r => ∀ c : Dev nD,
      r.2.mem ((c.tc : Thread nD τ).loc main_v9) = Gen.W3 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W3 m ρ c) s')
      isplitl [Hh] <;> iassumption)
    (hQ := fun s h c =>
      ⟨h c _ (Gen.mem_uc main_v9 (by decide)),
       (h c _ (Gen.mem_uc main_arg0 (by decide))).trans (Gen.W3_main_arg0 m ρ c),
       (h c _ (Gen.mem_uc main_arg1 (by decide))).trans (Gen.W3_main_arg1 m ρ c),
       (h c _ (Gen.mem_uc main_arg2 (by decide))).trans (Gen.W3_main_arg2 m ρ c),
       (h c _ (Gen.mem_uc main_arg3 (by decide))).trans (Gen.W3_main_arg3 m ρ c),
       (h c _ (Gen.mem_uc main_arg4 (by decide))).trans (Gen.W3_main_arg4 m ρ c),
       (h c _ (Gen.mem_uc main_arg5 (by decide))).trans (Gen.W3_main_arg5 m ρ c),
       (h c _ (Gen.mem_uc main_arg6 (by decide))).trans (Gen.W3_main_arg6 m ρ c)⟩)

/-- The result buffer at the last boundary is the second pipeline's output window (its window 2) folded over all
    its grid points. -/
theorem result_eq (c : Dev nD) :
    Gen.W3 m ρ c (Proc.devRef .tc main_v9) = (Gen.dat1 (Gen.V2 m ρ) c).arrAt 2 cfg1.N :=
  Gen.W3_arr m ρ c 2

/-- Between the pipelines, the prediction array is the first pipeline's output window 7 folded over all its grid
    points. -/
theorem mid_eq_pred (c : Dev nD) :
    Gen.V2 m ρ c main_v8_0 = (Gen.dat0 (Gen.V1 m ρ) c).arrAt 7 cfg0.N :=
  Gen.W2_arr m ρ c 7

/-- Between the pipelines, the pixel-major positive array is the first pipeline's output window 8 folded over all
    its grid points. -/
theorem mid_eq_pos (c : Dev nD) :
    Gen.V2 m ρ c main_v8_1 = (Gen.dat0 (Gen.V1 m ρ) c).arrAt 8 cfg0.N :=
  Gen.W2_arr m ρ c 8

end Cert.KernelIdeal.RunValue

end
-- ==== Proof.KernelEntry.lean ====
/-
  What the first pipeline finds in its operand arrays.

  Before the first pipeline is entered, eight host operations have run on the launch memory: each of the three
  weight matrices W1 [512, 256], W2 [256, 512], Ww [256, 256] is transposed and then converted to the narrower float
  format, and each of the two bias vectors b1 [512], b2 [256] is reshaped to a one-row matrix. Over the extended
  reals a change of float format is the identity, so at the entry of the first pipeline
      the anchor and the positive arrays are the launch arrays themselves (no host operation writes them),
      W1ᵀ[i, h] = W1[h, i],   W2ᵀ[h, i] = W2[i, h],   Wwᵀ[i, d] = Ww[d, i],
      b1 as a row: [0, h] ↦ b1[h],   b2 as a row: [0, i] ↦ b2[i]
  (a reshape keeps the row-major position, and the row-major position of [0, h] in a one-row matrix is h).
  Each statement first names the operations' term for the buffer (the fold of the eight operations over the launch
  memory, read at that buffer) and then reads that term at one index.
-/
import proofs.«104337_j62981400428716_2_alg».proof.Proof.Gen.KernelIdeal.Frame
import Idealize.ShloMosaic.Lib.Pipeline.Value
import Idealize.ShloMosaic.Lib.ValueIdx
import Idealize.ShloMosaic.PureOps.Ideal

set_option maxRecDepth 16384

noncomputable section

namespace Cert.KernelIdeal.RunValue

open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-! ## The two input arrays: no host operation writes them -/

/-- The anchor array at the first pipeline's entry is the launch array. -/
theorem entry_anchor (c : Dev nD) :
    (Gen.V1 m ρ c main_arg0 : S1024x256x8x8.Idx → EReal) = m ((c.tc : Thread nD τ).loc main_arg0) := by
  dsimp only [Gen.V1, Gen.W1, Gen.hostOps0]
  after_results

/-- The positive array at the first pipeline's entry is the launch array. -/
theorem entry_positive (c : Dev nD) :
    (Gen.V1 m ρ c main_arg1 : S1024x256x8x8.Idx → EReal) = m ((c.tc : Thread nD τ).loc main_arg1) := by
  dsimp only [Gen.V1, Gen.W1, Gen.hostOps0]
  after_results

/-! ## A transposed matrix read at an index, a one-row reshape read at an index -/

/-- A [a, b] matrix transposed to [b, a] and then changed in float format, read at [j, i], is the matrix at [i, j]:
    over the extended reals the format change is the identity. -/
theorem truncf_transpose_ix2 {a b : Nat} (x : FVec Ideal (⟨2, ![a, b]⟩ : Shape) .f32)
    (ht : (⟨2, ![a, b]⟩ : Shape).Transposes [1, 0] (⟨2, ![b, a]⟩ : Shape)) (hb : FTy.bits .bf16 < FTy.bits .f32)
    (j : Fin b) (i : Fin a) :
    (truncf (F := Ideal) .bf16 (transpose (⟨2, ![b, a]⟩ : Shape) [1, 0] x ht) hb : FVec Ideal (⟨2, ![b, a]⟩ : Shape) .bf16) (ix2 j i)
      = x (ix2 i j) :=
  (truncf_apply (transpose (⟨2, ![b, a]⟩ : Shape) [1, 0] x ht) hb (ix2 j i)).trans
    (transpose_apply [1, 0] x ht (ix2 j i) (ix2 i j) (fun d => match d with
      | ⟨0, _⟩ => rfl
      | ⟨1, _⟩ => rfl))

/-- A length-n vector reshaped to a one-row matrix, read at [0, k], is the vector at k: both have row-major
    position k. -/
theorem shapeCast_row_ix2 {n : Nat} {α : Type} (x : (⟨1, ![n]⟩ : Shape).Idx → α)
    (hc : (⟨1, ![n]⟩ : Shape).ShapeCasts (⟨2, ![1, n]⟩ : Shape)) (k : Fin n) :
    shapeCast (⟨2, ![1, n]⟩ : Shape) x hc (ix2 (0 : Fin 1) k) = x (ix1 k) :=
  shapeCast_apply x hc (ix2 (0 : Fin 1) k) (ix1 k) (by
    rw [Shape.rowMajor_val_one, Shape.rowMajor_val_two]
    show k.val = 0 * n + k.val
    omega)

/-! ## The five weight operands -/

/-- W1ᵀ at the entry: [i, h] ↦ W1[h, i]. -/
theorem entry_w1t (c : Dev nD) (i : Fin 256) (h : Fin 512) :
    (Gen.V1 m ρ c main_v1 : S256x512.Idx → EReal) (ix2 i h)
      = (m ((c.tc : Thread nD τ).loc main_arg2) : S512x256.Idx → EReal) (ix2 h i) := by
  have e : (Gen.V1 m ρ c main_v1 : S256x512.Idx → EReal)
      = truncf (F := Ideal) .bf16 (transpose S256x512 [1, 0]
          (m ((c.tc : Thread nD τ).loc main_arg2) : FVec Ideal S512x256 .f32) Gen.transposes_S512x256_S256x512_1_0)
          Gen.bitsLt_bf16_f32 := by
    dsimp only [Gen.V1, Gen.W1, Gen.hostOps0]
    after_results
  rw [e]
  exact truncf_transpose_ix2 _ Gen.transposes_S512x256_S256x512_1_0 Gen.bitsLt_bf16_f32 i h

/-- b1 as a row at the entry: [0, h] ↦ b1[h]. -/
theorem entry_b1r (c : Dev nD) (h : Fin 512) :
    (Gen.V1 m ρ c main_v6 : S1x512.Idx → EReal) (ix2 (0 : Fin 1) h)
      = (m ((c.tc : Thread nD τ).loc main_arg3) : S512.Idx → EReal) (ix1 h) := by
  have e : (Gen.V1 m ρ c main_v6 : S1x512.Idx → EReal)
      = shapeCast S1x512 (m ((c.tc : Thread nD τ).loc main_arg3) : S512.Idx → EReal) Gen.shapeCasts_S512_S1x512 := by
    dsimp only [Gen.V1, Gen.W1, Gen.hostOps0]
    after_results
    rfl
  rw [e]
  exact shapeCast_row_ix2 _ Gen.shapeCasts_S512_S1x512 h

/-- W2ᵀ at the entry: [h, i] ↦ W2[i, h]. -/
theorem entry_w2t (c : Dev nD) (h : Fin 512) (i : Fin 256) :
    (Gen.V1 m ρ c main_v3 : S512x256.Idx → EReal) (ix2 h i)
      = (m ((c.tc : Thread nD τ).loc main_arg4) : S256x512.Idx → EReal) (ix2 i h) := by
  have e : (Gen.V1 m ρ c main_v3 : S512x256.Idx → EReal)
      = truncf (F := Ideal) .bf16 (transpose S512x256 [1, 0]
          (m ((c.tc : Thread nD τ).loc main_arg4) : FVec Ideal S256x512 .f32) Gen.transposes_S256x512_S512x256_1_0)
          Gen.bitsLt_bf16_f32 := by
    dsimp only [Gen.V1, Gen.W1, Gen.hostOps0]
    after_results
  rw [e]
  exact truncf_transpose_ix2 _ Gen.transposes_S256x512_S512x256_1_0 Gen.bitsLt_bf16_f32 h i

/-- b2 as a row at the entry: [0, i] ↦ b2[i]. -/
theorem entry_b2r (c : Dev nD) (i : Fin 256) :
    (Gen.V1 m ρ c main_v7 : S1x256.Idx → EReal) (ix2 (0 : Fin 1) i)
      = (m ((c.tc : Thread nD τ).loc main_arg5) : S256.Idx → EReal) (ix1 i) := by
  have e : (Gen.V1 m ρ c main_v7 : S1x256.Idx → EReal)
      = shapeCast S1x256 (m ((c.tc : Thread nD τ).loc main_arg5) : S256.Idx → EReal) Gen.shapeCasts_S256_S1x256 := by
    dsimp only [Gen.V1, Gen.W1, Gen.hostOps0]
    after_results
    rfl
  rw [e]
  exact shapeCast_row_ix2 _ Gen.shapeCasts_S256_S1x256 i

/-- Wwᵀ at the entry: [i, d] ↦ Ww[d, i]. -/
theorem entry_wwt (c : Dev nD) (i d : Fin 256) :
    (Gen.V1 m ρ c main_v5 : S256x256.Idx → EReal) (ix2 i d)
      = (m ((c.tc : Thread nD τ).loc main_arg6) : S256x256.Idx → EReal) (ix2 d i) := by
  have e : (Gen.V1 m ρ c main_v5 : S256x256.Idx → EReal)
      = truncf (F := Ideal) .bf16 (transpose S256x256 [1, 0]
          (m ((c.tc : Thread nD τ).loc main_arg6) : FVec Ideal S256x256 .f32) Gen.transposes_S256x256_S256x256_1_0)
          Gen.bitsLt_bf16_f32 := by
    dsimp only [Gen.V1, Gen.W1, Gen.hostOps0]
    after_results
  rw [e]
  exact truncf_transpose_ix2 _ Gen.transposes_S256x256_S256x256_1_0 Gen.bitsLt_bf16_f32 i d

end Cert.KernelIdeal.RunValue

end
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.Pass1Body.lean ====
/-
  One pixel of the first kernel, read at an entry.

  The body handles 64 pixels one after the other, each the same arithmetic on a [64, 256, 1, 1] slab of the anchor
  block (64 batch rows of the tile, 256 channels, one pixel): drop the two unit axes, multiply by W1ᵀ, add the bias
  row, clamp at zero, multiply by W2ᵀ, add the slab and the second bias row, multiply by Wwᵀ, and lay the [64, 256]
  result out as a [1, 64, 256] slab. At Ideal the roundings to bf16 are the identity and each product into a zero
  accumulator is the plain sum over the contracted axis, so entry (·, b, d) of the slab is `Spec.pred` of the
  slab's row b at d, with the weights read through their transposes. The positive slab is only re-laid.
-/
import proofs.«104337_j62981400428716_2_alg».proof.Proof.Gen.KernelIdeal.Skeleton
import proofs.«104337_j62981400428716_2_alg».proof.Proof.Spec
import proofs.«104337_j62981400428716_2_alg».proof.Proof.LibPlainDot
import Idealize.ShloMosaic.Lib.ValueLayout
import Idealize.ShloMosaic.Lib.Pipeline.Value

noncomputable section

namespace Cert.KernelIdeal.Pass1

open Cert.KernelIdeal Cert.KernelIdeal.Gen Idealize.ShloMosaic Idealize.ShloMosaic.ValueIdx

/-- A [64, 256, 1, 1] slab with its two unit axes dropped reads, at (b, c), the slab at (b, c, 0, 0). -/
theorem dropUnits_apply {α : Type} (a : S64x256x1x1.Idx → α) (h : S64x256x1x1.ShapeCasts S64x256) (b : Fin 64) (c : Fin 256) :
    shapeCast S64x256 a h (ix2 b c) = a (ix4 b c (0 : Fin 1) (0 : Fin 1)) :=
  shapeCast_apply a h _ _ (by
    rw [Shape.rowMajor_val_four, Shape.rowMajor_val_two]
    show ((b.val * 256 + c.val) * 1 + 0) * 1 + 0 = b.val * 256 + c.val
    omega)

/-- The three plain products of the pixel's arithmetic are plain. -/
theorem dot1_plain : dot_S64x256_S256x512_S64x512_1_0_0_1_n_n = DotDims.plain 64 256 512 := rfl
theorem dot2_plain : dot_S64x512_S512x256_S64x256_1_0_0_1_n_n = DotDims.plain 64 512 256 := rfl
theorem dot3_plain : dot_S64x256_S256x256_S64x256_1_0_0_1_n_n = DotDims.plain 64 256 256 := rfl

/-- Entry (·, b, d) of a pixel's prediction slab is the specification's prediction of the slab's row b at d. -/
theorem predSlab_apply (v1 : FVec Ideal S256x512 .bf16) (v3 : FVec Ideal S1x512 .f32) (v5 : FVec Ideal S512x256 .bf16)
    (v7 : FVec Ideal S1x256 .f32) (v9 : FVec Ideal S256x256 .bf16) (a : Vec Ideal S64x256x1x1 .f32)
    (u : Fin 1) (b : Fin 64) (d : Fin 256) :
    k0_pay10 v1 v3 v5 v7 v9 a (ix3 u b d)
      = Spec.pred (fun h c => v1 (ix2 c h)) (fun h => v3 (ix2 (0 : Fin 1) h)) (fun c h => v5 (ix2 h c))
          (fun c => v7 (ix2 (0 : Fin 1) c)) (fun d c => v9 (ix2 c d)) (fun c => a (ix4 b c (0 : Fin 1) (0 : Fin 1))) d := by
  unfold k0_pay10
  simp only [matmul, shapeCast_ab_1ab_apply, truncf_apply, LibPlainDot.matmul_zero_apply _ dot3_plain,
    LibPlainDot.matmul_zero_apply _ dot2_plain, LibPlainDot.matmul_zero_apply _ dot1_plain, addf_apply, maximumf_apply,
    broadcast_apply, broadcastTo_1b_ab_apply, dropUnits_apply]
  simp only [Ideal.ofBits_def, Spec.pred, Spec.anew, Spec.hidden]

end Cert.KernelIdeal.Pass1

end
-- ==== Proof.Pass1Piece.lean ====
/-
  One store of the first kernel's body, as a piece of ONE function of the output block's index.

  The body stores, for each pixel p = 8·y + x, the prediction slab of the anchor block's pixel (y, x) into slab p of
  the [64, 64, 256] prediction block, and the positive block's pixel (y, x) into slab p of the positive block. So the
  block the body leaves is one function of its index (p, b, d): the specification's prediction of row b of pixel p of
  the anchor block at d (`predBlk`), resp. the positive block at (b, d, p / 8, p % 8) (`posBlk`). This module
  proves that for one store with the pixel's offsets as parameters; the 64 stores are instances.
-/
import proofs.«104337_j62981400428716_2_alg».proof.Proof.Gen.KernelIdeal.Frame
import proofs.«104337_j62981400428716_2_alg».proof.Proof.Pass1Body

noncomputable section

namespace Cert.KernelIdeal.Pass1

open Cert.KernelIdeal Cert.KernelIdeal.Gen Idealize.ShloMosaic Idealize.ShloMosaic.ValueIdx

/-- The prediction block as a function of the anchor block and the five weight blocks (whole arrays, transposed). -/
def predBlk (x0 : Vec Ideal S64x256x8x8 .f32) (x2 : Vec Ideal S256x512 .bf16) (x3 : Vec Ideal S1x512 .f32)
    (x4 : Vec Ideal S512x256 .bf16) (x5 : Vec Ideal S1x256 .f32) (x6 : Vec Ideal S256x256 .bf16) :
    Vec Ideal S64x64x256 .bf16 := fun y =>
  Spec.pred (fun h c => x2 (ix2 c h)) (fun h => x3 (ix2 (0 : Fin 1) h)) (fun c h => x4 (ix2 h c))
    (fun c => x5 (ix2 (0 : Fin 1) c)) (fun d c => x6 (ix2 c d))
    (fun c => x0 (ix4 (⟨(y 1).val, (y 1).isLt⟩ : Fin 64) c
      (⟨(y 0).val / 8, by have : (y 0).val < 64 := (y 0).isLt; omega⟩ : Fin 8)
      (⟨(y 0).val % 8, by omega⟩ : Fin 8)))
    (⟨(y 2).val, (y 2).isLt⟩ : Fin 256)

/-- The positive block re-laid pixel-major. -/
def posBlk (x1 : Vec Ideal S64x256x8x8 .f32) : Vec Ideal S64x64x256 .bf16 := fun y =>
  x1 (ix4 (⟨(y 1).val, (y 1).isLt⟩ : Fin 64) (⟨(y 2).val, (y 2).isLt⟩ : Fin 256)
    (⟨(y 0).val / 8, by have : (y 0).val < 64 := (y 0).isLt; omega⟩ : Fin 8)
    (⟨(y 0).val % 8, by omega⟩ : Fin 8))

theorem hz2 : (![0, 0] : Fin 2 → Nat) = fun _ => 0 := funext fun a => by fin_cases a <;> rfl

/-- Each weight block is loaded whole and cast to its own shape: the block itself. -/
theorem w1_whole (x2 : Vec Ideal S256x512 .bf16) : k0_pay2 (View.ld x2 r0_0) = x2 := by
  unfold k0_pay2; rw [shapeCast_self, View.ld_unit_zero (S := S256x512) hz2]
theorem b1_whole (x3 : Vec Ideal S1x512 .f32) : k0_pay3 (View.ld x3 r0_1) = x3 := by
  unfold k0_pay3; rw [shapeCast_self, View.ld_unit_zero (S := S1x512) hz2]
theorem w2_whole (x4 : Vec Ideal S512x256 .bf16) : k0_pay4 (View.ld x4 r0_2) = x4 := by
  unfold k0_pay4; rw [shapeCast_self, View.ld_unit_zero (S := S512x256) hz2]
theorem b2_whole (x5 : Vec Ideal S1x256 .f32) : k0_pay5 (View.ld x5 r0_3) = x5 := by
  unfold k0_pay5; rw [shapeCast_self, View.ld_unit_zero (S := S1x256) hz2]
theorem ww_whole (x6 : Vec Ideal S256x256 .bf16) : k0_pay6 (View.ld x6 r0_4) = x6 := by
  unfold k0_pay6; rw [shapeCast_self, View.ld_unit_zero (S := S256x256) hz2]

/-- The store of pixel (o2, o3): its payload, normalised to the pixel's arithmetic on the loaded slab, is the slab
    p = 8·o2 + o3 of `predBlk`. -/
theorem pred_piece (x0 : Vec Ideal S64x256x8x8 .f32) (x2 : Vec Ideal S256x512 .bf16) (x3 : Vec Ideal S1x512 .f32)
    (x4 : Vec Ideal S512x256 .bf16) (x5 : Vec Ideal S1x256 .f32) (x6 : Vec Ideal S256x256 .bf16)
    (o2 o3 p : Nat) (hp : p = 8 * o2 + o3) (h3 : o3 < 8)
    (inb : ∀ a, (![0, 0, o2, o3] : Fin 4 → Nat) a + S64x256x1x1.size a ≤ S64x256x8x8.size a)
    (inb' : ∀ a, (![p, 0, 0] : Fin 3 → Nat) a + S1x64x256.size a ≤ S64x64x256.size a)
    (P : FVec Ideal S1x64x256 .bf16)
    (hP : P = k0_pay10 (k0_pay2 (View.ld x2 r0_0)) (k0_pay3 (View.ld x3 r0_1)) (k0_pay4 (View.ld x4 r0_2))
      (k0_pay5 (View.ld x5 r0_3)) (k0_pay6 (View.ld x6 r0_4))
      (View.ld x0 (Rect.unit (s := S64x256x8x8) ![0, 0, o2, o3] S64x256x1x1.size inb)))
    (x : S1x64x256.Idx) :
    P x = predBlk x0 x2 x3 x4 x5 x6 ((Rect.unit (s := S64x64x256) ![p, 0, 0] S1x64x256.size inb').emb x) := by
  obtain ⟨u, b, d, rfl⟩ : ∃ (u : Fin 1) (b : Fin 64) (d : Fin 256), x = ix3 u b d := ⟨x 0, x 1, x 2, eq_ix3 x⟩
  subst hP
  rw [predSlab_apply, w1_whole, b1_whole, w2_whole, b2_whole, ww_whole]
  unfold predBlk
  have hu : u.val = 0 := by omega
  have hrow : (fun c : Fin 256 => View.ld x0 (Rect.unit (s := S64x256x8x8) ![0, 0, o2, o3] S64x256x1x1.size inb) (ix4 b c (0 : Fin 1) (0 : Fin 1)))
      = fun c : Fin 256 => x0 (ix4 (⟨((Rect.unit (s := S64x64x256) ![p, 0, 0] S1x64x256.size inb').emb (ix3 u b d) 1).val, ((Rect.unit (s := S64x64x256) ![p, 0, 0] S1x64x256.size inb').emb (ix3 u b d) 1).isLt⟩ : Fin 64) c
        (⟨((Rect.unit (s := S64x64x256) ![p, 0, 0] S1x64x256.size inb').emb (ix3 u b d) 0).val / 8, by have h64 : ((Rect.unit (s := S64x64x256) ![p, 0, 0] S1x64x256.size inb').emb (ix3 u b d) 0).val < 64 := ((Rect.unit (s := S64x64x256) ![p, 0, 0] S1x64x256.size inb').emb (ix3 u b d) 0).isLt; omega⟩ : Fin 8)
        (⟨((Rect.unit (s := S64x64x256) ![p, 0, 0] S1x64x256.size inb').emb (ix3 u b d) 0).val % 8, by omega⟩ : Fin 8)) := by
    funext c
    refine congrArg x0 (funext fun a => Fin.ext ?_)
    match a with
    | ⟨0, _⟩ => show 0 + 1 * b.val = 0 + 1 * b.val; rfl
    | ⟨1, _⟩ => show 0 + 1 * c.val = c.val; omega
    | ⟨2, _⟩ => show o2 + 1 * 0 = (p + 1 * u.val) / 8; omega
    | ⟨3, _⟩ => show o3 + 1 * 0 = (p + 1 * u.val) % 8; omega
  have hd : d = (⟨((Rect.unit (s := S64x64x256) ![p, 0, 0] S1x64x256.size inb').emb (ix3 u b d) 2).val, ((Rect.unit (s := S64x64x256) ![p, 0, 0] S1x64x256.size inb').emb (ix3 u b d) 2).isLt⟩ : Fin 256) :=
    Fin.ext (by show d.val = 0 + 1 * d.val; omega)
  rw [hrow]
  exact congrArg _ hd

/-- Entry (·, b, d) of a pixel's positive slab is the loaded slab at (b, d, 0, 0): the roundings and casts move nothing. -/
theorem posSlab_apply (a : Vec Ideal S64x256x1x1 .f32) (u : Fin 1) (b : Fin 64) (d : Fin 256) :
    k0_pay11 a (ix3 u b d) = a (ix4 b d (0 : Fin 1) (0 : Fin 1)) := by
  unfold k0_pay11
  simp only [shapeCast_ab_1ab_apply, truncf_apply, dropUnits_apply]

/-- The positive store of pixel (o2, o3) is slab p = 8·o2 + o3 of `posBlk`. -/
theorem pos_piece (x1 : Vec Ideal S64x256x8x8 .f32) (o2 o3 p : Nat) (hp : p = 8 * o2 + o3) (h3 : o3 < 8)
    (inb : ∀ a, (![0, 0, o2, o3] : Fin 4 → Nat) a + S64x256x1x1.size a ≤ S64x256x8x8.size a)
    (inb' : ∀ a, (![p, 0, 0] : Fin 3 → Nat) a + S1x64x256.size a ≤ S64x64x256.size a)
    (P : FVec Ideal S1x64x256 .bf16)
    (hP : P = k0_pay11 (View.ld x1 (Rect.unit (s := S64x256x8x8) ![0, 0, o2, o3] S64x256x1x1.size inb)))
    (x : S1x64x256.Idx) :
    P x = posBlk x1 ((Rect.unit (s := S64x64x256) ![p, 0, 0] S1x64x256.size inb').emb x) := by
  obtain ⟨u, b, d, rfl⟩ : ∃ (u : Fin 1) (b : Fin 64) (d : Fin 256), x = ix3 u b d := ⟨x 0, x 1, x 2, eq_ix3 x⟩
  subst hP
  rw [posSlab_apply]
  unfold posBlk
  have hu : u.val = 0 := by omega
  refine congrArg x1 (funext fun a => Fin.ext ?_)
  match a with
  | ⟨0, _⟩ => show 0 + 1 * b.val = 0 + 1 * b.val; rfl
  | ⟨1, _⟩ => show 0 + 1 * d.val = 0 + 1 * d.val; rfl
  | ⟨2, _⟩ => show o2 + 1 * 0 = (p + 1 * u.val) / 8; omega
  | ⟨3, _⟩ => show o3 + 1 * 0 = (p + 1 * u.val) % 8; omega

/-- A list of pieces agrees with one function when its head does and its tail does. -/
theorem pieces_cons {S : Shape} {e : EltTy} {G : S.Idx → Elt Ideal e} {p : View.Piece (Elt Ideal) S e}
    {L : List (View.Piece (Elt Ideal) S e)} (h : ∀ x : p.1.shape.Idx, p.2 x = G (p.1.emb x))
    (hL : ∀ q ∈ L, ∀ x : q.1.shape.Idx, q.2 x = G (q.1.emb x)) :
    ∀ q ∈ p :: L, ∀ x : q.1.shape.Idx, q.2 x = G (q.1.emb x) := by
  intro q hq
  rcases List.mem_cons.mp hq with rfl | hq'
  · exact h
  · exact hL q hq'

theorem pieces_nil {S : Shape} {e : EltTy} {G : S.Idx → Elt Ideal e} :
    ∀ q ∈ ([] : List (View.Piece (Elt Ideal) S e)), ∀ x : q.1.shape.Idx, q.2 x = G (q.1.emb x) :=
  fun _ hq => absurd hq List.not_mem_nil

end Cert.KernelIdeal.Pass1

end
-- ==== Proof.Pass1Out.lean ====
/-
  The block the first kernel's body leaves in each output window, as ONE function of the input blocks.

  The body's 64 prediction stores and 64 positive stores are written out below, pixel by pixel; store p writes slab p of
  its output block, and each is the instance of `pred_piece` / `pos_piece` at the pixel's coordinates (p / 8, p % 8)
  (the payloads differ only in how the body's text was cut into parts: they are the same arithmetic, by unfolding).
  The slabs tile the block, so the block is `predBlk` resp. `posBlk` of the input blocks at every index.
-/
import proofs.«104337_j62981400428716_2_alg».proof.Proof.Pass1Piece

set_option maxRecDepth 16384

noncomputable section

namespace Cert.KernelIdeal.Pass1

open Cert.KernelIdeal Cert.KernelIdeal.Gen Idealize.ShloMosaic Idealize.ShloMosaic.ValueIdx

/-- What the body leaves in the prediction window's buffer is `predBlk` of the input blocks. -/
theorem out_pred (x0 : Vec Ideal S64x256x8x8 .f32) (x1 : Vec Ideal S64x256x8x8 .f32) (x2 : Vec Ideal S256x512 .bf16) (x3 : Vec Ideal S1x512 .f32) (x4 : Vec Ideal S512x256 .bf16) (x5 : Vec Ideal S1x256 .f32) (x6 : Vec Ideal S256x256 .bf16) :
    out0_7 x0 x1 x2 x3 x4 x5 x6 = predBlk x0 x2 x3 x4 x5 x6 := by
  funext y
  unfold out0_7
  have h63 : ∀ x : S1x64x256.Idx, (k0_pay197 (k0_pay5 (View.ld x5 r0_3)) (k0_pay6 (View.ld x6 r0_4)) (k0_pay196 (k0_pay2 (View.ld x2 r0_0)) (k0_pay3 (View.ld x3 r0_1)) (k0_pay4 (View.ld x4 r0_2)) (View.ld x0 r0_131))) x = predBlk x0 x2 x3 x4 x5 x6 (r0_132.emb x) :=
    pred_piece x0 x2 x3 x4 x5 x6 7 7 63 rfl (by decide) _ _ _ rfl
  have h62 : ∀ x : S1x64x256.Idx, (k0_pay193 (k0_pay2 (View.ld x2 r0_0)) (k0_pay3 (View.ld x3 r0_1)) (k0_pay4 (View.ld x4 r0_2)) (k0_pay5 (View.ld x5 r0_3)) (k0_pay6 (View.ld x6 r0_4)) (k0_pay192 (View.ld x0 r0_129))) x = predBlk x0 x2 x3 x4 x5 x6 (r0_130.emb x) :=
    pred_piece x0 x2 x3 x4 x5 x6 7 6 62 rfl (by decide) _ _ _ rfl
  have h61 : ∀ x : S1x64x256.Idx, (k0_pay190 (k0_pay2 (View.ld x2 r0_0)) (k0_pay3 (View.ld x3 r0_1)) (k0_pay4 (View.ld x4 r0_2)) (k0_pay5 (View.ld x5 r0_3)) (k0_pay6 (View.ld x6 r0_4)) (View.ld x0 r0_127)) x = predBlk x0 x2 x3 x4 x5 x6 (r0_128.emb x) :=
    pred_piece x0 x2 x3 x4 x5 x6 7 5 61 rfl (by decide) _ _ _ rfl
  have h60 : ∀ x : S1x64x256.Idx, (k0_pay187 (k0_pay2 (View.ld x2 r0_0)) (k0_pay3 (View.ld x3 r0_1)) (k0_pay4 (View.ld x4 r0_2)) (k0_pay5 (View.ld x5 r0_3)) (k0_pay6 (View.ld x6 r0_4)) (View.ld x0 r0_125)) x = predBlk x0 x2 x3 x4 x5 x6 (r0_126.emb x) :=
    pred_piece x0 x2 x3 x4 x5 x6 7 4 60 rfl (by decide) _ _ _ rfl
  have h59 : ∀ x : S1x64x256.Idx, (k0_pay185 (k0_pay5 (View.ld x5 r0_3)) (k0_pay6 (View.ld x6 r0_4)) (k0_pay184 (k0_pay2 (View.ld x2 r0_0)) (k0_pay3 (View.ld x3 r0_1)) (k0_pay4 (View.ld x4 r0_2)) (View.ld x0 r0_123))) x = predBlk x0 x2 x3 x4 x5 x6 (r0_124.emb x) :=
    pred_piece x0 x2 x3 x4 x5 x6 7 3 59 rfl (by decide) _ _ _ rfl
  have h58 : ∀ x : S1x64x256.Idx, (k0_pay181 (k0_pay2 (View.ld x2 r0_0)) (k0_pay3 (View.ld x3 r0_1)) (k0_pay4 (View.ld x4 r0_2)) (k0_pay5 (View.ld x5 r0_3)) (k0_pay6 (View.ld x6 r0_4)) (k0_pay180 (View.ld x0 r0_121))) x = predBlk x0 x2 x3 x4 x5 x6 (r0_122.emb x) :=
    pred_piece x0 x2 x3 x4 x5 x6 7 2 58 rfl (by decide) _ _ _ rfl
  have h57 : ∀ x : S1x64x256.Idx, (k0_pay178 (k0_pay2 (View.ld x2 r0_0)) (k0_pay3 (View.ld x3 r0_1)) (k0_pay4 (View.ld x4 r0_2)) (k0_pay5 (View.ld x5 r0_3)) (k0_pay6 (View.ld x6 r0_4)) (View.ld x0 r0_119)) x = predBlk x0 x2 x3 x4 x5 x6 (r0_120.emb x) :=
    pred_piece x0 x2 x3 x4 x5 x6 7 1 57 rfl (by decide) _ _ _ rfl
  have h56 : ∀ x : S1x64x256.Idx, (k0_pay175 (k0_pay2 (View.ld x2 r0_0)) (k0_pay3 (View.ld x3 r0_1)) (k0_pay4 (View.ld x4 r0_2)) (k0_pay5 (View.ld x5 r0_3)) (k0_pay6 (View.ld x6 r0_4)) (View.ld x0 r0_117)) x = predBlk x0 x2 x3 x4 x5 x6 (r0_118.emb x) :=
    pred_piece x0 x2 x3 x4 x5 x6 7 0 56 rfl (by decide) _ _ _ rfl
  have h55 : ∀ x : S1x64x256.Idx, (k0_pay173 (k0_pay5 (View.ld x5 r0_3)) (k0_pay6 (View.ld x6 r0_4)) (k0_pay172 (k0_pay2 (View.ld x2 r0_0)) (k0_pay3 (View.ld x3 r0_1)) (k0_pay4 (View.ld x4 r0_2)) (View.ld x0 r0_115))) x = predBlk x0 x2 x3 x4 x5 x6 (r0_116.emb x) :=
    pred_piece x0 x2 x3 x4 x5 x6 6 7 55 rfl (by decide) _ _ _ rfl
  have h54 : ∀ x : S1x64x256.Idx, (k0_pay169 (k0_pay2 (View.ld x2 r0_0)) (k0_pay3 (View.ld x3 r0_1)) (k0_pay4 (View.ld x4 r0_2)) (k0_pay5 (View.ld x5 r0_3)) (k0_pay6 (View.ld x6 r0_4)) (k0_pay168 (View.ld x0 r0_113))) x = predBlk x0 x2 x3 x4 x5 x6 (r0_114.emb x) :=
    pred_piece x0 x2 x3 x4 x5 x6 6 6 54 rfl (by decide) _ _ _ rfl
  have h53 : ∀ x : S1x64x256.Idx, (k0_pay166 (k0_pay2 (View.ld x2 r0_0)) (k0_pay3 (View.ld x3 r0_1)) (k0_pay4 (View.ld x4 r0_2)) (k0_pay5 (View.ld x5 r0_3)) (k0_pay6 (View.ld x6 r0_4)) (View.ld x0 r0_111)) x = predBlk x0 x2 x3 x4 x5 x6 (r0_112.emb x) :=
    pred_piece x0 x2 x3 x4 x5 x6 6 5 53 rfl (by decide) _ _ _ rfl
  have h52 : ∀ x : S1x64x256.Idx, (k0_pay163 (k0_pay2 (View.ld x2 r0_0)) (k0_pay3 (View.ld x3 r0_1)) (k0_pay4 (View.ld x4 r0_2)) (k0_pay5 (View.ld x5 r0_3)) (k0_pay6 (View.ld x6 r0_4)) (View.ld x0 r0_109)) x = predBlk x0 x2 x3 x4 x5 x6 (r0_110.emb x) :=
    pred_piece x0 x2 x3 x4 x5 x6 6 4 52 rfl (by decide) _ _ _ rfl
  have h51 : ∀ x : S1x64x256.Idx, (k0_pay161 (k0_pay5 (View.ld x5 r0_3)) (k0_pay6 (View.ld x6 r0_4)) (k0_pay160 (k0_pay2 (View.ld x2 r0_0)) (k0_pay3 (View.ld x3 r0_1)) (k0_pay4 (View.ld x4 r0_2)) (View.ld x0 r0_107))) x = predBlk x0 x2 x3 x4 x5 x6 (r0_108.emb x) :=
    pred_piece x0 x2 x3 x4 x5 x6 6 3 51 rfl (by decide) _ _ _ rfl
  have h50 : ∀ x : S1x64x256.Idx, (k0_pay157 (k0_pay2 (View.ld x2 r0_0)) (k0_pay3 (View.ld x3 r0_1)) (k0_pay4 (View.ld x4 r0_2)) (k0_pay5 (View.ld x5 r0_3)) (k0_pay6 (View.ld x6 r0_4)) (k0_pay156 (View.ld x0 r0_105))) x = predBlk x0 x2 x3 x4 x5 x6 (r0_106.emb x) :=
    pred_piece x0 x2 x3 x4 x5 x6 6 2 50 rfl (by decide) _ _ _ rfl
  have h49 : ∀ x : S1x64x256.Idx, (k0_pay154 (k0_pay2 (View.ld x2 r0_0)) (k0_pay3 (View.ld x3 r0_1)) (k0_pay4 (View.ld x4 r0_2)) (k0_pay5 (View.ld x5 r0_3)) (k0_pay6 (View.ld x6 r0_4)) (View.ld x0 r0_103)) x = predBlk x0 x2 x3 x4 x5 x6 (r0_104.emb x) :=
    pred_piece x0 x2 x3 x4 x5 x6 6 1 49 rfl (by decide) _ _ _ rfl
  have h48 : ∀ x : S1x64x256.Idx, (k0_pay151 (k0_pay2 (View.ld x2 r0_0)) (k0_pay3 (View.ld x3 r0_1)) (k0_pay4 (View.ld x4 r0_2)) (k0_pay5 (View.ld x5 r0_3)) (k0_pay6 (View.ld x6 r0_4)) (View.ld x0 r0_101)) x = predBlk x0 x2 x3 x4 x5 x6 (r0_102.emb x) :=
    pred_piece x0 x2 x3 x4 x5 x6 6 0 48 rfl (by decide) _ _ _ rfl
  have h47 : ∀ x : S1x64x256.Idx, (k0_pay149 (k0_pay5 (View.ld x5 r0_3)) (k0_pay6 (View.ld x6 r0_4)) (k0_pay148 (k0_pay2 (View.ld x2 r0_0)) (k0_pay3 (View.ld x3 r0_1)) (k0_pay4 (View.ld x4 r0_2)) (View.ld x0 r0_99))) x = predBlk x0 x2 x3 x4 x5 x6 (r0_100.emb x) :=
    pred_piece x0 x2 x3 x4 x5 x6 5 7 47 rfl (by decide) _ _ _ rfl
  have h46 : ∀ x : S1x64x256.Idx, (k0_pay145 (k0_pay2 (View.ld x2 r0_0)) (k0_pay3 (View.ld x3 r0_1)) (k0_pay4 (View.ld x4 r0_2)) (k0_pay5 (View.ld x5 r0_3)) (k0_pay6 (View.ld x6 r0_4)) (k0_pay144 (View.ld x0 r0_97))) x = predBlk x0 x2 x3 x4 x5 x6 (r0_98.emb x) :=
    pred_piece x0 x2 x3 x4 x5 x6 5 6 46 rfl (by decide) _ _ _ rfl
  have h45 : ∀ x : S1x64x256.Idx, (k0_pay142 (k0_pay2 (View.ld x2 r0_0)) (k0_pay3 (View.ld x3 r0_1)) (k0_pay4 (View.ld x4 r0_2)) (k0_pay5 (View.ld x5 r0_3)) (k0_pay6 (View.ld x6 r0_4)) (View.ld x0 r0_95)) x = predBlk x0 x2 x3 x4 x5 x6 (r0_96.emb x) :=
    pred_piece x0 x2 x3 x4 x5 x6 5 5 45 rfl (by decide) _ _ _ rfl
  have h44 : ∀ x : S1x64x256.Idx, (k0_pay139 (k0_pay2 (View.ld x2 r0_0)) (k0_pay3 (View.ld x3 r0_1)) (k0_pay4 (View.ld x4 r0_2)) (k0_pay5 (View.ld x5 r0_3)) (k0_pay6 (View.ld x6 r0_4)) (View.ld x0 r0_93)) x = predBlk x0 x2 x3 x4 x5 x6 (r0_94.emb x) :=
    pred_piece x0 x2 x3 x4 x5 x6 5 4 44 rfl (by decide) _ _ _ rfl
  have h43 : ∀ x : S1x64x256.Idx, (k0_pay137 (k0_pay5 (View.ld x5 r0_3)) (k0_pay6 (View.ld x6 r0_4)) (k0_pay136 (k0_pay2 (View.ld x2 r0_0)) (k0_pay3 (View.ld x3 r0_1)) (k0_pay4 (View.ld x4 r0_2)) (View.ld x0 r0_91))) x = predBlk x0 x2 x3 x4 x5 x6 (r0_92.emb x) :=
    pred_piece x0 x2 x3 x4 x5 x6 5 3 43 rfl (by decide) _ _ _ rfl
  have h42 : ∀ x : S1x64x256.Idx, (k0_pay133 (k0_pay2 (View.ld x2 r0_0)) (k0_pay3 (View.ld x3 r0_1)) (k0_pay4 (View.ld x4 r0_2)) (k0_pay5 (View.ld x5 r0_3)) (k0_pay6 (View.ld x6 r0_4)) (k0_pay132 (View.ld x0 r0_89))) x = predBlk x0 x2 x3 x4 x5 x6 (r0_90.emb x) :=
    pred_piece x0 x2 x3 x4 x5 x6 5 2 42 rfl (by decide) _ _ _ rfl
  have h41 : ∀ x : S1x64x256.Idx, (k0_pay130 (k0_pay2 (View.ld x2 r0_0)) (k0_pay3 (View.ld x3 r0_1)) (k0_pay4 (View.ld x4 r0_2)) (k0_pay5 (View.ld x5 r0_3)) (k0_pay6 (View.ld x6 r0_4)) (View.ld x0 r0_87)) x = predBlk x0 x2 x3 x4 x5 x6 (r0_88.emb x) :=
    pred_piece x0 x2 x3 x4 x5 x6 5 1 41 rfl (by decide) _ _ _ rfl
  have h40 : ∀ x : S1x64x256.Idx, (k0_pay127 (k0_pay2 (View.ld x2 r0_0)) (k0_pay3 (View.ld x3 r0_1)) (k0_pay4 (View.ld x4 r0_2)) (k0_pay5 (View.ld x5 r0_3)) (k0_pay6 (View.ld x6 r0_4)) (View.ld x0 r0_85)) x = predBlk x0 x2 x3 x4 x5 x6 (r0_86.emb x) :=
    pred_piece x0 x2 x3 x4 x5 x6 5 0 40 rfl (by decide) _ _ _ rfl
  have h39 : ∀ x : S1x64x256.Idx, (k0_pay125 (k0_pay5 (View.ld x5 r0_3)) (k0_pay6 (View.ld x6 r0_4)) (k0_pay124 (k0_pay2 (View.ld x2 r0_0)) (k0_pay3 (View.ld x3 r0_1)) (k0_pay4 (View.ld x4 r0_2)) (View.ld x0 r0_83))) x = predBlk x0 x2 x3 x4 x5 x6 (r0_84.emb x) :=
    pred_piece x0 x2 x3 x4 x5 x6 4 7 39 rfl (by decide) _ _ _ rfl
  have h38 : ∀ x : S1x64x256.Idx, (k0_pay121 (k0_pay2 (View.ld x2 r0_0)) (k0_pay3 (View.ld x3 r0_1)) (k0_pay4 (View.ld x4 r0_2)) (k0_pay5 (View.ld x5 r0_3)) (k0_pay6 (View.ld x6 r0_4)) (k0_pay120 (View.ld x0 r0_81))) x = predBlk x0 x2 x3 x4 x5 x6 (r0_82.emb x) :=
    pred_piece x0 x2 x3 x4 x5 x6 4 6 38 rfl (by decide) _ _ _ rfl
  have h37 : ∀ x : S1x64x256.Idx, (k0_pay118 (k0_pay2 (View.ld x2 r0_0)) (k0_pay3 (View.ld x3 r0_1)) (k0_pay4 (View.ld x4 r0_2)) (k0_pay5 (View.ld x5 r0_3)) (k0_pay6 (View.ld x6 r0_4)) (View.ld x0 r0_79)) x = predBlk x0 x2 x3 x4 x5 x6 (r0_80.emb x) :=
    pred_piece x0 x2 x3 x4 x5 x6 4 5 37 rfl (by decide) _ _ _ rfl
  have h36 : ∀ x : S1x64x256.Idx, (k0_pay115 (k0_pay2 (View.ld x2 r0_0)) (k0_pay3 (View.ld x3 r0_1)) (k0_pay4 (View.ld x4 r0_2)) (k0_pay5 (View.ld x5 r0_3)) (k0_pay6 (View.ld x6 r0_4)) (View.ld x0 r0_77)) x = predBlk x0 x2 x3 x4 x5 x6 (r0_78.emb x) :=
    pred_piece x0 x2 x3 x4 x5 x6 4 4 36 rfl (by decide) _ _ _ rfl
  have h35 : ∀ x : S1x64x256.Idx, (k0_pay113 (k0_pay5 (View.ld x5 r0_3)) (k0_pay6 (View.ld x6 r0_4)) (k0_pay112 (k0_pay2 (View.ld x2 r0_0)) (k0_pay3 (View.ld x3 r0_1)) (k0_pay4 (View.ld x4 r0_2)) (View.ld x0 r0_75))) x = predBlk x0 x2 x3 x4 x5 x6 (r0_76.emb x) :=
    pred_piece x0 x2 x3 x4 x5 x6 4 3 35 rfl (by decide) _ _ _ rfl
  have h34 : ∀ x : S1x64x256.Idx, (k0_pay109 (k0_pay2 (View.ld x2 r0_0)) (k0_pay3 (View.ld x3 r0_1)) (k0_pay4 (View.ld x4 r0_2)) (k0_pay5 (View.ld x5 r0_3)) (k0_pay6 (View.ld x6 r0_4)) (k0_pay108 (View.ld x0 r0_73))) x = predBlk x0 x2 x3 x4 x5 x6 (r0_74.emb x) :=
    pred_piece x0 x2 x3 x4 x5 x6 4 2 34 rfl (by decide) _ _ _ rfl
  have h33 : ∀ x : S1x64x256.Idx, (k0_pay106 (k0_pay2 (View.ld x2 r0_0)) (k0_pay3 (View.ld x3 r0_1)) (k0_pay4 (View.ld x4 r0_2)) (k0_pay5 (View.ld x5 r0_3)) (k0_pay6 (View.ld x6 r0_4)) (View.ld x0 r0_71)) x = predBlk x0 x2 x3 x4 x5 x6 (r0_72.emb x) :=
    pred_piece x0 x2 x3 x4 x5 x6 4 1 33 rfl (by decide) _ _ _ rfl
  have h32 : ∀ x : S1x64x256.Idx, (k0_pay103 (k0_pay2 (View.ld x2 r0_0)) (k0_pay3 (View.ld x3 r0_1)) (k0_pay4 (View.ld x4 r0_2)) (k0_pay5 (View.ld x5 r0_3)) (k0_pay6 (View.ld x6 r0_4)) (View.ld x0 r0_69)) x = predBlk x0 x2 x3 x4 x5 x6 (r0_70.emb x) :=
    pred_piece x0 x2 x3 x4 x5 x6 4 0 32 rfl (by decide) _ _ _ rfl
  have h31 : ∀ x : S1x64x256.Idx, (k0_pay101 (k0_pay5 (View.ld x5 r0_3)) (k0_pay6 (View.ld x6 r0_4)) (k0_pay100 (k0_pay2 (View.ld x2 r0_0)) (k0_pay3 (View.ld x3 r0_1)) (k0_pay4 (View.ld x4 r0_2)) (View.ld x0 r0_67))) x = predBlk x0 x2 x3 x4 x5 x6 (r0_68.emb x) :=
    pred_piece x0 x2 x3 x4 x5 x6 3 7 31 rfl (by decide) _ _ _ rfl
  have h30 : ∀ x : S1x64x256.Idx, (k0_pay97 (k0_pay2 (View.ld x2 r0_0)) (k0_pay3 (View.ld x3 r0_1)) (k0_pay4 (View.ld x4 r0_2)) (k0_pay5 (View.ld x5 r0_3)) (k0_pay6 (View.ld x6 r0_4)) (k0_pay96 (View.ld x0 r0_65))) x = predBlk x0 x2 x3 x4 x5 x6 (r0_66.emb x) :=
    pred_piece x0 x2 x3 x4 x5 x6 3 6 30 rfl (by decide) _ _ _ rfl
  have h29 : ∀ x : S1x64x256.Idx, (k0_pay94 (k0_pay2 (View.ld x2 r0_0)) (k0_pay3 (View.ld x3 r0_1)) (k0_pay4 (View.ld x4 r0_2)) (k0_pay5 (View.ld x5 r0_3)) (k0_pay6 (View.ld x6 r0_4)) (View.ld x0 r0_63)) x = predBlk x0 x2 x3 x4 x5 x6 (r0_64.emb x) :=
    pred_piece x0 x2 x3 x4 x5 x6 3 5 29 rfl (by decide) _ _ _ rfl
  have h28 : ∀ x : S1x64x256.Idx, (k0_pay91 (k0_pay2 (View.ld x2 r0_0)) (k0_pay3 (View.ld x3 r0_1)) (k0_pay4 (View.ld x4 r0_2)) (k0_pay5 (View.ld x5 r0_3)) (k0_pay6 (View.ld x6 r0_4)) (View.ld x0 r0_61)) x = predBlk x0 x2 x3 x4 x5 x6 (r0_62.emb x) :=
    pred_piece x0 x2 x3 x4 x5 x6 3 4 28 rfl (by decide) _ _ _ rfl
  have h27 : ∀ x : S1x64x256.Idx, (k0_pay89 (k0_pay5 (View.ld x5 r0_3)) (k0_pay6 (View.ld x6 r0_4)) (k0_pay88 (k0_pay2 (View.ld x2 r0_0)) (k0_pay3 (View.ld x3 r0_1)) (k0_pay4 (View.ld x4 r0_2)) (View.ld x0 r0_59))) x = predBlk x0 x2 x3 x4 x5 x6 (r0_60.emb x) :=
    pred_piece x0 x2 x3 x4 x5 x6 3 3 27 rfl (by decide) _ _ _ rfl
  have h26 : ∀ x : S1x64x256.Idx, (k0_pay85 (k0_pay2 (View.ld x2 r0_0)) (k0_pay3 (View.ld x3 r0_1)) (k0_pay4 (View.ld x4 r0_2)) (k0_pay5 (View.ld x5 r0_3)) (k0_pay6 (View.ld x6 r0_4)) (k0_pay84 (View.ld x0 r0_57))) x = predBlk x0 x2 x3 x4 x5 x6 (r0_58.emb x) :=
    pred_piece x0 x2 x3 x4 x5 x6 3 2 26 rfl (by decide) _ _ _ rfl
  have h25 : ∀ x : S1x64x256.Idx, (k0_pay82 (k0_pay2 (View.ld x2 r0_0)) (k0_pay3 (View.ld x3 r0_1)) (k0_pay4 (View.ld x4 r0_2)) (k0_pay5 (View.ld x5 r0_3)) (k0_pay6 (View.ld x6 r0_4)) (View.ld x0 r0_55)) x = predBlk x0 x2 x3 x4 x5 x6 (r0_56.emb x) :=
    pred_piece x0 x2 x3 x4 x5 x6 3 1 25 rfl (by decide) _ _ _ rfl
  have h24 : ∀ x : S1x64x256.Idx, (k0_pay79 (k0_pay2 (View.ld x2 r0_0)) (k0_pay3 (View.ld x3 r0_1)) (k0_pay4 (View.ld x4 r0_2)) (k0_pay5 (View.ld x5 r0_3)) (k0_pay6 (View.ld x6 r0_4)) (View.ld x0 r0_53)) x = predBlk x0 x2 x3 x4 x5 x6 (r0_54.emb x) :=
    pred_piece x0 x2 x3 x4 x5 x6 3 0 24 rfl (by decide) _ _ _ rfl
  have h23 : ∀ x : S1x64x256.Idx, (k0_pay77 (k0_pay5 (View.ld x5 r0_3)) (k0_pay6 (View.ld x6 r0_4)) (k0_pay76 (k0_pay2 (View.ld x2 r0_0)) (k0_pay3 (View.ld x3 r0_1)) (k0_pay4 (View.ld x4 r0_2)) (View.ld x0 r0_51))) x = predBlk x0 x2 x3 x4 x5 x6 (r0_52.emb x) :=
    pred_piece x0 x2 x3 x4 x5 x6 2 7 23 rfl (by decide) _ _ _ rfl
  have h22 : ∀ x : S1x64x256.Idx, (k0_pay73 (k0_pay2 (View.ld x2 r0_0)) (k0_pay3 (View.ld x3 r0_1)) (k0_pay4 (View.ld x4 r0_2)) (k0_pay5 (View.ld x5 r0_3)) (k0_pay6 (View.ld x6 r0_4)) (k0_pay72 (View.ld x0 r0_49))) x = predBlk x0 x2 x3 x4 x5 x6 (r0_50.emb x) :=
    pred_piece x0 x2 x3 x4 x5 x6 2 6 22 rfl (by decide) _ _ _ rfl
  have h21 : ∀ x : S1x64x256.Idx, (k0_pay70 (k0_pay2 (View.ld x2 r0_0)) (k0_pay3 (View.ld x3 r0_1)) (k0_pay4 (View.ld x4 r0_2)) (k0_pay5 (View.ld x5 r0_3)) (k0_pay6 (View.ld x6 r0_4)) (View.ld x0 r0_47)) x = predBlk x0 x2 x3 x4 x5 x6 (r0_48.emb x) :=
    pred_piece x0 x2 x3 x4 x5 x6 2 5 21 rfl (by decide) _ _ _ rfl
  have h20 : ∀ x : S1x64x256.Idx, (k0_pay67 (k0_pay2 (View.ld x2 r0_0)) (k0_pay3 (View.ld x3 r0_1)) (k0_pay4 (View.ld x4 r0_2)) (k0_pay5 (View.ld x5 r0_3)) (k0_pay6 (View.ld x6 r0_4)) (View.ld x0 r0_45)) x = predBlk x0 x2 x3 x4 x5 x6 (r0_46.emb x) :=
    pred_piece x0 x2 x3 x4 x5 x6 2 4 20 rfl (by decide) _ _ _ rfl
  have h19 : ∀ x : S1x64x256.Idx, (k0_pay65 (k0_pay5 (View.ld x5 r0_3)) (k0_pay6 (View.ld x6 r0_4)) (k0_pay64 (k0_pay2 (View.ld x2 r0_0)) (k0_pay3 (View.ld x3 r0_1)) (k0_pay4 (View.ld x4 r0_2)) (View.ld x0 r0_43))) x = predBlk x0 x2 x3 x4 x5 x6 (r0_44.emb x) :=
    pred_piece x0 x2 x3 x4 x5 x6 2 3 19 rfl (by decide) _ _ _ rfl
  have h18 : ∀ x : S1x64x256.Idx, (k0_pay61 (k0_pay2 (View.ld x2 r0_0)) (k0_pay3 (View.ld x3 r0_1)) (k0_pay4 (View.ld x4 r0_2)) (k0_pay5 (View.ld x5 r0_3)) (k0_pay6 (View.ld x6 r0_4)) (k0_pay60 (View.ld x0 r0_41))) x = predBlk x0 x2 x3 x4 x5 x6 (r0_42.emb x) :=
    pred_piece x0 x2 x3 x4 x5 x6 2 2 18 rfl (by decide) _ _ _ rfl
  have h17 : ∀ x : S1x64x256.Idx, (k0_pay58 (k0_pay2 (View.ld x2 r0_0)) (k0_pay3 (View.ld x3 r0_1)) (k0_pay4 (View.ld x4 r0_2)) (k0_pay5 (View.ld x5 r0_3)) (k0_pay6 (View.ld x6 r0_4)) (View.ld x0 r0_39)) x = predBlk x0 x2 x3 x4 x5 x6 (r0_40.emb x) :=
    pred_piece x0 x2 x3 x4 x5 x6 2 1 17 rfl (by decide) _ _ _ rfl
  have h16 : ∀ x : S1x64x256.Idx, (k0_pay55 (k0_pay2 (View.ld x2 r0_0)) (k0_pay3 (View.ld x3 r0_1)) (k0_pay4 (View.ld x4 r0_2)) (k0_pay5 (View.ld x5 r0_3)) (k0_pay6 (View.ld x6 r0_4)) (View.ld x0 r0_37)) x = predBlk x0 x2 x3 x4 x5 x6 (r0_38.emb x) :=
    pred_piece x0 x2 x3 x4 x5 x6 2 0 16 rfl (by decide) _ _ _ rfl
  have h15 : ∀ x : S1x64x256.Idx, (k0_pay53 (k0_pay5 (View.ld x5 r0_3)) (k0_pay6 (View.ld x6 r0_4)) (k0_pay52 (k0_pay2 (View.ld x2 r0_0)) (k0_pay3 (View.ld x3 r0_1)) (k0_pay4 (View.ld x4 r0_2)) (View.ld x0 r0_35))) x = predBlk x0 x2 x3 x4 x5 x6 (r0_36.emb x) :=
    pred_piece x0 x2 x3 x4 x5 x6 1 7 15 rfl (by decide) _ _ _ rfl
  have h14 : ∀ x : S1x64x256.Idx, (k0_pay49 (k0_pay2 (View.ld x2 r0_0)) (k0_pay3 (View.ld x3 r0_1)) (k0_pay4 (View.ld x4 r0_2)) (k0_pay5 (View.ld x5 r0_3)) (k0_pay6 (View.ld x6 r0_4)) (k0_pay48 (View.ld x0 r0_33))) x = predBlk x0 x2 x3 x4 x5 x6 (r0_34.emb x) :=
    pred_piece x0 x2 x3 x4 x5 x6 1 6 14 rfl (by decide) _ _ _ rfl
  have h13 : ∀ x : S1x64x256.Idx, (k0_pay46 (k0_pay2 (View.ld x2 r0_0)) (k0_pay3 (View.ld x3 r0_1)) (k0_pay4 (View.ld x4 r0_2)) (k0_pay5 (View.ld x5 r0_3)) (k0_pay6 (View.ld x6 r0_4)) (View.ld x0 r0_31)) x = predBlk x0 x2 x3 x4 x5 x6 (r0_32.emb x) :=
    pred_piece x0 x2 x3 x4 x5 x6 1 5 13 rfl (by decide) _ _ _ rfl
  have h12 : ∀ x : S1x64x256.Idx, (k0_pay43 (k0_pay2 (View.ld x2 r0_0)) (k0_pay3 (View.ld x3 r0_1)) (k0_pay4 (View.ld x4 r0_2)) (k0_pay5 (View.ld x5 r0_3)) (k0_pay6 (View.ld x6 r0_4)) (View.ld x0 r0_29)) x = predBlk x0 x2 x3 x4 x5 x6 (r0_30.emb x) :=
    pred_piece x0 x2 x3 x4 x5 x6 1 4 12 rfl (by decide) _ _ _ rfl
  have h11 : ∀ x : S1x64x256.Idx, (k0_pay41 (k0_pay5 (View.ld x5 r0_3)) (k0_pay6 (View.ld x6 r0_4)) (k0_pay40 (k0_pay2 (View.ld x2 r0_0)) (k0_pay3 (View.ld x3 r0_1)) (k0_pay4 (View.ld x4 r0_2)) (View.ld x0 r0_27))) x = predBlk x0 x2 x3 x4 x5 x6 (r0_28.emb x) :=
    pred_piece x0 x2 x3 x4 x5 x6 1 3 11 rfl (by decide) _ _ _ rfl
  have h10 : ∀ x : S1x64x256.Idx, (k0_pay37 (k0_pay2 (View.ld x2 r0_0)) (k0_pay3 (View.ld x3 r0_1)) (k0_pay4 (View.ld x4 r0_2)) (k0_pay5 (View.ld x5 r0_3)) (k0_pay6 (View.ld x6 r0_4)) (k0_pay36 (View.ld x0 r0_25))) x = predBlk x0 x2 x3 x4 x5 x6 (r0_26.emb x) :=
    pred_piece x0 x2 x3 x4 x5 x6 1 2 10 rfl (by decide) _ _ _ rfl
  have h9 : ∀ x : S1x64x256.Idx, (k0_pay34 (k0_pay2 (View.ld x2 r0_0)) (k0_pay3 (View.ld x3 r0_1)) (k0_pay4 (View.ld x4 r0_2)) (k0_pay5 (View.ld x5 r0_3)) (k0_pay6 (View.ld x6 r0_4)) (View.ld x0 r0_23)) x = predBlk x0 x2 x3 x4 x5 x6 (r0_24.emb x) :=
    pred_piece x0 x2 x3 x4 x5 x6 1 1 9 rfl (by decide) _ _ _ rfl
  have h8 : ∀ x : S1x64x256.Idx, (k0_pay31 (k0_pay2 (View.ld x2 r0_0)) (k0_pay3 (View.ld x3 r0_1)) (k0_pay4 (View.ld x4 r0_2)) (k0_pay5 (View.ld x5 r0_3)) (k0_pay6 (View.ld x6 r0_4)) (View.ld x0 r0_21)) x = predBlk x0 x2 x3 x4 x5 x6 (r0_22.emb x) :=
    pred_piece x0 x2 x3 x4 x5 x6 1 0 8 rfl (by decide) _ _ _ rfl
  have h7 : ∀ x : S1x64x256.Idx, (k0_pay29 (k0_pay5 (View.ld x5 r0_3)) (k0_pay6 (View.ld x6 r0_4)) (k0_pay28 (k0_pay2 (View.ld x2 r0_0)) (k0_pay3 (View.ld x3 r0_1)) (k0_pay4 (View.ld x4 r0_2)) (View.ld x0 r0_19))) x = predBlk x0 x2 x3 x4 x5 x6 (r0_20.emb x) :=
    pred_piece x0 x2 x3 x4 x5 x6 0 7 7 rfl (by decide) _ _ _ rfl
  have h6 : ∀ x : S1x64x256.Idx, (k0_pay25 (k0_pay2 (View.ld x2 r0_0)) (k0_pay3 (View.ld x3 r0_1)) (k0_pay4 (View.ld x4 r0_2)) (k0_pay5 (View.ld x5 r0_3)) (k0_pay6 (View.ld x6 r0_4)) (k0_pay24 (View.ld x0 r0_17))) x = predBlk x0 x2 x3 x4 x5 x6 (r0_18.emb x) :=
    pred_piece x0 x2 x3 x4 x5 x6 0 6 6 rfl (by decide) _ _ _ rfl
  have h5 : ∀ x : S1x64x256.Idx, (k0_pay22 (k0_pay2 (View.ld x2 r0_0)) (k0_pay3 (View.ld x3 r0_1)) (k0_pay4 (View.ld x4 r0_2)) (k0_pay5 (View.ld x5 r0_3)) (k0_pay6 (View.ld x6 r0_4)) (View.ld x0 r0_15)) x = predBlk x0 x2 x3 x4 x5 x6 (r0_16.emb x) :=
    pred_piece x0 x2 x3 x4 x5 x6 0 5 5 rfl (by decide) _ _ _ rfl
  have h4 : ∀ x : S1x64x256.Idx, (k0_pay19 (k0_pay2 (View.ld x2 r0_0)) (k0_pay3 (View.ld x3 r0_1)) (k0_pay4 (View.ld x4 r0_2)) (k0_pay5 (View.ld x5 r0_3)) (k0_pay6 (View.ld x6 r0_4)) (View.ld x0 r0_13)) x = predBlk x0 x2 x3 x4 x5 x6 (r0_14.emb x) :=
    pred_piece x0 x2 x3 x4 x5 x6 0 4 4 rfl (by decide) _ _ _ rfl
  have h3 : ∀ x : S1x64x256.Idx, (k0_pay17 (k0_pay5 (View.ld x5 r0_3)) (k0_pay6 (View.ld x6 r0_4)) (k0_pay16 (k0_pay2 (View.ld x2 r0_0)) (k0_pay3 (View.ld x3 r0_1)) (k0_pay4 (View.ld x4 r0_2)) (View.ld x0 r0_11))) x = predBlk x0 x2 x3 x4 x5 x6 (r0_12.emb x) :=
    pred_piece x0 x2 x3 x4 x5 x6 0 3 3 rfl (by decide) _ _ _ rfl
  have h2 : ∀ x : S1x64x256.Idx, (k0_pay13 (k0_pay2 (View.ld x2 r0_0)) (k0_pay3 (View.ld x3 r0_1)) (k0_pay4 (View.ld x4 r0_2)) (k0_pay5 (View.ld x5 r0_3)) (k0_pay6 (View.ld x6 r0_4)) (k0_pay12 (View.ld x0 r0_9))) x = predBlk x0 x2 x3 x4 x5 x6 (r0_10.emb x) :=
    pred_piece x0 x2 x3 x4 x5 x6 0 2 2 rfl (by decide) _ _ _ rfl
  have h1 : ∀ x : S1x64x256.Idx, (k0_pay10 (k0_pay2 (View.ld x2 r0_0)) (k0_pay3 (View.ld x3 r0_1)) (k0_pay4 (View.ld x4 r0_2)) (k0_pay5 (View.ld x5 r0_3)) (k0_pay6 (View.ld x6 r0_4)) (View.ld x0 r0_7)) x = predBlk x0 x2 x3 x4 x5 x6 (r0_8.emb x) :=
    pred_piece x0 x2 x3 x4 x5 x6 0 1 1 rfl (by decide) _ _ _ rfl
  have h0 : ∀ x : S1x64x256.Idx, (k0_pay7 (View.ld x2 r0_0) (View.ld x3 r0_1) (View.ld x4 r0_2) (View.ld x5 r0_3) (View.ld x6 r0_4) (View.ld x0 r0_5)) x = predBlk x0 x2 x3 x4 x5 x6 (r0_6.emb x) :=
    pred_piece x0 x2 x3 x4 x5 x6 0 0 0 rfl (by decide) _ _ _ rfl
  refine View.canon_apply_of_pieces (predBlk x0 x2 x3 x4 x5 x6) _ ?_ y (cover0_7 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  exact pieces_cons h63 (pieces_cons h62 (pieces_cons h61 (pieces_cons h60 (pieces_cons h59 (pieces_cons h58 (pieces_cons h57 (pieces_cons h56 (pieces_cons h55 (pieces_cons h54 (pieces_cons h53 (pieces_cons h52 (pieces_cons h51 (pieces_cons h50 (pieces_cons h49 (pieces_cons h48 (pieces_cons h47 (pieces_cons h46 (pieces_cons h45 (pieces_cons h44 (pieces_cons h43 (pieces_cons h42 (pieces_cons h41 (pieces_cons h40 (pieces_cons h39 (pieces_cons h38 (pieces_cons h37 (pieces_cons h36 (pieces_cons h35 (pieces_cons h34 (pieces_cons h33 (pieces_cons h32 (pieces_cons h31 (pieces_cons h30 (pieces_cons h29 (pieces_cons h28 (pieces_cons h27 (pieces_cons h26 (pieces_cons h25 (pieces_cons h24 (pieces_cons h23 (pieces_cons h22 (pieces_cons h21 (pieces_cons h20 (pieces_cons h19 (pieces_cons h18 (pieces_cons h17 (pieces_cons h16 (pieces_cons h15 (pieces_cons h14 (pieces_cons h13 (pieces_cons h12 (pieces_cons h11 (pieces_cons h10 (pieces_cons h9 (pieces_cons h8 (pieces_cons h7 (pieces_cons h6 (pieces_cons h5 (pieces_cons h4 (pieces_cons h3 (pieces_cons h2 (pieces_cons h1 (pieces_cons h0 (pieces_nil))))))))))))))))))))))))))))))))))))))))))))))))))))))))))))))))

/-- What the body leaves in the positive window's buffer is `posBlk` of the positive block. -/
theorem out_pos (x0 : Vec Ideal S64x256x8x8 .f32) (x1 : Vec Ideal S64x256x8x8 .f32) (x2 : Vec Ideal S256x512 .bf16) (x3 : Vec Ideal S1x512 .f32) (x4 : Vec Ideal S512x256 .bf16) (x5 : Vec Ideal S1x256 .f32) (x6 : Vec Ideal S256x256 .bf16) :
    out0_8 x0 x1 x2 x3 x4 x5 x6 = posBlk x1 := by
  funext y
  unfold out0_8
  have h63 : ∀ x : S1x64x256.Idx, (k0_pay1 (k0_pay195 (View.ld x1 r0_131))) x = posBlk x1 (r0_132.emb x) :=
    pos_piece x1 7 7 63 rfl (by decide) _ _ _ rfl
  have h62 : ∀ x : S1x64x256.Idx, (k0_pay194 (View.ld x1 r0_129)) x = posBlk x1 (r0_130.emb x) :=
    pos_piece x1 7 6 62 rfl (by decide) _ _ _ rfl
  have h61 : ∀ x : S1x64x256.Idx, (k0_pay191 (View.ld x1 r0_127)) x = posBlk x1 (r0_128.emb x) :=
    pos_piece x1 7 5 61 rfl (by decide) _ _ _ rfl
  have h60 : ∀ x : S1x64x256.Idx, (k0_pay189 (k0_pay188 (View.ld x1 r0_125))) x = posBlk x1 (r0_126.emb x) :=
    pos_piece x1 7 4 60 rfl (by decide) _ _ _ rfl
  have h59 : ∀ x : S1x64x256.Idx, (k0_pay186 (k0_pay183 (View.ld x1 r0_123))) x = posBlk x1 (r0_124.emb x) :=
    pos_piece x1 7 3 59 rfl (by decide) _ _ _ rfl
  have h58 : ∀ x : S1x64x256.Idx, (k0_pay182 (View.ld x1 r0_121)) x = posBlk x1 (r0_122.emb x) :=
    pos_piece x1 7 2 58 rfl (by decide) _ _ _ rfl
  have h57 : ∀ x : S1x64x256.Idx, (k0_pay179 (View.ld x1 r0_119)) x = posBlk x1 (r0_120.emb x) :=
    pos_piece x1 7 1 57 rfl (by decide) _ _ _ rfl
  have h56 : ∀ x : S1x64x256.Idx, (k0_pay177 (k0_pay176 (View.ld x1 r0_117))) x = posBlk x1 (r0_118.emb x) :=
    pos_piece x1 7 0 56 rfl (by decide) _ _ _ rfl
  have h55 : ∀ x : S1x64x256.Idx, (k0_pay174 (k0_pay171 (View.ld x1 r0_115))) x = posBlk x1 (r0_116.emb x) :=
    pos_piece x1 6 7 55 rfl (by decide) _ _ _ rfl
  have h54 : ∀ x : S1x64x256.Idx, (k0_pay170 (View.ld x1 r0_113)) x = posBlk x1 (r0_114.emb x) :=
    pos_piece x1 6 6 54 rfl (by decide) _ _ _ rfl
  have h53 : ∀ x : S1x64x256.Idx, (k0_pay167 (View.ld x1 r0_111)) x = posBlk x1 (r0_112.emb x) :=
    pos_piece x1 6 5 53 rfl (by decide) _ _ _ rfl
  have h52 : ∀ x : S1x64x256.Idx, (k0_pay165 (k0_pay164 (View.ld x1 r0_109))) x = posBlk x1 (r0_110.emb x) :=
    pos_piece x1 6 4 52 rfl (by decide) _ _ _ rfl
  have h51 : ∀ x : S1x64x256.Idx, (k0_pay162 (k0_pay159 (View.ld x1 r0_107))) x = posBlk x1 (r0_108.emb x) :=
    pos_piece x1 6 3 51 rfl (by decide) _ _ _ rfl
  have h50 : ∀ x : S1x64x256.Idx, (k0_pay158 (View.ld x1 r0_105)) x = posBlk x1 (r0_106.emb x) :=
    pos_piece x1 6 2 50 rfl (by decide) _ _ _ rfl
  have h49 : ∀ x : S1x64x256.Idx, (k0_pay155 (View.ld x1 r0_103)) x = posBlk x1 (r0_104.emb x) :=
    pos_piece x1 6 1 49 rfl (by decide) _ _ _ rfl
  have h48 : ∀ x : S1x64x256.Idx, (k0_pay153 (k0_pay152 (View.ld x1 r0_101))) x = posBlk x1 (r0_102.emb x) :=
    pos_piece x1 6 0 48 rfl (by decide) _ _ _ rfl
  have h47 : ∀ x : S1x64x256.Idx, (k0_pay150 (k0_pay147 (View.ld x1 r0_99))) x = posBlk x1 (r0_100.emb x) :=
    pos_piece x1 5 7 47 rfl (by decide) _ _ _ rfl
  have h46 : ∀ x : S1x64x256.Idx, (k0_pay146 (View.ld x1 r0_97)) x = posBlk x1 (r0_98.emb x) :=
    pos_piece x1 5 6 46 rfl (by decide) _ _ _ rfl
  have h45 : ∀ x : S1x64x256.Idx, (k0_pay143 (View.ld x1 r0_95)) x = posBlk x1 (r0_96.emb x) :=
    pos_piece x1 5 5 45 rfl (by decide) _ _ _ rfl
  have h44 : ∀ x : S1x64x256.Idx, (k0_pay141 (k0_pay140 (View.ld x1 r0_93))) x = posBlk x1 (r0_94.emb x) :=
    pos_piece x1 5 4 44 rfl (by decide) _ _ _ rfl
  have h43 : ∀ x : S1x64x256.Idx, (k0_pay138 (k0_pay135 (View.ld x1 r0_91))) x = posBlk x1 (r0_92.emb x) :=
    pos_piece x1 5 3 43 rfl (by decide) _ _ _ rfl
  have h42 : ∀ x : S1x64x256.Idx, (k0_pay134 (View.ld x1 r0_89)) x = posBlk x1 (r0_90.emb x) :=
    pos_piece x1 5 2 42 rfl (by decide) _ _ _ rfl
  have h41 : ∀ x : S1x64x256.Idx, (k0_pay131 (View.ld x1 r0_87)) x = posBlk x1 (r0_88.emb x) :=
    pos_piece x1 5 1 41 rfl (by decide) _ _ _ rfl
  have h40 : ∀ x : S1x64x256.Idx, (k0_pay129 (k0_pay128 (View.ld x1 r0_85))) x = posBlk x1 (r0_86.emb x) :=
    pos_piece x1 5 0 40 rfl (by decide) _ _ _ rfl
  have h39 : ∀ x : S1x64x256.Idx, (k0_pay126 (k0_pay123 (View.ld x1 r0_83))) x = posBlk x1 (r0_84.emb x) :=
    pos_piece x1 4 7 39 rfl (by decide) _ _ _ rfl
  have h38 : ∀ x : S1x64x256.Idx, (k0_pay122 (View.ld x1 r0_81)) x = posBlk x1 (r0_82.emb x) :=
    pos_piece x1 4 6 38 rfl (by decide) _ _ _ rfl
  have h37 : ∀ x : S1x64x256.Idx, (k0_pay119 (View.ld x1 r0_79)) x = posBlk x1 (r0_80.emb x) :=
    pos_piece x1 4 5 37 rfl (by decide) _ _ _ rfl
  have h36 : ∀ x : S1x64x256.Idx, (k0_pay117 (k0_pay116 (View.ld x1 r0_77))) x = posBlk x1 (r0_78.emb x) :=
    pos_piece x1 4 4 36 rfl (by decide) _ _ _ rfl
  have h35 : ∀ x : S1x64x256.Idx, (k0_pay114 (k0_pay111 (View.ld x1 r0_75))) x = posBlk x1 (r0_76.emb x) :=
    pos_piece x1 4 3 35 rfl (by decide) _ _ _ rfl
  have h34 : ∀ x : S1x64x256.Idx, (k0_pay110 (View.ld x1 r0_73)) x = posBlk x1 (r0_74.emb x) :=
    pos_piece x1 4 2 34 rfl (by decide) _ _ _ rfl
  have h33 : ∀ x : S1x64x256.Idx, (k0_pay107 (View.ld x1 r0_71)) x = posBlk x1 (r0_72.emb x) :=
    pos_piece x1 4 1 33 rfl (by decide) _ _ _ rfl
  have h32 : ∀ x : S1x64x256.Idx, (k0_pay105 (k0_pay104 (View.ld x1 r0_69))) x = posBlk x1 (r0_70.emb x) :=
    pos_piece x1 4 0 32 rfl (by decide) _ _ _ rfl
  have h31 : ∀ x : S1x64x256.Idx, (k0_pay102 (k0_pay99 (View.ld x1 r0_67))) x = posBlk x1 (r0_68.emb x) :=
    pos_piece x1 3 7 31 rfl (by decide) _ _ _ rfl
  have h30 : ∀ x : S1x64x256.Idx, (k0_pay98 (View.ld x1 r0_65)) x = posBlk x1 (r0_66.emb x) :=
    pos_piece x1 3 6 30 rfl (by decide) _ _ _ rfl
  have h29 : ∀ x : S1x64x256.Idx, (k0_pay95 (View.ld x1 r0_63)) x = posBlk x1 (r0_64.emb x) :=
    pos_piece x1 3 5 29 rfl (by decide) _ _ _ rfl
  have h28 : ∀ x : S1x64x256.Idx, (k0_pay93 (k0_pay92 (View.ld x1 r0_61))) x = posBlk x1 (r0_62.emb x) :=
    pos_piece x1 3 4 28 rfl (by decide) _ _ _ rfl
  have h27 : ∀ x : S1x64x256.Idx, (k0_pay90 (k0_pay87 (View.ld x1 r0_59))) x = posBlk x1 (r0_60.emb x) :=
    pos_piece x1 3 3 27 rfl (by decide) _ _ _ rfl
  have h26 : ∀ x : S1x64x256.Idx, (k0_pay86 (View.ld x1 r0_57)) x = posBlk x1 (r0_58.emb x) :=
    pos_piece x1 3 2 26 rfl (by decide) _ _ _ rfl
  have h25 : ∀ x : S1x64x256.Idx, (k0_pay83 (View.ld x1 r0_55)) x = posBlk x1 (r0_56.emb x) :=
    pos_piece x1 3 1 25 rfl (by decide) _ _ _ rfl
  have h24 : ∀ x : S1x64x256.Idx, (k0_pay81 (k0_pay80 (View.ld x1 r0_53))) x = posBlk x1 (r0_54.emb x) :=
    pos_piece x1 3 0 24 rfl (by decide) _ _ _ rfl
  have h23 : ∀ x : S1x64x256.Idx, (k0_pay78 (k0_pay75 (View.ld x1 r0_51))) x = posBlk x1 (r0_52.emb x) :=
    pos_piece x1 2 7 23 rfl (by decide) _ _ _ rfl
  have h22 : ∀ x : S1x64x256.Idx, (k0_pay74 (View.ld x1 r0_49)) x = posBlk x1 (r0_50.emb x) :=
    pos_piece x1 2 6 22 rfl (by decide) _ _ _ rfl
  have h21 : ∀ x : S1x64x256.Idx, (k0_pay71 (View.ld x1 r0_47)) x = posBlk x1 (r0_48.emb x) :=
    pos_piece x1 2 5 21 rfl (by decide) _ _ _ rfl
  have h20 : ∀ x : S1x64x256.Idx, (k0_pay69 (k0_pay68 (View.ld x1 r0_45))) x = posBlk x1 (r0_46.emb x) :=
    pos_piece x1 2 4 20 rfl (by decide) _ _ _ rfl
  have h19 : ∀ x : S1x64x256.Idx, (k0_pay66 (k0_pay63 (View.ld x1 r0_43))) x = posBlk x1 (r0_44.emb x) :=
    pos_piece x1 2 3 19 rfl (by decide) _ _ _ rfl
  have h18 : ∀ x : S1x64x256.Idx, (k0_pay62 (View.ld x1 r0_41)) x = posBlk x1 (r0_42.emb x) :=
    pos_piece x1 2 2 18 rfl (by decide) _ _ _ rfl
  have h17 : ∀ x : S1x64x256.Idx, (k0_pay59 (View.ld x1 r0_39)) x = posBlk x1 (r0_40.emb x) :=
    pos_piece x1 2 1 17 rfl (by decide) _ _ _ rfl
  have h16 : ∀ x : S1x64x256.Idx, (k0_pay57 (k0_pay56 (View.ld x1 r0_37))) x = posBlk x1 (r0_38.emb x) :=
    pos_piece x1 2 0 16 rfl (by decide) _ _ _ rfl
  have h15 : ∀ x : S1x64x256.Idx, (k0_pay54 (k0_pay51 (View.ld x1 r0_35))) x = posBlk x1 (r0_36.emb x) :=
    pos_piece x1 1 7 15 rfl (by decide) _ _ _ rfl
  have h14 : ∀ x : S1x64x256.Idx, (k0_pay50 (View.ld x1 r0_33)) x = posBlk x1 (r0_34.emb x) :=
    pos_piece x1 1 6 14 rfl (by decide) _ _ _ rfl
  have h13 : ∀ x : S1x64x256.Idx, (k0_pay47 (View.ld x1 r0_31)) x = posBlk x1 (r0_32.emb x) :=
    pos_piece x1 1 5 13 rfl (by decide) _ _ _ rfl
  have h12 : ∀ x : S1x64x256.Idx, (k0_pay45 (k0_pay44 (View.ld x1 r0_29))) x = posBlk x1 (r0_30.emb x) :=
    pos_piece x1 1 4 12 rfl (by decide) _ _ _ rfl
  have h11 : ∀ x : S1x64x256.Idx, (k0_pay42 (k0_pay39 (View.ld x1 r0_27))) x = posBlk x1 (r0_28.emb x) :=
    pos_piece x1 1 3 11 rfl (by decide) _ _ _ rfl
  have h10 : ∀ x : S1x64x256.Idx, (k0_pay38 (View.ld x1 r0_25)) x = posBlk x1 (r0_26.emb x) :=
    pos_piece x1 1 2 10 rfl (by decide) _ _ _ rfl
  have h9 : ∀ x : S1x64x256.Idx, (k0_pay35 (View.ld x1 r0_23)) x = posBlk x1 (r0_24.emb x) :=
    pos_piece x1 1 1 9 rfl (by decide) _ _ _ rfl
  have h8 : ∀ x : S1x64x256.Idx, (k0_pay33 (k0_pay32 (View.ld x1 r0_21))) x = posBlk x1 (r0_22.emb x) :=
    pos_piece x1 1 0 8 rfl (by decide) _ _ _ rfl
  have h7 : ∀ x : S1x64x256.Idx, (k0_pay30 (k0_pay27 (View.ld x1 r0_19))) x = posBlk x1 (r0_20.emb x) :=
    pos_piece x1 0 7 7 rfl (by decide) _ _ _ rfl
  have h6 : ∀ x : S1x64x256.Idx, (k0_pay26 (View.ld x1 r0_17)) x = posBlk x1 (r0_18.emb x) :=
    pos_piece x1 0 6 6 rfl (by decide) _ _ _ rfl
  have h5 : ∀ x : S1x64x256.Idx, (k0_pay23 (View.ld x1 r0_15)) x = posBlk x1 (r0_16.emb x) :=
    pos_piece x1 0 5 5 rfl (by decide) _ _ _ rfl
  have h4 : ∀ x : S1x64x256.Idx, (k0_pay21 (k0_pay20 (View.ld x1 r0_13))) x = posBlk x1 (r0_14.emb x) :=
    pos_piece x1 0 4 4 rfl (by decide) _ _ _ rfl
  have h3 : ∀ x : S1x64x256.Idx, (k0_pay18 (k0_pay15 (View.ld x1 r0_11))) x = posBlk x1 (r0_12.emb x) :=
    pos_piece x1 0 3 3 rfl (by decide) _ _ _ rfl
  have h2 : ∀ x : S1x64x256.Idx, (k0_pay14 (View.ld x1 r0_9)) x = posBlk x1 (r0_10.emb x) :=
    pos_piece x1 0 2 2 rfl (by decide) _ _ _ rfl
  have h1 : ∀ x : S1x64x256.Idx, (k0_pay11 (View.ld x1 r0_7)) x = posBlk x1 (r0_8.emb x) :=
    pos_piece x1 0 1 1 rfl (by decide) _ _ _ rfl
  have h0 : ∀ x : S1x64x256.Idx, (k0_pay9 (k0_pay8 (View.ld x1 r0_5))) x = posBlk x1 (r0_6.emb x) :=
    pos_piece x1 0 0 0 rfl (by decide) _ _ _ rfl
  refine View.canon_apply_of_pieces (posBlk x1) _ ?_ y (cover0_8 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  exact pieces_cons h63 (pieces_cons h62 (pieces_cons h61 (pieces_cons h60 (pieces_cons h59 (pieces_cons h58 (pieces_cons h57 (pieces_cons h56 (pieces_cons h55 (pieces_cons h54 (pieces_cons h53 (pieces_cons h52 (pieces_cons h51 (pieces_cons h50 (pieces_cons h49 (pieces_cons h48 (pieces_cons h47 (pieces_cons h46 (pieces_cons h45 (pieces_cons h44 (pieces_cons h43 (pieces_cons h42 (pieces_cons h41 (pieces_cons h40 (pieces_cons h39 (pieces_cons h38 (pieces_cons h37 (pieces_cons h36 (pieces_cons h35 (pieces_cons h34 (pieces_cons h33 (pieces_cons h32 (pieces_cons h31 (pieces_cons h30 (pieces_cons h29 (pieces_cons h28 (pieces_cons h27 (pieces_cons h26 (pieces_cons h25 (pieces_cons h24 (pieces_cons h23 (pieces_cons h22 (pieces_cons h21 (pieces_cons h20 (pieces_cons h19 (pieces_cons h18 (pieces_cons h17 (pieces_cons h16 (pieces_cons h15 (pieces_cons h14 (pieces_cons h13 (pieces_cons h12 (pieces_cons h11 (pieces_cons h10 (pieces_cons h9 (pieces_cons h8 (pieces_cons h7 (pieces_cons h6 (pieces_cons h5 (pieces_cons h4 (pieces_cons h3 (pieces_cons h2 (pieces_cons h1 (pieces_cons h0 (pieces_nil))))))))))))))))))))))))))))))))))))))))))))))))))))))))))))))))

end Cert.KernelIdeal.Pass1

end
-- ==== Proof.Pass1Array.lean ====
/-
  From the first kernel's blocks to its two output arrays.

  Grid point t (of 16) works on batch rows 64·t … 64·t + 63: it is given block t of the anchor and of the positive
  array along the batch axis and every weight array whole, and it writes back rows 64·t … 64·t + 63 of all 64 pixel
  slabs of each [64, 1024, 256] output. What it writes back is `predBlk` / `posBlk` of its input blocks, which is
  the restriction to those rows of ONE function of the arrays the region finds: the specification's `predArr` of
  the anchor and the transposed weights, resp. `posArr` of the positive array. The sixteen row ranges cover the
  batch axis, so after the region each output array is that function.
-/
import proofs.«104337_j62981400428716_2_alg».proof.Proof.Pass1Out

set_option maxRecDepth 16384

noncomputable section

namespace Cert.KernelIdeal.Pass1

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

/-- The printed index maps over the grid: the two big inputs and the two outputs move with the point along the batch
    axis only, the weights stay at block 0. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = 0 ∧ win0_7.index t (1 : Fin 3) = t.val ∧ win0_7.index t (2 : Fin 3) = 0)
    ∧ (win0_8.index t (0 : Fin 3) = 0 ∧ win0_8.index t (1 : Fin 3) = t.val ∧ win0_8.index t (2 : Fin 3) = 0) :=
  (by decide +kernel : ∀ t : Fin grid0.N, _)

/-! ## The weight windows hold their arrays whole -/

theorem blk_w1 (c : Dev nD) (t : Fin cfg0.N) : (iblk0 V c 2 t : S256x512.Idx → EReal) = (V c main_v1 : S256x512.Idx → EReal) := by
  funext y
  show (V c main_v1 : S256x512.Idx → EReal) (((cfg0.win 2).blk t).view.emb y) = (V c main_v1 : S256x512.Idx → EReal) y
  obtain ⟨-, -, ⟨e0, e1⟩, -⟩ := idx_facts t
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 512 + 1 * (y 1).val = (y 1).val; omega

theorem blk_b1 (c : Dev nD) (t : Fin cfg0.N) : (iblk0 V c 3 t : S1x512.Idx → EReal) = (V c main_v6 : S1x512.Idx → EReal) := by
  funext y
  show (V c main_v6 : S1x512.Idx → EReal) (((cfg0.win 3).blk t).view.emb y) = (V c main_v6 : S1x512.Idx → EReal) y
  obtain ⟨-, -, -, ⟨e0, e1⟩, -⟩ := idx_facts t
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 512 + 1 * (y 1).val = (y 1).val; omega

theorem blk_w2 (c : Dev nD) (t : Fin cfg0.N) : (iblk0 V c 4 t : S512x256.Idx → EReal) = (V c main_v3 : S512x256.Idx → EReal) := by
  funext y
  show (V c main_v3 : S512x256.Idx → EReal) (((cfg0.win 4).blk t).view.emb y) = (V c main_v3 : S512x256.Idx → EReal) y
  obtain ⟨-, -, -, -, ⟨e0, e1⟩, -⟩ := idx_facts t
  refine congrArg _ (funext fun a => Fin.ext ?_)
  match a with
  | ⟨0, _⟩ => show win0_4.index t (0 : Fin 2) * 512 + 1 * (y 0).val = (y 0).val; omega
  | ⟨1, _⟩ => show win0_4.index t (1 : Fin 2) * 256 + 1 * (y 1).val = (y 1).val; omega

theorem blk_b2 (c : Dev nD) (t : Fin cfg0.N) : (iblk0 V c 5 t : S1x256.Idx → EReal) = (V c main_v7 : S1x256.Idx → EReal) := by
  funext y
  show (V c main_v7 : S1x256.Idx → EReal) (((cfg0.win 5).blk t).view.emb y) = (V c main_v7 : S1x256.Idx → EReal) y
  obtain ⟨-, -, -, -, -, ⟨e0, e1⟩, -⟩ := idx_facts t
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

theorem blk_ww (c : Dev nD) (t : Fin cfg0.N) : (iblk0 V c 6 t : S256x256.Idx → EReal) = (V c main_v5 : S256x256.Idx → EReal) := by
  funext y
  show (V c main_v5 : S256x256.Idx → EReal) (((cfg0.win 6).blk t).view.emb y) = (V c main_v5 : S256x256.Idx → EReal) y
  obtain ⟨-, -, -, -, -, -, ⟨e0, e1⟩, -⟩ := idx_facts t
  refine congrArg _ (funext fun a => Fin.ext ?_)
  match a with
  | ⟨0, _⟩ => show win0_6.index t (0 : Fin 2) * 256 + 1 * (y 0).val = (y 0).val; omega
  | ⟨1, _⟩ => show win0_6.index t (1 : Fin 2) * 256 + 1 * (y 1).val = (y 1).val; omega

/-! ## The two big inputs: block t is batch rows 64·t … -/

theorem blk_anchor (c : Dev nD) (t : Fin cfg0.N) (y : S64x256x8x8.Idx) (i : S1024x256x8x8.Idx)
    (h0 : (i 0).val = t.val * 64 + (y 0).val) (h1 : (i 1).val = (y 1).val) (h2 : (i 2).val = (y 2).val) (h3 : (i 3).val = (y 3).val) :
    (iblk0 V c 0 t : S64x256x8x8.Idx → EReal) y = (V c main_arg0 : S1024x256x8x8.Idx → EReal) i := by
  show (V c main_arg0 : S1024x256x8x8.Idx → EReal) (((cfg0.win 0).blk t).view.emb y) = (V c main_arg0 : S1024x256x8x8.Idx → EReal) i
  obtain ⟨⟨e0, e1, e2, e3⟩, -⟩ := idx_facts t
  refine congrArg _ (funext fun a => Fin.ext ?_)
  match a with
  | ⟨0, _⟩ => show win0_0.index t (0 : Fin 4) * 64 + 1 * (y 0).val = (i 0).val; omega
  | ⟨1, _⟩ => show win0_0.index t (1 : Fin 4) * 256 + 1 * (y 1).val = (i 1).val; omega
  | ⟨2, _⟩ => show win0_0.index t (2 : Fin 4) * 8 + 1 * (y 2).val = (i 2).val; omega
  | ⟨3, _⟩ => show win0_0.index t (3 : Fin 4) * 8 + 1 * (y 3).val = (i 3).val; omega

theorem blk_positive (c : Dev nD) (t : Fin cfg0.N) (y : S64x256x8x8.Idx) (i : S1024x256x8x8.Idx)
    (h0 : (i 0).val = t.val * 64 + (y 0).val) (h1 : (i 1).val = (y 1).val) (h2 : (i 2).val = (y 2).val) (h3 : (i 3).val = (y 3).val) :
    (iblk0 V c 1 t : S64x256x8x8.Idx → EReal) y = (V c main_arg1 : S1024x256x8x8.Idx → EReal) i := by
  show (V c main_arg1 : S1024x256x8x8.Idx → EReal) (((cfg0.win 1).blk t).view.emb y) = (V c main_arg1 : S1024x256x8x8.Idx → EReal) i
  obtain ⟨-, ⟨e0, e1, e2, e3⟩, -⟩ := idx_facts t
  refine congrArg _ (funext fun a => Fin.ext ?_)
  match a with
  | ⟨0, _⟩ => show win0_1.index t (0 : Fin 4) * 64 + 1 * (y 0).val = (i 0).val; omega
  | ⟨1, _⟩ => show win0_1.index t (1 : Fin 4) * 256 + 1 * (y 1).val = (i 1).val; omega
  | ⟨2, _⟩ => show win0_1.index t (2 : Fin 4) * 8 + 1 * (y 2).val = (i 2).val; omega
  | ⟨3, _⟩ => show win0_1.index t (3 : Fin 4) * 8 + 1 * (y 3).val = (i 3).val; omega

/-! ## A block of the output is the restriction of the whole-array function -/

/-- `predBlk` of blocks agrees with `predArr` of arrays at indices with the same pixel and channel whose batch rows
    hold the same anchor values. -/
theorem predBlk_eq_predArr (x0 : Vec Ideal S64x256x8x8 .f32) (X : S1024x256x8x8.Idx → EReal)
    (W1t : Vec Ideal S256x512 .bf16) (b1r : Vec Ideal S1x512 .f32) (W2t : Vec Ideal S512x256 .bf16)
    (b2r : Vec Ideal S1x256 .f32) (Wwt : Vec Ideal S256x256 .bf16) (j : S64x64x256.Idx) (i : S64x1024x256.Idx)
    (h0 : (i 0).val = (j 0).val) (h2 : (i 2).val = (j 2).val)
    (hx : ∀ (cc : Fin 256) (hi wi : Fin 8), x0 (ix4 (⟨(j 1).val, (j 1).isLt⟩ : Fin 64) cc hi wi)
      = X (ix4 (⟨(i 1).val, (i 1).isLt⟩ : Fin 1024) cc hi wi)) :
    predBlk x0 W1t b1r W2t b2r Wwt j = Spec.predArr X W1t b1r W2t b2r Wwt i := by
  unfold predBlk Spec.predArr Spec.pixRow
  have hd : (⟨(j 2).val, (j 2).isLt⟩ : Fin 256) = ⟨(i 2).val, (i 2).isLt⟩ := Fin.ext h2.symm
  have hrow : ∀ (pj : (j 0).val / 8 < 8) (qj : (j 0).val % 8 < 8) (pi : (i 0).val / 8 < 8) (qi : (i 0).val % 8 < 8),
      (fun cc : Fin 256 => x0 (ix4 (⟨(j 1).val, (j 1).isLt⟩ : Fin 64) cc (⟨(j 0).val / 8, pj⟩ : Fin 8) (⟨(j 0).val % 8, qj⟩ : Fin 8)))
      = fun cc : Fin 256 => X (ix4 (⟨(i 1).val, (i 1).isLt⟩ : Fin 1024) cc (⟨(i 0).val / 8, pi⟩ : Fin 8) (⟨(i 0).val % 8, qi⟩ : Fin 8)) := by
    intro pj qj pi qi
    funext cc
    rw [hx]
    have e1 : (⟨(j 0).val / 8, pj⟩ : Fin 8) = ⟨(i 0).val / 8, pi⟩ := Fin.ext (by show (j 0).val / 8 = (i 0).val / 8; rw [h0])
    have e2 : (⟨(j 0).val % 8, qj⟩ : Fin 8) = ⟨(i 0).val % 8, qi⟩ := Fin.ext (by show (j 0).val % 8 = (i 0).val % 8; rw [h0])
    rw [e1, e2]
  rw [hrow, hd]

/-- The same for the re-laid positive block. -/
theorem posBlk_eq_posArr (x1 : Vec Ideal S64x256x8x8 .f32) (X : S1024x256x8x8.Idx → EReal) (j : S64x64x256.Idx) (i : S64x1024x256.Idx)
    (h0 : (i 0).val = (j 0).val) (h2 : (i 2).val = (j 2).val)
    (hx : ∀ (cc : Fin 256) (hi wi : Fin 8), x1 (ix4 (⟨(j 1).val, (j 1).isLt⟩ : Fin 64) cc hi wi)
      = X (ix4 (⟨(i 1).val, (i 1).isLt⟩ : Fin 1024) cc hi wi)) :
    posBlk x1 j = Spec.posArr X i := by
  unfold posBlk Spec.posArr Spec.pixRow
  rw [hx]
  refine congrArg X ?_
  have hd : (⟨(j 2).val, (j 2).isLt⟩ : Fin 256) = ⟨(i 2).val, (i 2).isLt⟩ := Fin.ext h2.symm
  rw [hd]
  refine funext fun a => Fin.ext ?_
  match a with
  | ⟨0, _⟩ => rfl
  | ⟨1, _⟩ => rfl
  | ⟨2, _⟩ => show (j 0).val / 8 = (i 0).val / 8; rw [h0]
  | ⟨3, _⟩ => show (j 0).val % 8 = (i 0).val % 8; rw [h0]

/-! ## What point t writes back -/

theorem flushed_pred (c : Dev nD) (t : Fin cfg0.N) :
    (dat0 V c).flushed 7 t = ((cfg0.win 7).blk t).view.read (Elt Ideal)
      (Spec.predArr (V c main_arg0) (V c main_v1) (V c main_v6) (V c main_v3) (V c main_v7) (V c main_v5)) := by
  show (cfg0.win 7).cut (grid0.coords t) ((dat0 V c).after 7 t) = _
  rw [after0_7, out_pred]
  funext j
  show predBlk (iblk0 V c 0 t) (iblk0 V c 2 t) (iblk0 V c 3 t) (iblk0 V c 4 t) (iblk0 V c 5 t) (iblk0 V c 6 t) j
    = Spec.predArr (V c main_arg0) (V c main_v1) (V c main_v6) (V c main_v3) (V c main_v7) (V c main_v5) (((cfg0.win 7).blk t).view.emb j)
  obtain ⟨-, -, -, -, -, -, -, ⟨e0, e1, e2⟩, -⟩ := idx_facts t
  have q0 : ((((cfg0.win 7).blk t).view.emb j) 0).val = win0_7.index t (0 : Fin 3) * 64 + 1 * (j 0).val := rfl
  have q1 : ((((cfg0.win 7).blk t).view.emb j) 1).val = win0_7.index t (1 : Fin 3) * 64 + 1 * (j 1).val := rfl
  have q2 : ((((cfg0.win 7).blk t).view.emb j) 2).val = win0_7.index t (2 : Fin 3) * 256 + 1 * (j 2).val := rfl
  have hw1 := blk_w1 V c t; have hb1 := blk_b1 V c t; have hw2 := blk_w2 V c t; have hb2 := blk_b2 V c t; have hww := blk_ww V c t
  refine (predBlk_eq_predArr (iblk0 V c 0 t) (V c main_arg0) (iblk0 V c 2 t) (iblk0 V c 3 t) (iblk0 V c 4 t) (iblk0 V c 5 t) (iblk0 V c 6 t)
    j (((cfg0.win 7).blk t).view.emb j) (by omega) (by omega) (fun cc hi wi => blk_anchor V c t _ _ (by show ((((cfg0.win 7).blk t).view.emb j) 1).val = t.val * 64 + (j 1).val; omega) rfl rfl rfl)).trans ?_
  rw [hw1, hb1, hw2, hb2, hww]

theorem flushed_pos (c : Dev nD) (t : Fin cfg0.N) :
    (dat0 V c).flushed 8 t = ((cfg0.win 8).blk t).view.read (Elt Ideal) (Spec.posArr (V c main_arg1)) := by
  show (cfg0.win 8).cut (grid0.coords t) ((dat0 V c).after 8 t) = _
  rw [after0_8, out_pos]
  funext j
  show posBlk (iblk0 V c 1 t) j = Spec.posArr (V c main_arg1) (((cfg0.win 8).blk t).view.emb j)
  obtain ⟨-, -, -, -, -, -, -, -, ⟨e0, e1, e2⟩⟩ := idx_facts t
  have q0 : ((((cfg0.win 8).blk t).view.emb j) 0).val = win0_8.index t (0 : Fin 3) * 64 + 1 * (j 0).val := rfl
  have q1 : ((((cfg0.win 8).blk t).view.emb j) 1).val = win0_8.index t (1 : Fin 3) * 64 + 1 * (j 1).val := rfl
  have q2 : ((((cfg0.win 8).blk t).view.emb j) 2).val = win0_8.index t (2 : Fin 3) * 256 + 1 * (j 2).val := rfl
  exact posBlk_eq_posArr (iblk0 V c 1 t) (V c main_arg1) j (((cfg0.win 8).blk t).view.emb j) (by omega) (by omega)
    (fun cc hi wi => blk_positive V c t _ _ (by show ((((cfg0.win 8).blk t).view.emb j) 1).val = t.val * 64 + (j 1).val; omega) rfl rfl rfl)

/-! ## The sixteen row ranges cover the batch axis -/

theorem mem_blk7 (t : Fin cfg0.N) (i : S64x1024x256.Idx) :
    i ∈ ((cfg0.win 7).blk t).view.set ↔ ∀ a : Fin 3, win0_7.index t a * S64x64x256.size a ≤ (i a).val ∧ (i a).val < win0_7.index t a * S64x64x256.size a + S64x64x256.size a := by
  show i ∈ ((View.whole main_v8_0).slice (win0_7.rect t)).set ↔ _
  rw [View.set_slice_whole, Rect.mem_set_unit]
  exact Iff.rfl

theorem mem_blk8 (t : Fin cfg0.N) (i : S64x1024x256.Idx) :
    i ∈ ((cfg0.win 8).blk t).view.set ↔ ∀ a : Fin 3, win0_8.index t a * S64x64x256.size a ≤ (i a).val ∧ (i a).val < win0_8.index t a * S64x64x256.size a + S64x64x256.size a := by
  show i ∈ ((View.whole main_v8_1).slice (win0_8.rect t)).set ↔ _
  rw [View.set_slice_whole, Rect.mem_set_unit]
  exact Iff.rfl

theorem cover7 (i : S64x1024x256.Idx) : ∃ t : Fin cfg0.N, (cfg0.win 7).flush t = true ∧ i ∈ ((cfg0.win 7).blk t).view.set := by
  have h0 : (i 0).val < 64 := (i 0).isLt
  have h1 : (i 1).val < 1024 := (i 1).isLt
  have h2 : (i 2).val < 256 := (i 2).isLt
  refine ⟨⟨(i 1).val / 64, by show (i 1).val / 64 < 16; omega⟩, flush0_7 _, ?_⟩
  rw [mem_blk7]
  obtain ⟨-, -, -, -, -, -, -, ⟨e0, e1, e2⟩, -⟩ := idx_facts ⟨(i 1).val / 64, by show (i 1).val / 64 < 16; omega⟩
  have e1' : win0_7.index ⟨(i 1).val / 64, by show (i 1).val / 64 < 16; omega⟩ (1 : Fin 3) = (i 1).val / 64 := e1
  intro a
  match a with
  | ⟨0, _⟩ => show win0_7.index _ (0 : Fin 3) * 64 ≤ (i 0).val ∧ (i 0).val < win0_7.index _ (0 : Fin 3) * 64 + 64; omega
  | ⟨1, _⟩ => show win0_7.index _ (1 : Fin 3) * 64 ≤ (i 1).val ∧ (i 1).val < win0_7.index _ (1 : Fin 3) * 64 + 64; omega
  | ⟨2, _⟩ => show win0_7.index _ (2 : Fin 3) * 256 ≤ (i 2).val ∧ (i 2).val < win0_7.index _ (2 : Fin 3) * 256 + 256; omega

theorem cover8 (i : S64x1024x256.Idx) : ∃ t : Fin cfg0.N, (cfg0.win 8).flush t = true ∧ i ∈ ((cfg0.win 8).blk t).view.set := by
  have h0 : (i 0).val < 64 := (i 0).isLt
  have h1 : (i 1).val < 1024 := (i 1).isLt
  have h2 : (i 2).val < 256 := (i 2).isLt
  refine ⟨⟨(i 1).val / 64, by show (i 1).val / 64 < 16; omega⟩, flush0_8 _, ?_⟩
  rw [mem_blk8]
  obtain ⟨-, -, -, -, -, -, -, -, ⟨e0, e1, e2⟩⟩ := idx_facts ⟨(i 1).val / 64, by show (i 1).val / 64 < 16; omega⟩
  have e1' : win0_8.index ⟨(i 1).val / 64, by show (i 1).val / 64 < 16; omega⟩ (1 : Fin 3) = (i 1).val / 64 := e1
  intro a
  match a with
  | ⟨0, _⟩ => show win0_8.index _ (0 : Fin 3) * 64 ≤ (i 0).val ∧ (i 0).val < win0_8.index _ (0 : Fin 3) * 64 + 64; omega
  | ⟨1, _⟩ => show win0_8.index _ (1 : Fin 3) * 64 ≤ (i 1).val ∧ (i 1).val < win0_8.index _ (1 : Fin 3) * 64 + 64; omega
  | ⟨2, _⟩ => show win0_8.index _ (2 : Fin 3) * 256 ≤ (i 2).val ∧ (i 2).val < win0_8.index _ (2 : Fin 3) * 256 + 256; omega

/-! ## The arrays after the region -/

/-- The prediction array after the first region. -/
theorem arr_pred (c : Dev nD) :
    (dat0 V c).arrAt 7 cfg0.N = Spec.predArr (V c main_arg0) (V c main_v1) (V c main_v6) (V c main_v3) (V c main_v7) (V c main_v5) :=
  (dat0 V c).arrAt_eq_of_cover 7 _ (fun t _ => flushed_pred V c t) cover7

/-- The positive array after the first region. -/
theorem arr_pos (c : Dev nD) : (dat0 V c).arrAt 8 cfg0.N = Spec.posArr (V c main_arg1) :=
  (dat0 V c).arrAt_eq_of_cover 8 _ (fun t _ => flushed_pos V c t) cover8

end Cert.KernelIdeal.Pass1

end
-- ==== Proof.Pass2.lean ====
/-
  The second kernel, read as one function of its two input arrays.

  At grid point p the kernel holds slab p of the prediction array and slab p of the positive array, each a
  [1, 1024, 256] block, and writes slab p of the result, a [1, 1024, 1024] block.  Viewed as [1024, 256] matrices
  A (predictions) and Q (positives), the body forms the logits  L[b, k] = Σ_d A[b, d] · Q[k, d]  (a product
  contracting the channel axis of both, into a zero accumulator), the row maxima  M[b] = max_k L[b, k]  folded
  from −∞, and stores  L[b, k] − M[b].  That is the specification's  out  on the rows of the two slabs, and since
  the 64 points' blocks are the 64 slabs of the arrays, the result array is  fromRows  of the two input arrays.
-/
import proofs.«104337_j62981400428716_2_alg».proof.Proof.Spec
import proofs.«104337_j62981400428716_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Pass2

open Cert.KernelIdeal Cert.KernelIdeal.Gen Idealize.ShloMosaic Idealize.ShloMosaic.TcCoe Idealize.SL.Sem
open Idealize.ShloMosaic.ValueIdx
open Idealize.ShloMosaic.Pipeline (Dat)

/-! ## The layout operations of the body, read at an index -/

/-- A [1, 1024, 256] block viewed as a [1024, 256] matrix: entry (r, d) is the block's (0, r, d). -/
theorem castIn_apply (x : Vec Ideal S1x1024x256 .bf16) (r : Fin 1024) (d : Fin 256) :
    shapeCast S1024x256 x shapeCasts_S1x1024x256_S1024x256 (ix2 r d) = x (ix3 (0 : Fin 1) r d) := by
  refine (shapeCast_dropUnit_apply ![1024, 256] x shapeCasts_S1x1024x256_S1024x256 (ix2 r d)).trans ?_
  refine congrArg x (funext fun a => ?_)
  match a with
  | ⟨0, _⟩ => rfl
  | ⟨1, _⟩ => rfl
  | ⟨2, _⟩ => rfl

/-- A [1024, 1024] matrix stored as a [1, 1024, 1024] block: the block's (0, b, k) is the matrix's (b, k). -/
theorem castOut_apply (v : FVec Ideal S1024x1024 .f32) (b k : Fin 1024) :
    shapeCast S1x1024x1024 v shapeCasts_S1024x1024_S1x1024x1024 (ix3 (0 : Fin 1) b k) = v (ix2 b k) := by
  refine (shapeCast_addUnit_apply ![1024, 1024] v shapeCasts_S1024x1024_S1x1024x1024 (ix3 (0 : Fin 1) b k)).trans ?_
  refine congrArg v (funext fun a => ?_)
  match a with
  | ⟨0, _⟩ => rfl
  | ⟨1, _⟩ => rfl

/-- A length-1024 vector viewed as a [1024, 1] column: entry (b, 0) is the vector's b. -/
theorem column_apply (v : FVec Ideal S1024 .f32) (b : Fin 1024) :
    shapeCast S1024x1 v shapeCasts_S1024_S1024x1 (ix2 b (0 : Fin 1)) = v (ix1 b) := by
  refine shapeCast_apply v shapeCasts_S1024_S1024x1 (ix2 b (0 : Fin 1)) (ix1 b) ?_
  rw [Shape.rowMajor_val_one, Shape.rowMajor_val_two]
  show b.val = b.val * 1 + 0
  omega

/-- A [1024, 1] column broadcast along its unit axis: entry (b, k) is the column's (b, 0). -/
theorem spread_apply (v : FVec Ideal S1024x1 .f32) (b k : Fin 1024) :
    broadcastTo S1024x1024 v broadcasts_S1024x1_S1024x1024 (ix2 b k) = v (ix2 b (0 : Fin 1)) := by
  refine broadcastTo_apply v broadcasts_S1024x1_S1024x1024 (ix2 b k) (ix2 b (0 : Fin 1)) fun a => ?_
  match a with
  | ⟨0, _⟩ => rfl
  | ⟨1, _⟩ => rfl

/-! ## The product and the row maximum, read at an index -/

/-- The product's left operand is read on its row axis at the result's row … -/
theorem lhs_row (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl
/-- … and on its channel axis at the contraction index; -/
theorem lhs_chan (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
/-- the right operand on its row axis at the result's COLUMN … -/
theorem rhs_row (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl
/-- … and on its channel axis at the contraction index. -/
theorem rhs_chan (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The product contracting the channel axis of both matrices, into the zero accumulator:
    entry (b, k) is Σ_d A[b, d] · Q[k, d]. -/
theorem product_apply (y0 y1 : FVec Ideal S1024x256 .bf16) (b k : Fin 1024) :
    matmul dot_S1024x256_S1024x256_S1024x1024_1_1_0_0_n_n none y0 y1 (constant S1024x1024 .f32 0x00000000#32) (ix2 b k)
      = ∑ d : Fin 256, y0 (ix2 b d) * y1 (ix2 k d) := by
  refine (Ideal.matmul_constant_zero_apply dot_S1024x256_S1024x256_S1024x1024_1_1_0_0_n_n none y0 y1 (ix2 b k)).trans ?_
  rw [← Equiv.sum_comp (ValueIdx.contrEquiv1 dot_S1024x256_S1024x256_S1024x1024_1_1_0_0_n_n 256 rfl rfl).symm]
  refine Finset.sum_congr rfl fun d _ => ?_
  have hk := ValueIdx.contrEquiv1_symm_val dot_S1024x256_S1024x256_S1024x1024_1_1_0_0_n_n 256 rfl rfl d
  have el : dot_S1024x256_S1024x256_S1024x1024_1_1_0_0_n_n.lhsIdx (ix2 b k)
      ((ValueIdx.contrEquiv1 dot_S1024x256_S1024x256_S1024x1024_1_1_0_0_n_n 256 rfl rfl).symm d) = ix2 b d :=
    funext fun a => Fin.ext (by
      match a with
      | ⟨0, _⟩ => exact lhs_row _ _
      | ⟨1, _⟩ => exact (lhs_chan _ _).trans hk)
  have er : dot_S1024x256_S1024x256_S1024x1024_1_1_0_0_n_n.rhsIdx (ix2 b k)
      ((ValueIdx.contrEquiv1 dot_S1024x256_S1024x256_S1024x1024_1_1_0_0_n_n 256 rfl rfl).symm d) = ix2 k d :=
    funext fun a => Fin.ext (by
      match a with
      | ⟨0, _⟩ => exact rhs_row _ _
      | ⟨1, _⟩ => exact (rhs_chan _ _).trans hk)
  rw [el, er]

/-- The maximum over axis 1 of a [1024, 1024] matrix, folded from the literal −∞: entry b is the fold of max over
    k of the matrix's (b, k). -/
theorem rowMax_apply (v : FVec Ideal S1024x1024 .f32) (h : S1024x1024.Reduces [1] S1024) (hφ : FKind.Formats .f32)
    (hacc : (0xFF800000#32 : BitVec 32) = FKind.maximumf.neutral .f32 hφ) (b : Fin 1024) :
    multiReduction .maximumf [1] S1024 v 0xFF800000#32 h hφ hacc (ix1 b)
      = (Finset.univ : Finset (Fin 1024)).fold max (Ideal.ofBits .f32 0xFF800000#32) fun k => v (ix2 b k) := by
  refine (Ideal.multiReduction_maximumf_single v 0xFF800000#32 h hφ hacc (ix1 b)).trans ?_
  refine congrArg (Finset.fold max (Ideal.ofBits .f32 0xFF800000#32) · (Finset.univ : Finset (Fin 1024))) (funext fun k => ?_)
  refine congrArg v (funext fun a => Fin.ext ?_)
  match a with
  | ⟨0, _⟩ => rfl
  | ⟨1, _⟩ => rfl

/-! ## The body's stored block at an index -/

/-- The logits of one point: the two blocks viewed as matrices, multiplied along the channel axis. -/
def logits (x0 x1 : Vec Ideal S1x1024x256 .bf16) : FVec Ideal S1024x1024 .f32 :=
  matmul dot_S1024x256_S1024x256_S1024x1024_1_1_0_0_n_n none
    (shapeCast S1024x256 x0 shapeCasts_S1x1024x256_S1024x256 : FVec Ideal S1024x256 .bf16)
    (shapeCast S1024x256 x1 shapeCasts_S1x1024x256_S1024x256 : FVec Ideal S1024x256 .bf16)
    (constant S1024x1024 .f32 0x00000000#32)

/-- Entry (b, k) of the logits is the specification's logit of row b of the first block against row k of the second. -/
theorem logits_apply (x0 x1 : Vec Ideal S1x1024x256 .bf16) (b k : Fin 1024) :
    logits x0 x1 (ix2 b k) = Spec.logit (fun d => x0 (ix3 (0 : Fin 1) b d)) (fun d => x1 (ix3 (0 : Fin 1) k d)) := by
  unfold logits Spec.logit
  refine (product_apply _ _ b k).trans ?_
  refine Finset.sum_congr rfl fun d _ => ?_
  rw [castIn_apply, castIn_apply]

/-- What the body stores, in terms of the logits: the logits minus their row maxima spread along the rows, as a
    [1, 1024, 1024] block. -/
theorem pay_eq (x0 x1 : Vec Ideal S1x1024x256 .bf16) :
    k1_pay1 (F := Ideal) x0 x1 = shapeCast S1x1024x1024 (subf (logits x0 x1) (broadcastTo S1024x1024 (shapeCast S1024x1
      (multiReduction .maximumf [1] S1024 (logits x0 x1) 0xFF800000#32 reduces_S1024x1024_S1024 (.inl rfl) rfl)
      shapeCasts_S1024_S1024x1) broadcasts_S1024x1_S1024x1024)) shapeCasts_S1024x1024_S1x1024x1024 := rfl

/-- The stored block at (0, b, k): the logit of row b against row k, minus the maximum over k' of the logit of row b
    against row k'. -/
theorem pay_apply (x0 x1 : Vec Ideal S1x1024x256 .bf16) (b k : Fin 1024) :
    (k1_pay1 (F := Ideal) x0 x1 : S1x1024x1024.Idx → EReal) (ix3 (0 : Fin 1) b k)
      = Spec.logit (fun d => x0 (ix3 (0 : Fin 1) b d)) (fun d => x1 (ix3 (0 : Fin 1) k d))
        - Spec.rowmax fun k' => Spec.logit (fun d => x0 (ix3 (0 : Fin 1) b d)) (fun d => x1 (ix3 (0 : Fin 1) k' d)) := by
  rw [pay_eq]
  refine (castOut_apply _ b k).trans ?_
  rw [subf_apply]
  refine congrArg₂ (· - ·) (logits_apply x0 x1 b k) ?_
  refine (spread_apply _ b k).trans ?_
  refine (column_apply _ b).trans ?_
  refine (rowMax_apply _ _ _ _ b).trans ?_
  unfold Spec.rowmax
  exact congrArg (Finset.fold max (Ideal.ofBits .f32 0xFF800000#32) · (Finset.univ : Finset (Fin 1024)))
    (funext fun k' => logits_apply x0 x1 b k')

/-! ## From the blocks to the array -/

theorem hz : (![0, 0, 0] : Fin 3 → Nat) = fun _ => 0 := funext fun a => by fin_cases a <;> rfl

/-- The stored block of a point whose two input blocks are slab p of two arrays PR and PO, at a block index j, is the
    specification's result on PR and PO at the array index i = (p, j₁, j₂). -/
theorem block_eq (PR PO : S64x1024x256.Idx → EReal) (p : Fin 64) (x0 x1 : Vec Ideal S1x1024x256 .bf16)
    (h0 : ∀ (r : Fin 1024) (d : Fin 256), x0 (ix3 (0 : Fin 1) r d) = PR (ix3 p r d))
    (h1 : ∀ (r : Fin 1024) (d : Fin 256), x1 (ix3 (0 : Fin 1) r d) = PO (ix3 p r d))
    (j : S1x1024x1024.Idx) (i : S64x1024x1024.Idx)
    (hi0 : (i 0).val = p.val) (hi1 : (i 1).val = (j 1).val) (hi2 : (i 2).val = (j 2).val) :
    (k1_pay1 (F := Ideal) x0 x1 : S1x1024x1024.Idx → EReal) j = Spec.fromRows PR PO i := by
  obtain ⟨z, b, k, rfl⟩ : ∃ (z : Fin 1) (b k : Fin 1024), j = ix3 z b k := ⟨j 0, j 1, j 2, eq_ix3 j⟩
  obtain rfl : z = 0 := Subsingleton.elim _ _
  rw [pay_apply]
  have e0 : (fun d => x0 (ix3 (0 : Fin 1) b d)) = Spec.rows PR p b := funext fun d => h0 b d
  have e1 : ∀ k' : Fin 1024, (fun d => x1 (ix3 (0 : Fin 1) k' d)) = Spec.rows PO p k' := fun k' => funext fun d => h1 k' d
  simp only [e0, e1]
  have hp : (⟨(i 0).val, (i 0).isLt⟩ : Fin 64) = p := Fin.ext hi0
  have hb : (⟨(i 1).val, (i 1).isLt⟩ : Fin 1024) = b := Fin.ext hi1
  have hk : (⟨(i 2).val, (i 2).isLt⟩ : Fin 1024) = k := Fin.ext hi2
  unfold Spec.fromRows Spec.out
  rw [hp, hb, hk]

/-- Every window's block index at point t is (t, 0, 0): point t holds slab t of each of the three arrays. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

section AtEntry
variable (V : (c : Dev nD) → (b : Ref sig .tc) → Buf (Elt Ideal) ((c : Thread nD τ).loc b))

/-- Point t's block of the prediction array is its slab t: the block's (y₀, y₁, y₂) is the array's (t, y₁, y₂). -/
theorem iblk0_apply (c : Dev nD) (t : Fin cfg1.N) (y : S1x1024x256.Idx) (i : S64x1024x256.Idx)
    (h0 : (i 0).val = t.val) (h1 : (i 1).val = (y 1).val) (h2 : (i 2).val = (y 2).val) :
    (iblk1 (F := Ideal) V c 0 t : Vec Ideal S1x1024x256 .bf16) y = (V c main_v8_0 : S64x1024x256.Idx → EReal) i := by
  obtain ⟨e0, e1, e2, -⟩ := idx_facts t
  unfold iblk1
  rw [View.read_apply]
  show V c main_v8_0 (((cfg1.win 0).blk t).view.emb y) = V c main_v8_0 i
  refine congrArg (V c main_v8_0) (funext fun a => Fin.ext ?_)
  have hy : (y 0).val < 1 := (y 0).isLt
  match a with
  | ⟨0, _⟩ => show win1_0.index t (0 : Fin 3) * 1 + 1 * (y 0).val = (i 0).val; omega
  | ⟨1, _⟩ => show win1_0.index t (1 : Fin 3) * 1024 + 1 * (y 1).val = (i 1).val; omega
  | ⟨2, _⟩ => show win1_0.index t (2 : Fin 3) * 256 + 1 * (y 2).val = (i 2).val; omega

/-- Point t's block of the positive array is its slab t. -/
theorem iblk1_apply (c : Dev nD) (t : Fin cfg1.N) (y : S1x1024x256.Idx) (i : S64x1024x256.Idx)
    (h0 : (i 0).val = t.val) (h1 : (i 1).val = (y 1).val) (h2 : (i 2).val = (y 2).val) :
    (iblk1 (F := Ideal) V c 1 t : Vec Ideal S1x1024x256 .bf16) y = (V c main_v8_1 : S64x1024x256.Idx → EReal) i := by
  obtain ⟨-, -, -, e0, e1, e2, -⟩ := idx_facts t
  unfold iblk1
  rw [View.read_apply]
  show V c main_v8_1 (((cfg1.win 1).blk t).view.emb y) = V c main_v8_1 i
  refine congrArg (V c main_v8_1) (funext fun a => Fin.ext ?_)
  have hy : (y 0).val < 1 := (y 0).isLt
  match a with
  | ⟨0, _⟩ => show win1_1.index t (0 : Fin 3) * 1 + 1 * (y 0).val = (i 0).val; omega
  | ⟨1, _⟩ => show win1_1.index t (1 : Fin 3) * 1024 + 1 * (y 1).val = (i 1).val; omega
  | ⟨2, _⟩ => show win1_1.index t (2 : Fin 3) * 256 + 1 * (y 2).val = (i 2).val; omega

end AtEntry

section Final
variable (V : (c : Dev nD) → (b : Ref sig .tc) → Buf (Elt Ideal) ((c : Thread nD τ).loc b))

/-- What point t writes back is block t — slab t — of the specification's result on the two arrays as the kernel finds them. -/
theorem flushed_eq (c : Dev nD) (t : Fin cfg1.N) :
    (dat1 (F := Ideal) V c).flushed 2 t
      = ((cfg1.win 2).blk t).view.read (Elt Ideal) (Spec.fromRows (V c main_v8_0) (V c main_v8_1)) := by
  have hN : cfg1.N = 64 := N_1
  obtain ⟨-, -, -, -, -, -, e0, e1, e2⟩ := idx_facts t
  show (cfg1.win 2).cut (grid1.coords t) ((dat1 V c).after 2 t) = _
  rw [after1_2]
  unfold out1_2
  rw [View.canon_unit_zero hz]
  simp only [View.ld_unit_zero (S := S1x1024x256) hz]
  funext j
  rw [View.read_apply]
  have hj : (j 0).val < 1 := (j 0).isLt
  refine block_eq (V c main_v8_0) (V c main_v8_1) ⟨t.val, by omega⟩ (iblk1 V c 0 t) (iblk1 V c 1 t)
    (fun r d => iblk0_apply V c t (ix3 (0 : Fin 1) r d) (ix3 ⟨t.val, by omega⟩ r d) rfl rfl rfl)
    (fun r d => iblk1_apply V c t (ix3 (0 : Fin 1) r d) (ix3 ⟨t.val, by omega⟩ r d) rfl rfl rfl)
    j (((cfg1.win 2).blk t).view.emb j) ?_ ?_ ?_
  · show win1_2.index t (0 : Fin 3) * 1 + 1 * (j 0).val = t.val; omega
  · show win1_2.index t (1 : Fin 3) * 1024 + 1 * (j 1).val = (j 1).val; omega
  · show win1_2.index t (2 : Fin 3) * 1024 + 1 * (j 2).val = (j 2).val; omega

/-- An index of the result array is in point t's block iff each coordinate is in the block's range on its axis. -/
theorem mem_blk (t : Fin cfg1.N) (i : S64x1024x1024.Idx) :
    i ∈ ((cfg1.win 2).blk t).view.set ↔ ∀ a : Fin 3, win1_2.index t a * S1x1024x1024.size a ≤ (i a).val
      ∧ (i a).val < win1_2.index t a * S1x1024x1024.size a + S1x1024x1024.size a := by
  show i ∈ ((View.whole main_v9).slice (win1_2.rect t)).set ↔ _
  rw [View.set_slice_whole, Rect.mem_set_unit]
  exact Iff.rfl

/-- Every index (p, b, k) of the result array lies in the block of point p. -/
theorem cover (i : S64x1024x1024.Idx) : ∃ t : Fin cfg1.N, (cfg1.win 2).flush t = true ∧ i ∈ ((cfg1.win 2).blk t).view.set := by
  have hN : cfg1.N = 64 := N_1
  have hi0 : (i 0).val < 64 := (i 0).isLt
  have hi1 : (i 1).val < 1024 := (i 1).isLt
  have hi2 : (i 2).val < 1024 := (i 2).isLt
  obtain ⟨t, ht⟩ : ∃ t : Fin cfg1.N, t.val = (i 0).val := ⟨⟨(i 0).val, by omega⟩, rfl⟩
  refine ⟨t, flush1_2 t, ?_⟩
  obtain ⟨-, -, -, -, -, -, e0, e1, e2⟩ := idx_facts t
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 1024 ≤ (i 2).val ∧ (i 2).val < win1_2.index t (2 : Fin 3) * 1024 + 1024; omega

/-- The result array after the second kernel: the specification's result on the two arrays the kernel is entered with. -/
theorem arr_pass2 (c : Dev nD) :
    (dat1 (F := Ideal) V c).arrAt 2 cfg1.N = Spec.fromRows (V c main_v8_0) (V c main_v8_1) :=
  (dat1 (F := Ideal) V c).arrAt_eq_of_cover 2 (Spec.fromRows (V c main_v8_0) (V c main_v8_1))
    (fun t _ => flushed_eq V c t) cover

end Final

end Cert.KernelIdeal.Pass2

end
-- ==== Proof.KernelValue.lean ====
/-
  The kernel program's result is the specification.

  The result buffer ends at what the second pipeline leaves: `fromRows` of the two arrays the first pipeline leaves,
  which are `predArr` of the anchor and the transposed weights the first region is entered with, and `posArr` of the
  positive array. The host operations before the first region only transpose the weights (and round them to bf16:
  nothing at Ideal) and lay the biases out as rows, so reading the transposed weights back through their transposes
  gives the specification's `result` of the seven argument arrays.
-/
import proofs.«104337_j62981400428716_2_alg».proof.Proof.KernelRun
import proofs.«104337_j62981400428716_2_alg».proof.Proof.KernelEntry
import proofs.«104337_j62981400428716_2_alg».proof.Proof.Pass1Array
import proofs.«104337_j62981400428716_2_alg».proof.Proof.Pass2

noncomputable section

namespace Cert.KernelIdeal.RunValue

open Cert.KernelIdeal Cert.KernelIdeal.Gen Idealize.ShloMosaic Idealize.ShloMosaic.ValueIdx Idealize.ShloMosaic.TcCoe
open Idealize.SL.Sem

variable (m : (ℓ : Loc nD τ sig) → Buf (Elt Ideal) ℓ) (ρ : Dev nD → PrngReg)

/-- What the result buffer ends holding, as the specification's function of the argument arrays. -/
theorem result_is_spec (c : Dev nD) :
    Gen.W3 m ρ c (Proc.devRef .tc main_v9)
      = Cert.Spec.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  have hpred := (mid_eq_pred m ρ c).trans (Pass1.arr_pred (Gen.V1 m ρ) c)
  have hpos := (mid_eq_pos m ρ c).trans (Pass1.arr_pos (Gen.V1 m ρ) c)
  refine (result_eq m ρ c).trans ((Pass2.arr_pass2 (Gen.V2 m ρ) c).trans ?_)
  refine (congr (congrArg Cert.Spec.fromRows hpred) hpos).trans ?_
  exact Cert.Spec.fromRows_predArr_posArr _ _ _ _ _ _ _ _ _ _ _ _ _ _ (entry_anchor m ρ c) (entry_positive m ρ c)
    (entry_w1t m ρ c) (entry_b1r m ρ c) (entry_w2t m ρ c) (entry_b2r m ρ c) (entry_wwt m ρ c)

/-- The kernel program's run: every weakly fair execution terminates with the result buffer at the specification
    of the argument arrays and the arguments unchanged. -/
theorem run : θ_run defs (onTc (τ := τ) (main (F := Ideal))) ⟨m, fun _ => 0, ρ⟩ (fun r => ∀ c : Dev nD,
      r.2.mem ((c.tc : Thread nD τ).loc main_v9)
        = Cert.Spec.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_is_spec m ρ c), (h c).2⟩) (run_value m ρ)

end Cert.KernelIdeal.RunValue

end
-- ==== Proof.lean ====
/-
  The certificate's five claims.

  Both idealized programs compute, on the extended reals, the same function of the seven argument arrays — the
  specification `Cert.Spec.result`: per pixel and batch row the residual MLP's prediction row, its logits against the
  positive rows of the pixel, minus the row maximum. The kernel does it in two pipelined regions over blocks (its run:
  Proof/KernelValue.lean), the reference in one chain of host operations (its generated run, read index by index in
  Proof/RefSpec.lean). Every operation is matched by the same exact operation on the other side (the same finite
  sums in the same order, the same fold of max from −∞, roundings to bf16 the identity), so no input needs to be
  finite and the precondition is never opened. The ideal pass rewrote nothing, so `preserves` is `True`. The three
  frames are the generated ones (the reference's is its generated run with the result dropped).
-/
import proofs.«104337_j62981400428716_2_alg».proof.Defs
import proofs.«104337_j62981400428716_2_alg».proof.Proof.Gen.Kernel
import proofs.«104337_j62981400428716_2_alg».proof.Proof.Gen.Kernel.Skeleton
import proofs.«104337_j62981400428716_2_alg».proof.Proof.Gen.Kernel.Launch
import proofs.«104337_j62981400428716_2_alg».proof.Proof.Gen.Kernel.Points
import proofs.«104337_j62981400428716_2_alg».proof.Proof.Gen.Kernel.Frame
import proofs.«104337_j62981400428716_2_alg».proof.Proof.Gen.KernelIdeal
import proofs.«104337_j62981400428716_2_alg».proof.Proof.Gen.KernelIdeal.Skeleton
import proofs.«104337_j62981400428716_2_alg».proof.Proof.Gen.KernelIdeal.Launch
import proofs.«104337_j62981400428716_2_alg».proof.Proof.Gen.KernelIdeal.Points
import proofs.«104337_j62981400428716_2_alg».proof.Proof.Gen.KernelIdeal.Frame
import proofs.«104337_j62981400428716_2_alg».proof.Proof.Gen.ReferenceIdeal
import proofs.«104337_j62981400428716_2_alg».proof.Proof.Gen.Pre_finite_inputs
import proofs.«104337_j62981400428716_2_alg».proof.Proof.Gen.ReferenceIdeal.Run
import proofs.«104337_j62981400428716_2_alg».proof.Proof.Gen.ReferenceIdeal.Read
import proofs.«104337_j62981400428716_2_alg».proof.Proof.RefSpec
import proofs.«104337_j62981400428716_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference has no kernel: its frame is its run with the result forgotten. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories agreeing on the arguments both programs end with the result buffer at the specification of the
    arguments: the kernel by its run, the reference by its run read as the specification. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.RefSpec.ref_is_spec, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
